-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x1935 : Shape := ⟨2, ![384, 1935]⟩
abbrev S384x5 : Shape := ⟨2, ![384, 5]⟩
abbrev S1935x300 : Shape := ⟨2, ![1935, 300]⟩
abbrev S1935 : Shape := ⟨1, ![1935]⟩
abbrev S2 : Shape := ⟨1, ![2]⟩
abbrev S300x600 : Shape := ⟨2, ![300, 600]⟩
abbrev S300 : Shape := ⟨1, ![300]⟩
abbrev S300x10 : Shape := ⟨2, ![300, 10]⟩
abbrev S300x300 : Shape := ⟨2, ![300, 300]⟩
abbrev S_ : Shape := ⟨0, ![]⟩

class Facts : Prop where
  bcast_S_S384x1935 : S_.BroadcastsInDim S384x1935 (![] : Fin 0 → Fin S384x1935.rank)
  reducesTo_S384x1935_S_d0_1 : S384x1935.ReducesTo [0, 1] S_
  h_S_ : 0 < S_.numel
  bcast_S_S384x5 : S_.BroadcastsInDim S384x5 (![] : Fin 0 → Fin S384x5.rank)
  reducesTo_S384x5_S_d0_1 : S384x5.ReducesTo [0, 1] S_
  bcast_S_S1935x300 : S_.BroadcastsInDim S1935x300 (![] : Fin 0 → Fin S1935x300.rank)
  reducesTo_S1935x300_S_d0_1 : S1935x300.ReducesTo [0, 1] S_
  bcast_S_S1935 : S_.BroadcastsInDim S1935 (![] : Fin 0 → Fin S1935.rank)
  reducesTo_S1935_S_d0 : S1935.ReducesTo [0] S_
  bcast_S_S2 : S_.BroadcastsInDim S2 (![] : Fin 0 → Fin S2.rank)
  reducesTo_S2_S_d0 : S2.ReducesTo [0] S_
  bcast_S_S300x600 : S_.BroadcastsInDim S300x600 (![] : Fin 0 → Fin S300x600.rank)
  reducesTo_S300x600_S_d0_1 : S300x600.ReducesTo [0, 1] S_
  bcast_S_S300 : S_.BroadcastsInDim S300 (![] : Fin 0 → Fin S300.rank)
  reducesTo_S300_S_d0 : S300.ReducesTo [0] S_
  bcast_S_S300x10 : S_.BroadcastsInDim S300x10 (![] : Fin 0 → Fin S300x10.rank)
  reducesTo_S300x10_S_d0_1 : S300x10.ReducesTo [0, 1] S_
  bcast_S_S300x300 : S_.BroadcastsInDim S300x300 (![] : Fin 0 → Fin S300x300.rank)
  reducesTo_S300x300_S_d0_1 : S300x300.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S300 .f32) (main_arg12 : FVec F S300x300 .f32) (main_arg13 : FVec F S300 .f32) (main_v48 : IVec S_ 1) (main_v49 : FVec F S300x10 .f32) (main_v50 : FVec F S300x10 .f32) : IVec S_ 1 :=
  let main_v51 : IVec S300x10 1 := cmpf .olt main_v49 main_v50
  let main_c_19 : IVec S_ 1 := constantI S_ 1 1#1
  let main_v52 : IVec S_ 1 := (fun x v => Host.reduce IntOp.andi x v reducesTo_S300x10_S_d0_1 h_S_) main_v51 main_c_19
  let main_v53 : IVec S_ 1 := andi main_v48 main_v52
  let main_v54 : FVec F S300 .f32 := Host.absf main_arg11
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S300x300 .f32 := Host.absf main_arg12
  let main_cst_22 : FVec F S_ .f32 := constant S_ .f32 0x7F800000#32
  let main_v60 : FVec F S300x300 .f32 := broadcastInDim S300x300 ![] bcast_S_S300x300 main_cst_22
  let main_v61 : IVec S300x300 1 := cmpf .olt main_v59 main_v60
  let main_c_23 : IVec S_ 1 := constantI S_ 1 1#1
  let main_v62 : IVec S_ 1 := (fun x v => Host.reduce IntOp.andi x v reducesTo_S300x300_S_d0_1 h_S_) main_v61 main_c_23
  let main_v63 : IVec S_ 1 := andi main_v58 main_v62
  let main_v64 : FVec F S300 .f32 := Host.absf main_arg13
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_v63 main_v67

def fn_part2 {F : FTy → Type} [FloatOps F] (main_arg7 : FVec F S2 .f32) (main_arg8 : FVec F S300x600 .f32) (main_arg9 : FVec F S300 .f32) (main_arg10 : FVec F S300x10 .f32) (main_arg11 : FVec F S300 .f32) (main_arg12 : FVec F S300x300 .f32) (main_arg13 : FVec F S300 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S300x600 .f32 := Host.absf main_arg8
  let main_cst_14 : FVec F S_ .f32 := constant S_ .f32 0x7F800000#32
  let main_v40 : FVec F S300x600 .f32 := broadcastInDim S300x600 ![] bcast_S_S300x600 main_cst_14
  let main_v41 : IVec S300x600 1 := cmpf .olt main_v39 main_v40
  let main_c_15 : IVec S_ 1 := constantI S_ 1 1#1
  let main_v42 : IVec S_ 1 := (fun x v => Host.reduce IntOp.andi x v reducesTo_S300x600_S_d0_1 h_S_) main_v41 main_c_15
  let main_v43 : IVec S_ 1 := andi main_v38 main_v42
  let main_v44 : FVec F S300 .f32 := Host.absf main_arg9
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S300x10 .f32 := Host.absf main_arg10
  let main_cst_18 : FVec F S_ .f32 := constant S_ .f32 0x7F800000#32
  let main_v50 : FVec F S300x10 .f32 := broadcastInDim S300x10 ![] bcast_S_S300x10 main_cst_18
  fn_part3 (F := F) main_arg11 main_arg12 main_arg13 main_v48 main_v49 main_v50

def fn_part1 {F : FTy → Type} [FloatOps F] (main_arg4 : FVec F S1935x300 .f32) (main_arg5 : FVec F S1935 .f32) (main_arg6 : FVec F S1935 .f32) (main_arg7 : FVec F S2 .f32) (main_arg8 : FVec F S300x600 .f32) (main_arg9 : FVec F S300 .f32) (main_arg10 : FVec F S300x10 .f32) (main_arg11 : FVec F S300 .f32) (main_arg12 : FVec F S300x300 .f32) (main_arg13 : FVec F S300 .f32) (main_v13 : IVec S_ 1) (main_v16 : IVec S384x5 1) : IVec S_ 1 :=
  let main_c_5 : IVec S_ 1 := constantI S_ 1 1#1
  let main_v17 : IVec S_ 1 := (fun x v => Host.reduce IntOp.andi x v reducesTo_S384x5_S_d0_1 h_S_) main_v16 main_c_5
  let main_v18 : IVec S_ 1 := andi main_v13 main_v17
  let main_v19 : FVec F S1935x300 .f32 := Host.absf main_arg4
  let main_cst_6 : FVec F S_ .f32 := constant S_ .f32 0x7F800000#32
  let main_v20 : FVec F S1935x300 .f32 := broadcastInDim S1935x300 ![] bcast_S_S1935x300 main_cst_6
  let main_v21 : IVec S1935x300 1 := cmpf .olt main_v19 main_v20
  let main_c_7 : IVec S_ 1 := constantI S_ 1 1#1
  let main_v22 : IVec S_ 1 := (fun x v => Host.reduce IntOp.andi x v reducesTo_S1935x300_S_d0_1 h_S_) main_v21 main_c_7
  let main_v23 : IVec S_ 1 := andi main_v18 main_v22
  let main_v24 : FVec F S1935 .f32 := Host.absf main_arg5
  let main_cst_8 : FVec F S_ .f32 := constant S_ .f32 0x7F800000#32
  let main_v25 : FVec F S1935 .f32 := broadcastInDim S1935 ![] bcast_S_S1935 main_cst_8
  let main_v26 : IVec S1935 1 := cmpf .olt main_v24 main_v25
  let main_c_9 : IVec S_ 1 := constantI S_ 1 1#1
  let main_v27 : IVec S_ 1 := (fun x v => Host.reduce IntOp.andi x v reducesTo_S1935_S_d0 h_S_) main_v26 main_c_9
  let main_v28 : IVec S_ 1 := andi main_v23 main_v27
  let main_v29 : FVec F S1935 .f32 := Host.absf main_arg6
  let main_cst_10 : FVec F S_ .f32 := constant S_ .f32 0x7F800000#32
  let main_v30 : FVec F S1935 .f32 := broadcastInDim S1935 ![] bcast_S_S1935 main_cst_10
  let main_v31 : IVec S1935 1 := cmpf .olt main_v29 main_v30
  let main_c_11 : IVec S_ 1 := constantI S_ 1 1#1
  let main_v32 : IVec S_ 1 := (fun x v => Host.reduce IntOp.andi x v reducesTo_S1935_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S384x1935 .f32) (main_arg1 : FVec F S384x5 .f32) (main_arg2 : FVec F S384x1935 .f32) (main_arg3 : FVec F S384x5 .f32) (main_arg4 : FVec F S1935x300 .f32) (main_arg5 : FVec F S1935 .f32) (main_arg6 : FVec F S1935 .f32) (main_arg7 : FVec F S2 .f32) (main_arg8 : FVec F S300x600 .f32) (main_arg9 : FVec F S300 .f32) (main_arg10 : FVec F S300x10 .f32) (main_arg11 : FVec F S300 .f32) (main_arg12 : FVec F S300x300 .f32) (main_arg13 : FVec F S300 .f32) : IVec S_ 1 :=
  let main_v0 : FVec F S384x1935 .f32 := Host.absf main_arg0
  let main_cst : FVec F S_ .f32 := constant S_ .f32 0x7F800000#32
  let main_v1 : FVec F S384x1935 .f32 := broadcastInDim S384x1935 ![] bcast_S_S384x1935 main_cst
  let main_v2 : IVec S384x1935 1 := cmpf .olt main_v0 main_v1
  let main_c : IVec S_ 1 := constantI S_ 1 1#1
  let main_v3 : IVec S_ 1 := (fun x v => Host.reduce IntOp.andi x v reducesTo_S384x1935_S_d0_1 h_S_) main_v2 main_c
  let main_v4 : FVec F S384x5 .f32 := Host.absf main_arg1
  let main_cst_0 : FVec F S_ .f32 := constant S_ .f32 0x7F800000#32
  let main_v5 : FVec F S384x5 .f32 := broadcastInDim S384x5 ![] bcast_S_S384x5 main_cst_0
  let main_v6 : IVec S384x5 1 := cmpf .olt main_v4 main_v5
  let main_c_1 : IVec S_ 1 := constantI S_ 1 1#1
  let main_v7 : IVec S_ 1 := (fun x v => Host.reduce IntOp.andi x v reducesTo_S384x5_S_d0_1 h_S_) main_v6 main_c_1
  let main_v8 : IVec S_ 1 := andi main_v3 main_v7
  let main_v9 : FVec F S384x1935 .f32 := Host.absf main_arg2
  let main_cst_2 : FVec F S_ .f32 := constant S_ .f32 0x7F800000#32
  let main_v10 : FVec F S384x1935 .f32 := broadcastInDim S384x1935 ![] bcast_S_S384x1935 main_cst_2
  let main_v11 : IVec S384x1935 1 := cmpf .olt main_v9 main_v10
  let main_c_3 : IVec S_ 1 := constantI S_ 1 1#1
  let main_v12 : IVec S_ 1 := (fun x v => Host.reduce IntOp.andi x v reducesTo_S384x1935_S_d0_1 h_S_) main_v11 main_c_3
  let main_v13 : IVec S_ 1 := andi main_v8 main_v12
  let main_v14 : FVec F S384x5 .f32 := Host.absf main_arg3
  let main_cst_4 : FVec F S_ .f32 := constant S_ .f32 0x7F800000#32
  let main_v15 : FVec F S384x5 .f32 := broadcastInDim S384x5 ![] bcast_S_S384x5 main_cst_4
  let main_v16 : IVec S384x5 1 := cmpf .olt main_v14 main_v15
  fn_part1 (F := F) main_arg4 main_arg5 main_arg6 main_arg7 main_arg8 main_arg9 main_arg10 main_arg11 main_arg12 main_arg13 main_v13 main_v16
-- ==== Kernel.lean ====
abbrev S384x1935 : Shape := ⟨2, ![384, 1935]⟩
abbrev S384x5 : Shape := ⟨2, ![384, 5]⟩
abbrev S1935x300 : Shape := ⟨2, ![1935, 300]⟩
abbrev S1935 : Shape := ⟨1, ![1935]⟩
abbrev S2 : Shape := ⟨1, ![2]⟩
abbrev S300x600 : Shape := ⟨2, ![300, 600]⟩
abbrev S300 : Shape := ⟨1, ![300]⟩
abbrev S300x10 : Shape := ⟨2, ![300, 10]⟩
abbrev S300x300 : Shape := ⟨2, ![300, 300]⟩
abbrev S1x1935 : Shape := ⟨2, ![1, 1935]⟩
abbrev S300x5 : Shape := ⟨2, ![300, 5]⟩
abbrev S5x300 : Shape := ⟨2, ![5, 300]⟩
abbrev S1x300 : Shape := ⟨2, ![1, 300]⟩
abbrev S_ : Shape := ⟨0, ![]⟩
abbrev S1 : Shape := ⟨1, ![1]⟩
abbrev S1x1 : Shape := ⟨2, ![1, 1]⟩
abbrev S384x300 : Shape := ⟨2, ![384, 300]⟩
abbrev S128x1935 : Shape := ⟨2, ![128, 1935]⟩
abbrev S128x5 : Shape := ⟨2, ![128, 5]⟩
abbrev S128x300 : Shape := ⟨2, ![128, 300]⟩
abbrev S384x384x300 : Shape := ⟨3, ![384, 384, 300]⟩
abbrev S64x300 : Shape := ⟨2, ![64, 300]⟩
abbrev S64x64x300 : Shape := ⟨3, ![64, 64, 300]⟩
abbrev S4096x300 : Shape := ⟨2, ![4096, 300]⟩
abbrev S8x300 : Shape := ⟨2, ![8, 300]⟩
abbrev S8x1x300 : Shape := ⟨3, ![8, 1, 300]⟩
abbrev S1x64x300 : Shape := ⟨3, ![1, 64, 300]⟩
abbrev S8x64x300 : Shape := ⟨3, ![8, 64, 300]⟩
abbrev S512x300 : Shape := ⟨2, ![512, 300]⟩
abbrev S1x1x300 : Shape := ⟨3, ![1, 1, 300]⟩

abbrev nBuf : Space → Nat
  | .hbm => 62
  | .vmem => 45
  | .smem => 0
  | _ => 0

abbrev bufTy : (tb : Table) → Fin (tcTables nBuf tb) → BufTy
  | .hbm, ⟨0, _⟩ => ⟨S384x1935, .f32⟩
  | .hbm, ⟨1, _⟩ => ⟨S384x5, .f32⟩
  | .hbm, ⟨2, _⟩ => ⟨S384x1935, .f32⟩
  | .hbm, ⟨3, _⟩ => ⟨S384x5, .f32⟩
  | .hbm, ⟨4, _⟩ => ⟨S1935x300, .f32⟩
  | .hbm, ⟨5, _⟩ => ⟨S1935, .f32⟩
  | .hbm, ⟨6, _⟩ => ⟨S1935, .f32⟩
  | .hbm, ⟨7, _⟩ => ⟨S2, .f32⟩
  | .hbm, ⟨8, _⟩ => ⟨S300x600, .f32⟩
  | .hbm, ⟨9, _⟩ => ⟨S300, .f32⟩
  | .hbm, ⟨10, _⟩ => ⟨S300x10, .f32⟩
  | .hbm, ⟨11, _⟩ => ⟨S300, .f32⟩
  | .hbm, ⟨12, _⟩ => ⟨S300x300, .f32⟩
  | .hbm, ⟨13, _⟩ => ⟨S300, .f32⟩
  | .hbm, ⟨14, _⟩ => ⟨S1x1935, .f32⟩
  | .hbm, ⟨15, _⟩ => ⟨S1x1935, .f32⟩
  | .hbm, ⟨16, _⟩ => ⟨S300x300, .f32⟩
  | .hbm, ⟨17, _⟩ => ⟨S300x300, .f32⟩
  | .hbm, ⟨18, _⟩ => ⟨S300x300, .f32⟩
  | .hbm, ⟨19, _⟩ => ⟨S300x300, .f32⟩
  | .hbm, ⟨20, _⟩ => ⟨S300x5, .f32⟩
  | .hbm, ⟨21, _⟩ => ⟨S5x300, .f32⟩
  | .hbm, ⟨22, _⟩ => ⟨S300x5, .f32⟩
  | .hbm, ⟨23, _⟩ => ⟨S5x300, .f32⟩
  | .hbm, ⟨24, _⟩ => ⟨S1935x300, .bf16⟩
  | .hbm, ⟨25, _⟩ => ⟨S300x300, .bf16⟩
  | .hbm, ⟨26, _⟩ => ⟨S300x300, .bf16⟩
  | .hbm, ⟨27, _⟩ => ⟨S5x300, .bf16⟩
  | .hbm, ⟨28, _⟩ => ⟨S5x300, .bf16⟩
  | .hbm, ⟨29, _⟩ => ⟨S300x300, .f32⟩
  | .hbm, ⟨30, _⟩ => ⟨S300x300, .bf16⟩
  | .hbm, ⟨31, _⟩ => ⟨S1x300, .f32⟩
  | .hbm, ⟨32, _⟩ => ⟨S1x300, .f32⟩
  | .hbm, ⟨33, _⟩ => ⟨S1x300, .f32⟩
  | .hbm, ⟨34, _⟩ => ⟨S_, .f32⟩
  | .hbm, ⟨35, _⟩ => ⟨S1x300, .f32⟩
  | .hbm, ⟨36, _⟩ => ⟨S_, .f32⟩
  | .hbm, ⟨37, _⟩ => ⟨S1x300, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S2, .f32⟩
  | .hbm, ⟨44, _⟩ => ⟨S2, .f32⟩
  | .hbm, ⟨45, _⟩ => ⟨S2, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S2, .f32⟩
  | .hbm, ⟨50, _⟩ => ⟨S2, .f32⟩
  | .hbm, ⟨51, _⟩ => ⟨S1, .f32⟩
  | .hbm, ⟨52, _⟩ => ⟨S_, .f32⟩
  | .hbm, ⟨53, _⟩ => ⟨S1x1, .f32⟩
  | .hbm, ⟨54, _⟩ => ⟨S1, .f32⟩
  | .hbm, ⟨55, _⟩ => ⟨S_, .f32⟩
  | .hbm, ⟨56, _⟩ => ⟨S1x1, .f32⟩
  | .hbm, ⟨57, _⟩ => ⟨S384x300, .f32⟩
  | .hbm, ⟨58, _⟩ => ⟨S384x300, .f32⟩
  | .hbm, ⟨59, _⟩ => ⟨S384x300, .f32⟩
  | .hbm, ⟨60, _⟩ => ⟨S384x300, .f32⟩
  | .hbm, ⟨61, _⟩ => ⟨S384x384x300, .f32⟩
  | .local _ .vmem, ⟨0, _⟩ => ⟨S128x1935, .f32⟩
  | .local _ .vmem, ⟨1, _⟩ => ⟨S128x1935, .f32⟩
  | .local _ .vmem, ⟨2, _⟩ => ⟨S1x1935, .f32⟩
  | .local _ .vmem, ⟨3, _⟩ => ⟨S128x5, .f32⟩
  | .local _ .vmem, ⟨4, _⟩ => ⟨S128x5, .f32⟩
  | .local _ .vmem, ⟨5, _⟩ => ⟨S1935x300, .bf16⟩
  | .local _ .vmem, ⟨6, _⟩ => ⟨S300x300, .bf16⟩
  | .local _ .vmem, ⟨7, _⟩ => ⟨S5x300, .bf16⟩
  | .local _ .vmem, ⟨8, _⟩ => ⟨S1x1, .f32⟩
  | .local _ .vmem, ⟨9, _⟩ => ⟨S1x1, .f32⟩
  | .local _ .vmem, ⟨10, _⟩ => ⟨S1x300, .f32⟩
  | .local _ .vmem, ⟨11, _⟩ => ⟨S1x300, .f32⟩
  | .local _ .vmem, ⟨12, _⟩ => ⟨S128x300, .f32⟩
  | .local _ .vmem, ⟨13, _⟩ => ⟨S128x300, .f32⟩
  | .local _ .vmem, ⟨14, _⟩ => ⟨S128x300, .f32⟩
  | .local _ .vmem, ⟨15, _⟩ => ⟨S128x300, .f32⟩
  | .local _ .vmem, ⟨16, _⟩ => ⟨S128x1935, .f32⟩
  | .local _ .vmem, ⟨17, _⟩ => ⟨S128x1935, .f32⟩
  | .local _ .vmem, ⟨18, _⟩ => ⟨S1x1935, .f32⟩
  | .local _ .vmem, ⟨19, _⟩ => ⟨S128x5, .f32⟩
  | .local _ .vmem, ⟨20, _⟩ => ⟨S128x5, .f32⟩
  | .local _ .vmem, ⟨21, _⟩ => ⟨S1935x300, .bf16⟩
  | .local _ .vmem, ⟨22, _⟩ => ⟨S300x300, .bf16⟩
  | .local _ .vmem, ⟨23, _⟩ => ⟨S5x300, .bf16⟩
  | .local _ .vmem, ⟨24, _⟩ => ⟨S1x1, .f32⟩
  | .local _ .vmem, ⟨25, _⟩ => ⟨S1x1, .f32⟩
  | .local _ .vmem, ⟨26, _⟩ => ⟨S1x300, .f32⟩
  | .local _ .vmem, ⟨27, _⟩ => ⟨S1x300, .f32⟩
  | .local _ .vmem, ⟨28, _⟩ => ⟨S128x300, .f32⟩
  | .local _ .vmem, ⟨29, _⟩ => ⟨S128x300, .f32⟩
  | .local _ .vmem, ⟨30, _⟩ => ⟨S128x300, .f32⟩
  | .local _ .vmem, ⟨31, _⟩ => ⟨S128x300, .f32⟩
  | .local _ .vmem, ⟨32, _⟩ => ⟨S64x300, .f32⟩
  | .local _ .vmem, ⟨33, _⟩ => ⟨S64x300, .f32⟩
  | .local _ .vmem, ⟨34, _⟩ => ⟨S64x300, .f32⟩
  | .local _ .vmem, ⟨35, _⟩ => ⟨S64x300, .f32⟩
  | .local _ .vmem, ⟨36, _⟩ => ⟨S64x300, .f32⟩
  | .local _ .vmem, ⟨37, _⟩ => ⟨S64x300, .f32⟩
  | .local _ .vmem, ⟨38, _⟩ => ⟨S64x300, .f32⟩
  | .local _ .vmem, ⟨39, _⟩ => ⟨S64x300, .f32⟩
  | .local _ .vmem, ⟨40, _⟩ => ⟨S1x300, .f32⟩
  | .local _ .vmem, ⟨41, _⟩ => ⟨S300x300, .bf16⟩
  | .local _ .vmem, ⟨42, _⟩ => ⟨S64x64x300, .f32⟩
  | .local _ .vmem, ⟨43, _⟩ => ⟨S64x64x300, .f32⟩
  | .local _ .vmem, ⟨44, _⟩ => ⟨S4096x300, .bf16⟩
  | _, _ => ⟨S384x1935, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v39_0 : Ref sig .tc := ⟨.hbm, 59, rfl⟩
abbrev main_v39_1 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg6_1 : Ref sig .tc := ⟨.vmem, 43, rfl⟩
abbrev cc2_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc1_sem11_0 : DmaSem sig := 30
abbrev cc1_sem11_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem5_0 : DmaSem sig := 41
abbrev cc2_sem6_0 : DmaSem sig := 42
abbrev cc2_sem6_1 : DmaSem sig := 43

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1935 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1935 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1935x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x300 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x300 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x300 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x300 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x300 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x300 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1935 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1935 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1935x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300x300 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5x300 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x300 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x300 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x300 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x300 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![6, 6], ![false, false]⟩

@[reducible] def k2_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k2_mult1 (k2_t1 : Fin k2_t1_loop.trips) : BitVec 32 :=
  let c0_i32 : BitVec 32 := 0#32
  let c1_i32 : BitVec 32 := 1#32
  let arg10 : BitVec 32 := Scf.iv c0_i32 c1_i32 k2_t1
  let c8_i32_13 : BitVec 32 := 8#32
  let v16 : BitVec 32 := Scalar.muli arg10 c8_i32_13
  v16
def k2_off1 (k2_t1 : Fin k2_t1_loop.trips) : Fin 2 → Nat :=
  let c0_i32 : BitVec 32 := 0#32
  let c1_i32 : BitVec 32 := 1#32
  let arg10 : BitVec 32 := Scf.iv c0_i32 c1_i32 k2_t1
  let c8_i32_13 : BitVec 32 := 8#32
  let v16 : BitVec 32 := Scalar.muli arg10 c8_i32_13
  let v17 : BitVec 32 := v16
  let v18 : Index := Scalar.indexCast v17
  let c0_14 : Index := 0#32
  ![v18.toNat, 0]
def k2_mult2 (k2_t1 : Fin k2_t1_loop.trips) : BitVec 32 :=
  let c0_i32 : BitVec 32 := 0#32
  let c1_i32 : BitVec 32 := 1#32
  let arg10 : BitVec 32 := Scf.iv c0_i32 c1_i32 k2_t1
  let c8_i32_18 : BitVec 32 := 8#32
  let v41 : BitVec 32 := Scalar.muli arg10 c8_i32_18
  let c64_i32 : BitVec 32 := 64#32
  let v42 : BitVec 32 := Scalar.muli v41 c64_i32
  v42
def k2_off2 (k2_t1 : Fin k2_t1_loop.trips) : Fin 2 → Nat :=
  let c0_i32 : BitVec 32 := 0#32
  let c1_i32 : BitVec 32 := 1#32
  let arg10 : BitVec 32 := Scf.iv c0_i32 c1_i32 k2_t1
  let c8_i32_18 : BitVec 32 := 8#32
  let v41 : BitVec 32 := Scalar.muli arg10 c8_i32_18
  let c64_i32 : BitVec 32 := 64#32
  let v42 : BitVec 32 := Scalar.muli v41 c64_i32
  let v43 : BitVec 32 := v42
  let v44 : Index := Scalar.indexCast v43
  let c0_19 : Index := 0#32
  ![v44.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S64x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S64x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S300x300 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S64x64x300 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S1935_S1x1935 : S1935.ShapeCasts S1x1935
  slices_S300x600_S300x300_0_0 : S300x600.Slices ![0, 0] S300x300
  transposes_S300x300_S300x300_1_0 : S300x300.Transposes [1, 0] S300x300
  slices_S300x600_S300x300_0_300 : S300x600.Slices ![0, 300] S300x300
  slices_S300x10_S300x5_0_0 : S300x10.Slices ![0, 0] S300x5
  transposes_S300x5_S5x300_1_0 : S300x5.Transposes [1, 0] S5x300
  slices_S300x10_S300x5_0_5 : S300x10.Slices ![0, 5] S300x5
  bitsLt_bf16_f32 : FTy.bits .bf16 < FTy.bits .f32
  shapeCasts_S300_S1x300 : S300.ShapeCasts S1x300
  bcast_S_S1x300 : S_.BroadcastsInDim S1x300 (![] : Fin 0 → Fin S1x300.rank)
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  shapeCasts_S_S1x1 : S_.ShapeCasts S1x1
  slices_S2_S1_1 : S2.Slices ![1] S1
  inb_S1x1935_S1x1935_0_0 : ∀ a, (![0, 0] : Fin 2 → Nat) a + S1x1935.size a ≤ S1x1935.size a
  h_S1x1935 : 0 < S1x1935.numel
  shapeCasts_S1x1935_S1x1935 : S1x1935.ShapeCasts S1x1935
  inb_S128x1935_S128x1935_0_0 : ∀ a, (![0, 0] : Fin 2 → Nat) a + S128x1935.size a ≤ S128x1935.size a
  h_S128x1935 : 0 < S128x1935.numel
  broadcasts_S1x1935_S128x1935 : S1x1935.Broadcasts S128x1935
  inb_S1935x300_S1935x300_0_0 : ∀ a, (![0, 0] : Fin 2 → Nat) a + S1935x300.size a ≤ S1935x300.size a
  h_S1935x300 : 0 < S1935x300.numel
  shapeCasts_S1935x300_S1935x300 : S1935x300.ShapeCasts S1935x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  inb_S128x5_S128x5_0_0 : ∀ a, (![0, 0] : Fin 2 → Nat) a + S128x5.size a ≤ S128x5.size a
  h_S128x5 : 0 < S128x5.numel
  inb_S5x300_S5x300_0_0 : ∀ a, (![0, 0] : Fin 2 → Nat) a + S5x300.size a ≤ S5x300.size a
  h_S5x300 : 0 < S5x300.numel
  shapeCasts_S5x300_S5x300 : S5x300.ShapeCasts S5x300
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S128x300 : S1x300.Broadcasts S128x300
  broadcasts_S1x1_S128x300 : S1x1.Broadcasts S128x300
  inb_S128x300_S128x300_0_0 : ∀ a, (![0, 0] : Fin 2 → Nat) a + S128x300.size a ≤ S128x300.size a
  h_S128x300 : 0 < S128x300.numel
  inb_S64x300_S64x300_0_0 : ∀ a, (![0, 0] : Fin 2 → Nat) a + S64x300.size a ≤ S64x300.size a
  h_S64x300 : 0 < S64x300.numel
  shapeCasts_S64x300_S64x300 : S64x300.ShapeCasts S64x300
  h_S8x300 : 0 < S8x300.numel
  shapeCasts_S8x300_S8x300 : S8x300.ShapeCasts S8x300
  shapeCasts_S8x300_S8x1x300 : S8x300.ShapeCasts S8x1x300
  shapeCasts_S64x300_S1x64x300 : S64x300.ShapeCasts S1x64x300
  broadcasts_S8x1x300_S8x64x300 : S8x1x300.Broadcasts S8x64x300
  broadcasts_S1x64x300_S8x64x300 : S1x64x300.Broadcasts S8x64x300
  shapeCasts_S8x64x300_S512x300 : S8x64x300.ShapeCasts S512x300
  h_S512x300 : 0 < S512x300.numel
  shapeCasts_S512x300_S512x300 : S512x300.ShapeCasts S512x300
  inb_S4096x300_S4096x300_0_0 : ∀ a, (![0, 0] : Fin 2 → Nat) a + S4096x300.size a ≤ S4096x300.size a
  h_S4096x300 : 0 < S4096x300.numel
  shapeCasts_S4096x300_S64x64x300 : S4096x300.ShapeCasts S64x64x300
  shapeCasts_S1x300_S1x1x300 : S1x300.ShapeCasts S1x1x300
  broadcasts_S1x1x300_S64x64x300 : S1x1x300.Broadcasts S64x64x300
  inb_S64x64x300_S64x64x300_0_0_0 : ∀ a, (![0, 0, 0] : Fin 3 → Nat) a + S64x64x300.size a ≤ S64x64x300.size a
  h_S64x64x300 : 0 < S64x64x300.numel
  dot_S128x1935_S1935x300_S128x300_1_0_0_1_n_n_wf : DotDims.WF S128x1935 S1935x300 S128x300 [1] [0] [0] [1] [] []
  dot_S128x300_S300x300_S128x300_1_0_0_1_n_n_wf : DotDims.WF S128x300 S300x300 S128x300 [1] [0] [0] [1] [] []
  dot_S128x5_S5x300_S128x300_1_0_0_1_n_n_wf : DotDims.WF S128x5 S5x300 S128x300 [1] [0] [0] [1] [] []
  dot_S4096x300_S300x300_S4096x300_1_0_0_1_n_n_wf : DotDims.WF S4096x300 S300x300 S4096x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1935.size a ≤ S384x1935.size a
  hwx0_0 : ∀ i : grid0.Coords, EltTy.bits .f32 = 32 ∨ (Rect.block (s := S384x1935) S128x1935.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1935.size a ≤ S1x1935.size a
  hwx0_1 : ∀ i : grid0.Coords, EltTy.bits .f32 = 32 ∨ (Rect.block (s := S1x1935) S1x1935.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5.size a ≤ S384x5.size a
  hwx0_2 : ∀ i : grid0.Coords, EltTy.bits .f32 = 32 ∨ (Rect.block (s := S384x5) S128x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1935x300.size a ≤ S1935x300.size a
  hwx0_3 : ∀ i : grid0.Coords, EltTy.bits .bf16 = 32 ∨ (Rect.block (s := S1935x300) S1935x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x300.size a ≤ S300x300.size a
  hwx0_4 : ∀ i : grid0.Coords, EltTy.bits .bf16 = 32 ∨ (Rect.block (s := S300x300) S300x300.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x300.size a ≤ S5x300.size a
  hwx0_5 : ∀ i : grid0.Coords, EltTy.bits .bf16 = 32 ∨ (Rect.block (s := S5x300) S5x300.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x300.size a ≤ S1x300.size a
  hwx0_8 : ∀ i : grid0.Coords, EltTy.bits .f32 = 32 ∨ (Rect.block (s := S1x300) S1x300.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x300.size a ≤ S1x300.size a
  hwx0_9 : ∀ i : grid0.Coords, EltTy.bits .f32 = 32 ∨ (Rect.block (s := S1x300) S1x300.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x300.size a ≤ S384x300.size a
  hwx0_10 : ∀ i : grid0.Coords, EltTy.bits .f32 = 32 ∨ (Rect.block (s := S384x300) S128x300.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x300.size a ≤ S384x300.size a
  hwx0_11 : ∀ i : grid0.Coords, EltTy.bits .f32 = 32 ∨ (Rect.block (s := S384x300) S128x300.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1935.size a ≤ S384x1935.size a
  hwx1_0 : ∀ i : grid1.Coords, EltTy.bits .f32 = 32 ∨ (Rect.block (s := S384x1935) S128x1935.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1935.size a ≤ S1x1935.size a
  hwx1_1 : ∀ i : grid1.Coords, EltTy.bits .f32 = 32 ∨ (Rect.block (s := S1x1935) S1x1935.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x5.size a ≤ S384x5.size a
  hwx1_2 : ∀ i : grid1.Coords, EltTy.bits .f32 = 32 ∨ (Rect.block (s := S384x5) S128x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1935x300.size a ≤ S1935x300.size a
  hwx1_3 : ∀ i : grid1.Coords, EltTy.bits .bf16 = 32 ∨ (Rect.block (s := S1935x300) S1935x300.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300x300.size a ≤ S300x300.size a
  hwx1_4 : ∀ i : grid1.Coords, EltTy.bits .bf16 = 32 ∨ (Rect.block (s := S300x300) S300x300.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x300.size a ≤ S5x300.size a
  hwx1_5 : ∀ i : grid1.Coords, EltTy.bits .bf16 = 32 ∨ (Rect.block (s := S5x300) S5x300.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x300.size a ≤ S1x300.size a
  hwx1_8 : ∀ i : grid1.Coords, EltTy.bits .f32 = 32 ∨ (Rect.block (s := S1x300) S1x300.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x300.size a ≤ S1x300.size a
  hwx1_9 : ∀ i : grid1.Coords, EltTy.bits .f32 = 32 ∨ (Rect.block (s := S1x300) S1x300.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x300.size a ≤ S384x300.size a
  hwx1_10 : ∀ i : grid1.Coords, EltTy.bits .f32 = 32 ∨ (Rect.block (s := S384x300) S128x300.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x300.size a ≤ S384x300.size a
  hwx1_11 : ∀ i : grid1.Coords, EltTy.bits .f32 = 32 ∨ (Rect.block (s := S384x300) S128x300.size (cc1_transform_11 i) (hinb1_11 i)).WholeWords (EltTy.packing .f32)
  hrank2 : 0 < grid2.rank
  k2_t1_ok : k2_t1_loop.OK
  k2_mult1_dvd : ∀ k2_t1 : Fin k2_t1_loop.trips, 8 ∣ (k2_mult1 k2_t1).toNat
  k2_off1_inb : ∀ k2_t1 : Fin k2_t1_loop.trips, ∀ a, (k2_off1 k2_t1) a + S8x300.size a ≤ S64x300.size a
  k2_mult2_dvd : ∀ k2_t1 : Fin k2_t1_loop.trips, 512 ∣ (k2_mult2 k2_t1).toNat
  k2_off2_inb : ∀ k2_t1 : Fin k2_t1_loop.trips, ∀ a, (k2_off2 k2_t1) a + S512x300.size a ≤ S4096x300.size a
  k2_off2_packedbf16 : ∀ k2_t1 : Fin k2_t1_loop.trips, (Rect.unit (s := S4096x300) (k2_off2 k2_t1) S512x300.size (k2_off2_inb k2_t1)).PackedRows (EltTy.packing .bf16)
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x300.size a ≤ S384x300.size a
  hwx2_0 : ∀ i : grid2.Coords, EltTy.bits .f32 = 32 ∨ (Rect.block (s := S384x300) S64x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x300.size a ≤ S384x300.size a
  hwx2_1 : ∀ i : grid2.Coords, EltTy.bits .f32 = 32 ∨ (Rect.block (s := S384x300) S64x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x300.size a ≤ S384x300.size a
  hwx2_2 : ∀ i : grid2.Coords, EltTy.bits .f32 = 32 ∨ (Rect.block (s := S384x300) S64x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x300.size a ≤ S384x300.size a
  hwx2_3 : ∀ i : grid2.Coords, EltTy.bits .f32 = 32 ∨ (Rect.block (s := S384x300) S64x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x300.size a ≤ S1x300.size a
  hwx2_4 : ∀ i : grid2.Coords, EltTy.bits .f32 = 32 ∨ (Rect.block (s := S1x300) S1x300.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S300x300.size a ≤ S300x300.size a
  hwx2_5 : ∀ i : grid2.Coords, EltTy.bits .bf16 = 32 ∨ (Rect.block (s := S300x300) S300x300.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x64x300.size a ≤ S384x384x300.size a
  hwx2_6 : ∀ i : grid2.Coords, EltTy.bits .f32 = 32 ∨ (Rect.block (s := S384x384x300) S64x64x300.size (cc2_transform_6 i) (hinb2_6 i)).WholeWords (EltTy.packing .f32)

variable [Facts₀]

def dot_S128x1935_S1935x300_S128x300_1_0_0_1_n_n : DotDims S128x1935 S1935x300 S128x300 where
  lhsContracting := [1]
  rhsContracting := [0]
  lhsNonContracting := [0]
  rhsNonContracting := [1]
  lhsBatch := []
  rhsBatch := []
  wf := dot_S128x1935_S1935x300_S128x300_1_0_0_1_n_n_wf
def dot_S128x300_S300x300_S128x300_1_0_0_1_n_n : DotDims S128x300 S300x300 S128x300 where
  lhsContracting := [1]
  rhsContracting := [0]
  lhsNonContracting := [0]
  rhsNonContracting := [1]
  lhsBatch := []
  rhsBatch := []
  wf := dot_S128x300_S300x300_S128x300_1_0_0_1_n_n_wf
def dot_S128x5_S5x300_S128x300_1_0_0_1_n_n : DotDims S128x5 S5x300 S128x300 where
  lhsContracting := [1]
  rhsContracting := [0]
  lhsNonContracting := [0]
  rhsNonContracting := [1]
  lhsBatch := []
  rhsBatch := []
  wf := dot_S128x5_S5x300_S128x300_1_0_0_1_n_n_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf

abbrev win0_0 : Pipeline.Window sig grid0 :=
  Pipeline.Window.ofSpec (Memref.whole main_arg0) S128x1935.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1935.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1935x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S300x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x300.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x300.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38_0) S128x300.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v38_1) S128x300.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg2) S128x1935.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1935.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x5.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1935x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S300x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S5x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x300.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x300.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39_0) S128x300.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v39_1) S128x300.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v38_0) S64x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39_0) S64x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38_1) S64x300.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39_1) S64x300.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S300x300.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S64x64x300.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S384x1935 : Shape := ⟨2, ![384, 1935]⟩
abbrev S384x5 : Shape := ⟨2, ![384, 5]⟩
abbrev S1935x300 : Shape := ⟨2, ![1935, 300]⟩
abbrev S1935 : Shape := ⟨1, ![1935]⟩
abbrev S2 : Shape := ⟨1, ![2]⟩
abbrev S300x600 : Shape := ⟨2, ![300, 600]⟩
abbrev S300 : Shape := ⟨1, ![300]⟩
abbrev S300x10 : Shape := ⟨2, ![300, 10]⟩
abbrev S300x300 : Shape := ⟨2, ![300, 300]⟩
abbrev S_ : Shape := ⟨0, ![]⟩
abbrev S1x1935 : Shape := ⟨2, ![1, 1935]⟩
abbrev S384x300 : Shape := ⟨2, ![384, 300]⟩
abbrev S384x1x300 : Shape := ⟨3, ![384, 1, 300]⟩
abbrev S1x384x300 : Shape := ⟨3, ![1, 384, 300]⟩
abbrev S384x384x300 : Shape := ⟨3, ![384, 384, 300]⟩
abbrev S1x1x300 : Shape := ⟨3, ![1, 1, 300]⟩
abbrev S300x5 : Shape := ⟨2, ![300, 5]⟩
abbrev S1 : Shape := ⟨1, ![1]⟩

abbrev nBuf : Space → Nat
  | .hbm => 94
  | .vmem => 0
  | .smem => 0
  | _ => 0

abbrev bufTy : (tb : Table) → Fin (tcTables nBuf tb) → BufTy
  | .hbm, ⟨0, _⟩ => ⟨S384x1935, .f32⟩
  | .hbm, ⟨1, _⟩ => ⟨S384x5, .f32⟩
  | .hbm, ⟨2, _⟩ => ⟨S384x1935, .f32⟩
  | .hbm, ⟨3, _⟩ => ⟨S384x5, .f32⟩
  | .hbm, ⟨4, _⟩ => ⟨S1935x300, .f32⟩
  | .hbm, ⟨5, _⟩ => ⟨S1935, .f32⟩
  | .hbm, ⟨6, _⟩ => ⟨S1935, .f32⟩
  | .hbm, ⟨7, _⟩ => ⟨S2, .f32⟩
  | .hbm, ⟨8, _⟩ => ⟨S300x600, .f32⟩
  | .hbm, ⟨9, _⟩ => ⟨S300, .f32⟩
  | .hbm, ⟨10, _⟩ => ⟨S300x10, .f32⟩
  | .hbm, ⟨11, _⟩ => ⟨S300, .f32⟩
  | .hbm, ⟨12, _⟩ => ⟨S300x300, .f32⟩
  | .hbm, ⟨13, _⟩ => ⟨S300, .f32⟩
  | .hbm, ⟨14, _⟩ => ⟨S1935, .f32⟩
  | .hbm, ⟨15, _⟩ => ⟨S1935, .f32⟩
  | .hbm, ⟨16, _⟩ => ⟨S_, .f32⟩
  | .hbm, ⟨17, _⟩ => ⟨S1935, .f32⟩
  | .hbm, ⟨18, _⟩ => ⟨S1935, .f32⟩
  | .hbm, ⟨19, _⟩ => ⟨S_, .f32⟩
  | .hbm, ⟨20, _⟩ => ⟨S1935, .f32⟩
  | .hbm, ⟨21, _⟩ => ⟨S1935, .f32⟩
  | .hbm, ⟨22, _⟩ => ⟨S1x1935, .f32⟩
  | .hbm, ⟨23, _⟩ => ⟨S384x1935, .f32⟩
  | .hbm, ⟨24, _⟩ => ⟨S384x1935, .f32⟩
  | .hbm, ⟨25, _⟩ => ⟨S384x300, .f32⟩
  | .hbm, ⟨26, _⟩ => ⟨S1935, .f32⟩
  | .hbm, ⟨27, _⟩ => ⟨S1935, .f32⟩
  | .hbm, ⟨28, _⟩ => ⟨S_, .f32⟩
  | .hbm, ⟨29, _⟩ => ⟨S1935, .f32⟩
  | .hbm, ⟨30, _⟩ => ⟨S1935, .f32⟩
  | .hbm, ⟨31, _⟩ => ⟨S_, .f32⟩
  | .hbm, ⟨32, _⟩ => ⟨S1935, .f32⟩
  | .hbm, ⟨33, _⟩ => ⟨S1935, .f32⟩
  | .hbm, ⟨34, _⟩ => ⟨S1x1935, .f32⟩
  | .hbm, ⟨35, _⟩ => ⟨S384x1935, .f32⟩
  | .hbm, ⟨36, _⟩ => ⟨S384x1935, .f32⟩
  | .hbm, ⟨37, _⟩ => ⟨S384x300, .f32⟩
  | .hbm, ⟨38, _⟩ => ⟨S300x300, .f32⟩
  | .hbm, ⟨39, _⟩ => ⟨S300x300, .f32⟩
  | .hbm, ⟨40, _⟩ => ⟨S384x300, .f32⟩
  | .hbm, ⟨41, _⟩ => ⟨S384x1x300, .f32⟩
  | .hbm, ⟨42, _⟩ => ⟨S384x300, .f32⟩
  | .hbm, ⟨43, _⟩ => ⟨S1x384x300, .f32⟩
  | .hbm, ⟨44, _⟩ => ⟨S384x384x300, .f32⟩
  | .hbm, ⟨45, _⟩ => ⟨S384x384x300, .f32⟩
  | .hbm, ⟨46, _⟩ => ⟨S384x384x300, .f32⟩
  | .hbm, ⟨47, _⟩ => ⟨S1x1x300, .f32⟩
  | .hbm, ⟨48, _⟩ => ⟨S384x384x300, .f32⟩
  | .hbm, ⟨49, _⟩ => ⟨S384x384x300, .f32⟩
  | .hbm, ⟨50, _⟩ => ⟨S_, .f32⟩
  | .hbm, ⟨51, _⟩ => ⟨S384x384x300, .f32⟩
  | .hbm, ⟨52, _⟩ => ⟨S384x384x300, .f32⟩
  | .hbm, ⟨53, _⟩ => ⟨S300x5, .f32⟩
  | .hbm, ⟨54, _⟩ => ⟨S300x5, .f32⟩
  | .hbm, ⟨55, _⟩ => ⟨S384x300, .f32⟩
  | .hbm, ⟨56, _⟩ => ⟨S384x1x300, .f32⟩
  | .hbm, ⟨57, _⟩ => ⟨S384x300, .f32⟩
  | .hbm, ⟨58, _⟩ => ⟨S1x384x300, .f32⟩
  | .hbm, ⟨59, _⟩ => ⟨S384x384x300, .f32⟩
  | .hbm, ⟨60, _⟩ => ⟨S384x384x300, .f32⟩
  | .hbm, ⟨61, _⟩ => ⟨S384x384x300, .f32⟩
  | .hbm, ⟨62, _⟩ => ⟨S1x1x300, .f32⟩
  | .hbm, ⟨63, _⟩ => ⟨S384x384x300, .f32⟩
  | .hbm, ⟨64, _⟩ => ⟨S384x384x300, .f32⟩
  | .hbm, ⟨65, _⟩ => ⟨S_, .f32⟩
  | .hbm, ⟨66, _⟩ => ⟨S384x384x300, .f32⟩
  | .hbm, ⟨67, _⟩ => ⟨S384x384x300, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S_, .f32⟩
  | .hbm, ⟨77, _⟩ => ⟨S_, .f32⟩
  | .hbm, ⟨78, _⟩ => ⟨S1, .f32⟩
  | .hbm, ⟨79, _⟩ => ⟨S2, .f32⟩
  | .hbm, ⟨80, _⟩ => ⟨S2, .f32⟩
  | .hbm, ⟨81, _⟩ => ⟨S1, .f32⟩
  | .hbm, ⟨82, _⟩ => ⟨S_, .f32⟩
  | .hbm, ⟨83, _⟩ => ⟨S384x384x300, .f32⟩
  | .hbm, ⟨84, _⟩ => ⟨S384x384x300, .f32⟩
  | .hbm, ⟨85, _⟩ => ⟨S1, .f32⟩
  | .hbm, ⟨86, _⟩ => ⟨S_, .f32⟩
  | .hbm, ⟨87, _⟩ => ⟨S384x384x300, .f32⟩
  | .hbm, ⟨88, _⟩ => ⟨S384x384x300, .f32⟩
  | .hbm, ⟨89, _⟩ => ⟨S384x384x300, .f32⟩
  | .hbm, ⟨90, _⟩ => ⟨S384x384x300, .f32⟩
  | .hbm, ⟨91, _⟩ => ⟨S1x1x300, .f32⟩
  | .hbm, ⟨92, _⟩ => ⟨S384x384x300, .f32⟩
  | .hbm, ⟨93, _⟩ => ⟨S384x384x300, .f32⟩
  | _, _ => ⟨S384x1935, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_v45 : Ref sig .tc := ⟨.hbm, 67, rfl⟩
abbrev main_cst_3 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  bcast_S_S1935 : S_.BroadcastsInDim S1935 (![] : Fin 0 → Fin S1935.rank)
  bcast_S1935_S1x1935_1 : S1935.BroadcastsInDim S1x1935 (![1] : Fin 1 → Fin S1x1935.rank)
  bcast_S1x1935_S384x1935_0_1 : S1x1935.BroadcastsInDim S384x1935 (![0, 1] : Fin 2 → Fin S384x1935.rank)
  slices_S300x600_S300x300_0_0 : S300x600.Slices ![0, 0] S300x300
  slices_S300x600_S300x300_0_300 : S300x600.Slices ![0, 300] S300x300
  bcast_S384x300_S384x1x300_0_2 : S384x300.BroadcastsInDim S384x1x300 (![0, 2] : Fin 2 → Fin S384x1x300.rank)
  bcast_S384x300_S1x384x300_1_2 : S384x300.BroadcastsInDim S1x384x300 (![1, 2] : Fin 2 → Fin S1x384x300.rank)
  bcast_S384x1x300_S384x384x300_0_1_2 : S384x1x300.BroadcastsInDim S384x384x300 (![0, 1, 2] : Fin 3 → Fin S384x384x300.rank)
  bcast_S1x384x300_S384x384x300_0_1_2 : S1x384x300.BroadcastsInDim S384x384x300 (![0, 1, 2] : Fin 3 → Fin S384x384x300.rank)
  bcast_S300_S1x1x300_2 : S300.BroadcastsInDim S1x1x300 (![2] : Fin 1 → Fin S1x1x300.rank)
  bcast_S1x1x300_S384x384x300_0_1_2 : S1x1x300.BroadcastsInDim S384x384x300 (![0, 1, 2] : Fin 3 → Fin S384x384x300.rank)
  bcast_S_S384x384x300 : S_.BroadcastsInDim S384x384x300 (![] : Fin 0 → Fin S384x384x300.rank)
  slices_S300x10_S300x5_0_0 : S300x10.Slices ![0, 0] S300x5
  slices_S300x10_S300x5_0_5 : S300x10.Slices ![0, 5] S300x5
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  dot_S384x1935_S1935x300_S384x300_1_0_0_1_n_n_wf : DotDims.WF S384x1935 S1935x300 S384x300 [1] [0] [0] [1] [] []
  dot_S384x300_S300x300_S384x300_1_1_0_0_n_n_wf : DotDims.WF S384x300 S300x300 S384x300 [1] [1] [0] [0] [] []
  dot_S384x5_S300x5_S384x300_1_1_0_0_n_n_wf : DotDims.WF S384x5 S300x5 S384x300 [1] [1] [0] [0] [] []
  dot_S384x384x300_S300x300_S384x384x300_2_1_01_0_n_n_wf : DotDims.WF S384x384x300 S300x300 S384x384x300 [2] [1] [0, 1] [0] [] []

variable [Facts₀]

def dot_S384x1935_S1935x300_S384x300_1_0_0_1_n_n : DotDims S384x1935 S1935x300 S384x300 where
  lhsContracting := [1]
  rhsContracting := [0]
  lhsNonContracting := [0]
  rhsNonContracting := [1]
  lhsBatch := []
  rhsBatch := []
  wf := dot_S384x1935_S1935x300_S384x300_1_0_0_1_n_n_wf
def dot_S384x300_S300x300_S384x300_1_1_0_0_n_n : DotDims S384x300 S300x300 S384x300 where
  lhsContracting := [1]
  rhsContracting := [1]
  lhsNonContracting := [0]
  rhsNonContracting := [0]
  lhsBatch := []
  rhsBatch := []
  wf := dot_S384x300_S300x300_S384x300_1_1_0_0_n_n_wf
def dot_S384x5_S300x5_S384x300_1_1_0_0_n_n : DotDims S384x5 S300x5 S384x300 where
  lhsContracting := [1]
  rhsContracting := [1]
  lhsNonContracting := [0]
  rhsNonContracting := [0]
  lhsBatch := []
  rhsBatch := []
  wf := dot_S384x5_S300x5_S384x300_1_1_0_0_n_n_wf
def dot_S384x384x300_S300x300_S384x384x300_2_1_01_0_n_n : DotDims S384x384x300 S300x300 S384x384x300 where
  lhsContracting := [2]
  rhsContracting := [1]
  lhsNonContracting := [0, 1]
  rhsNonContracting := [0]
  lhsBatch := []
  rhsBatch := []
  wf := dot_S384x384x300_S300x300_S384x384x300_2_1_01_0_n_n_wf

class Facts : Prop extends Facts₀ where

variable [Facts]
-- ==== Proof.K.Proj0.lean ====
/- The per-region half of pallas_call 0 (the projection kernel), at a parameter `V` — the TensorCore's buffer
   contents when the region is entered: each window's block at a point, what each output window's staging buffer
   holds after the body as a function of the input blocks, the body's triple, the pipeline's proof data and the
   body obligation. Stated once for every float instance `F`. -/
import proofs.«179407_j89060441850130_2_alg».proof.Proof.Gen.Kernel.Launch
import proofs.«179407_j89060441850130_2_alg».proof.Proof.Gen.Kernel.Skeleton
import proofs.«179407_j89060441850130_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    window's block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an unfetched
    window's block index has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (an unfetched
    window's block index has not moved), for any proof data whose array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every window is read or written whole -/

abbrev r0_0 : Rect S128x1935 := Rect.unit (s := S128x1935) ![0, 0] S128x1935.size inb_S128x1935_S128x1935_0_0
abbrev r0_1 : Rect S1x1935 := Rect.unit (s := S1x1935) ![0, 0] S1x1935.size inb_S1x1935_S1x1935_0_0
abbrev r0_2 : Rect S128x5 := Rect.unit (s := S128x5) ![0, 0] S128x5.size inb_S128x5_S128x5_0_0
abbrev r0_3 : Rect S1935x300 := Rect.unit (s := S1935x300) ![0, 0] S1935x300.size inb_S1935x300_S1935x300_0_0
abbrev r0_4 : Rect S300x300 := Rect.unit (s := S300x300) ![0, 0] S300x300.size inb_S300x300_S300x300_0_0
abbrev r0_5 : Rect S5x300 := Rect.unit (s := S5x300) ![0, 0] S5x300.size inb_S5x300_S5x300_0_0
abbrev r0_6 : Rect S1x1 := Rect.unit (s := S1x1) ![0, 0] S1x1.size inb_S1x1_S1x1_0_0
abbrev r0_7 : Rect S1x1 := Rect.unit (s := S1x1) ![0, 0] S1x1.size inb_S1x1_S1x1_0_0
abbrev r0_8 : Rect S1x300 := Rect.unit (s := S1x300) ![0, 0] S1x300.size inb_S1x300_S1x300_0_0
abbrev r0_9 : Rect S1x300 := Rect.unit (s := S1x300) ![0, 0] S1x300.size inb_S1x300_S1x300_0_0
abbrev r0_10 : Rect S128x300 := Rect.unit (s := S128x300) ![0, 0] S128x300.size inb_S128x300_S128x300_0_0

/-! ## What the body leaves in each output window's buffer -/

/-- Window 10's staging buffer after the body: its one store, over the gated feature block pushed through the two
    bf16 matrix products, plus the bias, times the scale. -/
def out0_10 (x0 : Vec F S128x1935 .f32) (x1 : Vec F S1x1935 .f32) (x3 : Vec F S1935x300 .bf16) (x4 : Vec F S300x300 .bf16) (x6 : Vec F S1x1 .f32) (x8 : Vec F S1x300 .f32) : Vec F S128x300 .f32 :=
  View.canon [⟨r0_10, k0_pay3 (View.ld x1 r0_1) (View.ld x0 r0_0) (View.ld x3 r0_3) (View.ld x4 r0_4) (View.ld x6 r0_6) (View.ld x8 r0_8)⟩]

/-- Window 11's staging buffer after the body: its one store, over the box block's matrix product, plus the bias,
    times the scale. -/
def out0_11 (x2 : Vec F S128x5 .f32) (x5 : Vec F S5x300 .bf16) (x7 : Vec F S1x1 .f32) (x9 : Vec F S1x300 .f32) : Vec F S128x300 .f32 :=
  View.canon [⟨r0_10, k0_pay1 (k0_pay2 (View.ld x2 r0_2) (View.ld x5 r0_5)) (k0_pay4 (View.ld x7 r0_7)) (k0_pay5 (View.ld x9 r0_9))⟩]

/-- The one store of an output window is the whole block, so it covers it. -/
theorem cover0_10 (p0 : Vec F S128x300 .f32) (y : S128x300.Idx) :
    ∃ pc ∈ ([⟨r0_10, p0⟩] : List (View.Piece (Elt F) S128x300 .f32)), y ∈ pc.1.set :=
  View.cover_of_tiled [⟨r0_10, p0⟩] S128x300.size (by rfl) y

/-! ## The body's triple -/

set_option maxHeartbeats 4000000 in
/-- The kernel body on whole staging memrefs, the inputs' at read contents `xW` and the outputs' at anything, runs to
    the continuation holding the inputs' as they were and each output's at `out0_W` of the inputs'. Each output
    buffer is loaded once before it is stored whole; the loaded value is not used. -/
theorem sound_kernel0 (c : Dev nD) (E : Set ℕ) (i : grid0.Coords) (arg1 : Memref sig .tc .vmem S128x1935 .f32) (harg1 : arg1.IsWhole) (arg2 : Memref sig .tc .vmem S1x1935 .f32) (harg2 : arg2.IsWhole) (arg3 : Memref sig .tc .vmem S128x5 .f32) (harg3 : arg3.IsWhole) (arg4 : Memref sig .tc .vmem S1935x300 .bf16) (harg4 : arg4.IsWhole) (arg5 : Memref sig .tc .vmem S300x300 .bf16) (harg5 : arg5.IsWhole) (arg6 : Memref sig .tc .vmem S5x300 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S128x300 .f32) (harg11 : arg11.IsWhole) (arg12 : Memref sig .tc .vmem S128x300 .f32) (harg12 : arg12.IsWhole)
    (x0 : Vec F S128x1935 .f32) (x1 : Vec F S1x1935 .f32) (x2 : Vec F S128x5 .f32) (x3 : Vec F S1935x300 .bf16) (x4 : Vec F S300x300 .bf16) (x5 : Vec F S5x300 .bf16) (x6 : Vec F S1x1 .f32) (x7 : Vec F S1x1 .f32) (x8 : Vec F S1x300 .f32) (x9 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x3 x4 x6 x8) ∗ owns (c : Thread nD τ) arg12 fullShare (out0_11 x2 x5 x7 x9)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_10 _)

/-! ## The pipeline's proof data -/

/-- The proof data of pipeline 0 on core `c`: the arrays as the region finds them (`V`); after the body at point
    `t` each input's buffer at its block and each output's at `out0_W` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 3 t) (iblk0 V c 4 t) (iblk0 V c 6 t) (iblk0 V c 8 t)
    | ⟨11, _⟩ => out0_11 (iblk0 V c 2 t) (iblk0 V c 5 t) (iblk0 V c 7 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 3 t) (iblk0 V c 4 t) (iblk0 V c 6 t) (iblk0 V c 8 t) := by dsimp only [dat0]
theorem after0_11 (c : Dev nD) (t : Fin cfg0.N) : (dat0 V c).after 11 t = out0_11 (iblk0 V c 2 t) (iblk0 V c 5 t) (iblk0 V c 7 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Proj1.lean ====
/- The per-region half of pallas_call 1 (the projection kernel), at a parameter `V` — the TensorCore's buffer
   contents when the region is entered: each window's block at a point, what each output window's staging buffer
   holds after the body as a function of the input blocks, the body's triple, the pipeline's proof data and the
   body obligation. Stated once for every float instance `F`. -/
import proofs.«179407_j89060441850130_2_alg».proof.Proof.Gen.Kernel.Launch
import proofs.«179407_j89060441850130_2_alg».proof.Proof.Gen.Kernel.Skeleton
import proofs.«179407_j89060441850130_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (an unfetched
    window's block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (an unfetched
    window's block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (an unfetched
    window's block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (an unfetched
    window's block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (an unfetched
    window's block index has not moved), for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (an unfetched
    window's block index has not moved), for any proof data whose array is `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not (an unfetched
    window's block index has not moved), for any proof data whose array is `V`'s and whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window is read or written whole -/

abbrev r1_0 : Rect S128x1935 := Rect.unit (s := S128x1935) ![0, 0] S128x1935.size inb_S128x1935_S128x1935_0_0
abbrev r1_1 : Rect S1x1935 := Rect.unit (s := S1x1935) ![0, 0] S1x1935.size inb_S1x1935_S1x1935_0_0
abbrev r1_2 : Rect S128x5 := Rect.unit (s := S128x5) ![0, 0] S128x5.size inb_S128x5_S128x5_0_0
abbrev r1_3 : Rect S1935x300 := Rect.unit (s := S1935x300) ![0, 0] S1935x300.size inb_S1935x300_S1935x300_0_0
abbrev r1_4 : Rect S300x300 := Rect.unit (s := S300x300) ![0, 0] S300x300.size inb_S300x300_S300x300_0_0
abbrev r1_5 : Rect S5x300 := Rect.unit (s := S5x300) ![0, 0] S5x300.size inb_S5x300_S5x300_0_0
abbrev r1_6 : Rect S1x1 := Rect.unit (s := S1x1) ![0, 0] S1x1.size inb_S1x1_S1x1_0_0
abbrev r1_7 : Rect S1x1 := Rect.unit (s := S1x1) ![0, 0] S1x1.size inb_S1x1_S1x1_0_0
abbrev r1_8 : Rect S1x300 := Rect.unit (s := S1x300) ![0, 0] S1x300.size inb_S1x300_S1x300_0_0
abbrev r1_9 : Rect S1x300 := Rect.unit (s := S1x300) ![0, 0] S1x300.size inb_S1x300_S1x300_0_0
abbrev r1_10 : Rect S128x300 := Rect.unit (s := S128x300) ![0, 0] S128x300.size inb_S128x300_S128x300_0_0

/-! ## What the body leaves in each output window's buffer -/

/-- Window 10's staging buffer after the body: its one store, over the gated feature block pushed through the two
    bf16 matrix products, plus the bias, times the scale. -/
def out1_10 (x0 : Vec F S128x1935 .f32) (x1 : Vec F S1x1935 .f32) (x3 : Vec F S1935x300 .bf16) (x4 : Vec F S300x300 .bf16) (x6 : Vec F S1x1 .f32) (x8 : Vec F S1x300 .f32) : Vec F S128x300 .f32 :=
  View.canon [⟨r1_10, k1_pay3 (View.ld x1 r1_1) (View.ld x0 r1_0) (View.ld x3 r1_3) (View.ld x4 r1_4) (View.ld x6 r1_6) (View.ld x8 r1_8)⟩]

/-- Window 11's staging buffer after the body: its one store, over the box block's matrix product, plus the bias,
    times the scale. -/
def out1_11 (x2 : Vec F S128x5 .f32) (x5 : Vec F S5x300 .bf16) (x7 : Vec F S1x1 .f32) (x9 : Vec F S1x300 .f32) : Vec F S128x300 .f32 :=
  View.canon [⟨r1_10, k1_pay1 (k1_pay2 (View.ld x2 r1_2) (View.ld x5 r1_5)) (k1_pay4 (View.ld x7 r1_7)) (k1_pay5 (View.ld x9 r1_9))⟩]

/-- The one store of an output window is the whole block, so it covers it. -/
theorem cover1_10 (p0 : Vec F S128x300 .f32) (y : S128x300.Idx) :
    ∃ pc ∈ ([⟨r1_10, p0⟩] : List (View.Piece (Elt F) S128x300 .f32)), y ∈ pc.1.set :=
  View.cover_of_tiled [⟨r1_10, p0⟩] S128x300.size (by rfl) y

/-! ## The body's triple -/

set_option maxHeartbeats 4000000 in
/-- The kernel body on whole staging memrefs, the inputs' at read contents `xW` and the outputs' at anything, runs to
    the continuation holding the inputs' as they were and each output's at `out1_W` of the inputs'. Each output
    buffer is loaded once before it is stored whole; the loaded value is not used. -/
theorem sound_kernel1 (c : Dev nD) (E : Set ℕ) (i : grid1.Coords) (arg1 : Memref sig .tc .vmem S128x1935 .f32) (harg1 : arg1.IsWhole) (arg2 : Memref sig .tc .vmem S1x1935 .f32) (harg2 : arg2.IsWhole) (arg3 : Memref sig .tc .vmem S128x5 .f32) (harg3 : arg3.IsWhole) (arg4 : Memref sig .tc .vmem S1935x300 .bf16) (harg4 : arg4.IsWhole) (arg5 : Memref sig .tc .vmem S300x300 .bf16) (harg5 : arg5.IsWhole) (arg6 : Memref sig .tc .vmem S5x300 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S128x300 .f32) (harg11 : arg11.IsWhole) (arg12 : Memref sig .tc .vmem S128x300 .f32) (harg12 : arg12.IsWhole)
    (x0 : Vec F S128x1935 .f32) (x1 : Vec F S1x1935 .f32) (x2 : Vec F S128x5 .f32) (x3 : Vec F S1935x300 .bf16) (x4 : Vec F S300x300 .bf16) (x5 : Vec F S5x300 .bf16) (x6 : Vec F S1x1 .f32) (x7 : Vec F S1x1 .f32) (x8 : Vec F S1x300 .f32) (x9 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x3 x4 x6 x8) ∗ owns (c : Thread nD τ) arg12 fullShare (out1_11 x2 x5 x7 x9)) -∗ K ⟨⟩))
      ⊢ wp frame (wpE (defs₀ (F := F)) Variants.none c none) E (cc1__proj_kernel i arg1 harg1 arg2 harg2 arg3 harg3 arg4 harg4 arg5 harg5 arg6 harg6 arg7 harg7 arg8 harg8 arg9 harg9 arg10 harg10 arg11 harg11 arg12 harg12) K := by
  simp only [cc1__proj_kernel_eq_skeleton]; unfold cc1__proj_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1_10 _)
  iexists _; isplitr
  swap; · iexact H11
  ipureintro
  exact View.read_writes_eq_canon _ _ _ (cover1_10 _)

/-! ## The pipeline's proof data -/

/-- The proof data of pipeline 1 on core `c`: the arrays as the region finds them (`V`); after the body at point
    `t` each input's buffer at its block and each output's at `out1_W` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 3 t) (iblk1 V c 4 t) (iblk1 V c 6 t) (iblk1 V c 8 t)
    | ⟨11, _⟩ => out1_11 (iblk1 V c 2 t) (iblk1 V c 5 t) (iblk1 V c 7 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 3 t) (iblk1 V c 4 t) (iblk1 V c 6 t) (iblk1 V c 8 t) := by dsimp only [dat1]
theorem after1_11 (c : Dev nD) (t : Fin cfg1.N) : (dat1 V c).after 11 t = out1_11 (iblk1 V c 2 t) (iblk1 V c 5 t) (iblk1 V c 7 t) (iblk1 V c 9 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.FusedRun.lean ====
import proofs.«179407_j89060441850130_2_alg».proof.Proof.Gen.Kernel.Launch
import proofs.«179407_j89060441850130_2_alg».proof.Proof.Gen.Kernel.Skeleton
import proofs.«179407_j89060441850130_2_alg».proof.Proof.Gen.Kernel.Points
import proofs.«179407_j89060441850130_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The pairwise kernel (the third pallas_call) on whole memrefs

At a grid point the body reads four row blocks (two indexed by the row tile, two by the column tile), a bias row and a
square weight block; in eight trips it fills a 4096-row scratch, 512 rows per trip, with the sum of two rectified pairwise
sums; then it multiplies the whole scratch by the weight block, adds the bias row and stores the 64 × 64 × 300 result block.
The scratch is written entirely before it is read, so nothing is carried from one grid point to the next. -/

set_option maxHeartbeats 4000000 in
/-- What the body's stores leave in the output block's staging memref and in the scratch, as pieces (last first), with the
    run of the body that finds them: the six input memrefs at their contents and handed back unchanged, the output memref at
    anything and the scratch at contents `fs` before, both at their pieces written afterwards. (The pieces found for the output
    mention `fs` through the scratch read back after the loop; that they do not depend on it is the cover of the scratch.) -/
noncomputable def kernelRun2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole)
    (x0 x1 x2 x3 : Vec F S64x300 .f32) (x4 : Vec F S1x300 .f32) (x5 : Vec F S300x300 .bf16) (fs : Vec F S4096x300 .bf16) :
    Σ' (L6 : List (View.Piece (Elt F) S64x64x300 .f32)), { LS : List (View.Piece (Elt F) S4096x300 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare fs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc2__fused_kernel i arg2 harg2 arg3 harg3 arg4 harg4 arg5 harg5 arg6 harg6 arg7 harg7 arg8 harg8 arg9 harg9) K } := by
  refine ⟨?_, ?_, fun E K => ?run⟩
  case run =>
    simp only [cc2__fused_kernel_eq_skeleton]; unfold cc2__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg9.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H9

end Cert.Kernel.Hand

end
-- ==== Proof.K.Fused.lean ====
import proofs.«179407_j89060441850130_2_alg».proof.Proof.Gen.Kernel.Launch
import proofs.«179407_j89060441850130_2_alg».proof.Proof.Gen.Kernel.Skeleton
import proofs.«179407_j89060441850130_2_alg».proof.Proof.Gen.Kernel.Points
import proofs.«179407_j89060441850130_2_alg».proof.Proof.Gen.Kernel.Loops
import proofs.«179407_j89060441850130_2_alg».proof.Proof.K.FusedRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call at the buffer contents `V` it is entered from: blocks, what a point leaves, the proof data -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds the window's block at every point, whether the point fetches it or the
block index has not moved since the point that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, spelt as the body is called with it, and its wholeness. -/
abbrev ms2_0 (t : Fin cfg2.N) : Memref sig .tc .vmem S64x300 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x300 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x300 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x300 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x300 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S300x300 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x64x300 .f32 := win2_6.stage (cfg2.slots t 6)
abbrev hs2_6 (t : Fin cfg2.N) : (ms2_6 t).IsWhole := hstage2_6 ((cfg2.slots t 6).cast nbuf2_6)
/-- The scratch operand: a whole buffer of its own. -/
abbrev scM2 : Memref sig .tc .vmem S4096x300 .bf16 := Memref.whole cc2_scratch0
abbrev hscM2 : scM2.IsWhole := Memref.isWhole_whole _

/-- The region invariant with the scratch buffer taken out of the scoped rest: the scratch at some contents, the other scoped
    buffers unopened, the generator register at some state. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The pieces the eight trips leave in the scratch (last first), at the body's loads of the two column-tile blocks and the
    contents of the two row-tile memrefs. -/
abbrev pb2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) : List (View.Piece (Elt F) S4096x300 .bf16) :=
  pb_k2_t1 (F := F) Variants.none c none i arg2 harg2 arg3 harg3 arg4 harg4 arg5 harg5 arg6 harg6 arg7 harg7 arg8 harg8 arg9 harg9
    (View.readAt (Elt F) arg3.view (Rect.unit (s := S64x300) ![0, 0] S64x300.size inb_S64x300_S64x300_0_0).toLoadRect (harg3.unread x1))
    (View.readAt (Elt F) arg5.view (Rect.unit (s := S64x300) ![0, 0] S64x300.size inb_S64x300_S64x300_0_0).toLoadRect (harg5.unread x3))
    (harg2.unread x0) (harg4.unread x2) (Scf.trips k2_t1_loop.lb k2_t1_loop.ub k2_t1_loop.st)

/-- The eight trips' stores, 512 rows each, tile the scratch: every entry of it is written before it is read. -/
theorem scover2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) :
    ∀ y : S4096x300.Idx, ∃ pc ∈ pb2 (F := F) c i arg2 harg2 arg3 harg3 arg4 harg4 arg5 harg5 arg6 harg6 arg7 harg7 arg8 harg8 arg9 harg9 x0 x1 x2 x3, y ∈ pc.1.set :=
  View.cover_of_tiledL (pb2 (F := F) c i arg2 harg2 arg3 harg3 arg4 harg4 arg5 harg5 arg6 harg6 arg7 harg7 arg8 harg8 arg9 harg9 x0 x1 x2 x3) S512x300.size (by sl_kernel_rfl)

/-- What the scratch holds when the loop is over, whatever it held before: the trips' pieces as one array. -/
def scr2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) : Vec F S4096x300 .bf16 :=
  View.canon (pb2 (F := F) c i arg2 harg2 arg3 harg3 arg4 harg4 arg5 harg5 arg6 harg6 arg7 harg7 arg8 harg8 arg9 harg9 x0 x1 x2 x3)

/-- The one piece the body stores into the output block: the product of the scratch with the weight block plus the bias row. -/
abbrev piece6 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) (x4 : Vec F S1x300 .f32) (x5 : Vec F S300x300 .bf16) : View.Piece (Elt F) S64x64x300 .f32 :=
  ⟨(Rect.unit (s := S64x64x300) ![0, 0, 0] S64x64x300.size inb_S64x64x300_S64x64x300_0_0_0), k2_pay2 (View.readAt (Elt F) arg7.view (Rect.unit (s := S300x300) ![0, 0] S300x300.size inb_S300x300_S300x300_0_0).toLoadRect (harg7.unread x5)) (View.ld (scr2 c i arg2 harg2 arg3 harg3 arg4 harg4 arg5 harg5 arg6 harg6 arg7 harg7 arg8 harg8 arg9 harg9 x0 x1 x2 x3) (Rect.unit (s := S4096x300) ![0, 0] S4096x300.size inb_S4096x300_S4096x300_0_0)) (View.readAt (Elt F) arg6.view (Rect.unit (s := S1x300) ![0, 0] S1x300.size inb_S1x300_S1x300_0_0).toLoadRect (harg6.unread x4))⟩

set_option maxHeartbeats 2000000 in
/-- The pieces the run finds for the output block are that one piece: the scratch it reads back is covered by the trips'
    stores, so what the scratch held on entry does not matter. -/
theorem L6_eq (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) (x4 : Vec F S1x300 .f32) (x5 : Vec F S300x300 .bf16) (fs : Vec F S4096x300 .bf16) :
    (kernelRun2 c i arg2 harg2 arg3 harg3 arg4 harg4 arg5 harg5 arg6 harg6 arg7 harg7 arg8 harg8 arg9 harg9 x0 x1 x2 x3 x4 x5 fs).1 = [piece6 c i arg2 harg2 arg3 harg3 arg4 harg4 arg5 harg5 arg6 harg6 arg7 harg7 arg8 harg8 arg9 harg9 x0 x1 x2 x3 x4 x5] := by
  unfold kernelRun2
  dsimp only
  sl_unfold_run_names
  unfold piece6 scr2
  rw [View.readAt_eq_ld arg9.view, View.read_writes_eq_canon _ _ _ (scover2 c i arg2 harg2 arg3 harg3 arg4 harg4 arg5 harg5 arg6 harg6 arg7 harg7 arg8 harg8 arg9 harg9 x0 x1 x2 x3)]

/-- That piece covers the output block. -/
theorem cover6 (p : Vec F S64x64x300 .f32) (y : S64x64x300.Idx) :
    ∃ pc ∈ ([⟨(Rect.unit (s := S64x64x300) ![0, 0, 0] S64x64x300.size inb_S64x64x300_S64x64x300_0_0_0), p⟩] : List (View.Piece (Elt F) S64x64x300 .f32)), y ∈ pc.1.set :=
  View.cover_of_tiled [⟨(Rect.unit (s := S64x64x300) ![0, 0, 0] S64x64x300.size inb_S64x64x300_S64x64x300_0_0_0), p⟩] S64x64x300.size (by rfl) y

/-- What a point leaves in the output block's staging buffer. -/
def out2_6 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) (x4 : Vec F S1x300 .f32) (x5 : Vec F S300x300 .bf16) : Vec F S64x64x300 .f32 :=
  View.canon [piece6 c i arg2 harg2 arg3 harg3 arg4 harg4 arg5 harg5 arg6 harg6 arg7 harg7 arg8 harg8 arg9 harg9 x0 x1 x2 x3 x4 x5]

/-- The output block after the body at point `t`: the run at the point's memrefs and input blocks. -/
def outAt2 (c : Dev nD) (t : Fin cfg2.N) : Vec F S64x64x300 .f32 :=
  out2_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 (iblk2 V c 0 t) (iblk2 V c 1 t) (iblk2 V c 2 t) (iblk2 V c 3 t) (iblk2 V c 4 t) (iblk2 V c 5 t)

/-- The proof data of the third pipeline on core `c`: the arrays as the region finds them; after the body at a point each
    input's buffer at its block and the output's at `outAt2`; the invariant is the scoped rest (the scratch among it, at
    anything between points) and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 2000000 in
/-- The body at any point: the inputs' memrefs hold their blocks, the invariant lends the scratch at whatever it holds and
    takes it back at whatever the point left, the output's buffer ends at the store's piece; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  unfold outAt2
  rw [show (dat2 V c).Φ t.castSucc = Pipeline.ΦA spec2 c from rfl, PhiA2_eq]
  iintro ⟨⟨⟨⟨%es, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2 c (grid2.coords t) _ _ _ _ _ _ _ _ _ _ _ _ _ _ _ _ (iblk2 V c 0 t) (iblk2 V c 1 t) (iblk2 V c 2 t) (iblk2 V c 3 t) (iblk2 V c 4 t) (iblk2 V c 5 t) es).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e6, H6⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [L6_eq]
  exact View.read_writes_eq_canon _ _ _ (cover6 _)

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«179407_j89060441850130_2_alg».proof.Proof.Gen.Kernel.Launch
import proofs.«179407_j89060441850130_2_alg».proof.Proof.Gen.Kernel.Skeleton
import proofs.«179407_j89060441850130_2_alg».proof.Proof.Gen.Kernel.Points
import proofs.«179407_j89060441850130_2_alg».proof.Proof.Gen.Kernel.Loops
import proofs.«179407_j89060441850130_2_alg».proof.Proof.Gen.Kernel.Regions
import proofs.«179407_j89060441850130_2_alg».proof.Proof.K.Proj0
import proofs.«179407_j89060441850130_2_alg».proof.Proof.K.Proj1
import proofs.«179407_j89060441850130_2_alg».proof.Proof.K.Fused
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a stretch of host operations, then the three pallas_calls

## The buffer contents at each boundary, folded from the launch memory -/

/-- Core `c`'s buffers at launch. -/
abbrev W0 : Dev nD → Valuation τ sig (Elt F) := fun c b => (s₀ m ρ).mem ((c : Dev nD), b)
/-- After the host operations (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the exit of pallas_call 0: its windows' arrays at what the pipeline leaves (an input's as entered, an output's with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the exit of pallas_call 1: its windows' arrays at what the pipeline leaves (an input's as entered, an output's with every
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the exit of pallas_call 2: its windows' arrays at what the pipeline leaves (an input's as entered, an output's with every
    write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host operation writes one, and a region either stages it as an input or leaves it alone -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- No pallas_call has a prefetched table. -/
abbrev adm : (p : Fin 3) → (pcfgs (F := F) p).Adm := fun p => (cfgs p).toPCfg_adm
/-- Every pipeline's proof data, each at its region's entry contents (a literal match on the pipeline index). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The stretch of host operations as a segment over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- the library's lemmas are stated over the pinned configuration; unifying with it unfolds plain definitions in a metavariable's type
set_option backward.isDefEq.respectTransparency.types false in
/-- Pallas_call 0 as a segment of @main: entered with every unscoped buffer at `W1`, left with them at `W2`. Its windows'
    arrays are split out of the unscoped buffers at entry and put back, at what the write-backs leave, at exit; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
/-- Pallas_call 1 as a segment of @main: entered with every unscoped buffer at `W2`, left with them at `W3`. Its windows'
    arrays are split out of the unscoped buffers at entry and put back, at what the write-backs leave, at exit; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
/-- Pallas_call 2 as a segment of @main: entered with every unscoped buffer at `W3`, left with them at `W4`. Its windows'
    arrays are split out of the unscoped buffers at entry and put back, at what the write-backs leave, at exit; the generator
    register goes into the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg0 m ρ), .region (reg0 m ρ), .region (reg1 m ρ), .region (reg2 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c)⟩) (run_all m ρ)

end Cert.Kernel.Hand

end
-- ==== Proof.KI.Proj0.lean ====
/- The per-region half of pallas_call 0 (the projection kernel), at a parameter `V` — the TensorCore's buffer
   contents when the region is entered: each window's block at a point, what each output window's staging buffer
   holds after the body as a function of the input blocks, the body's triple, the pipeline's proof data and the
   body obligation. Stated once for every float instance `F`. -/
import proofs.«179407_j89060441850130_2_alg».proof.Proof.Gen.KernelIdeal.Launch
import proofs.«179407_j89060441850130_2_alg».proof.Proof.Gen.KernelIdeal.Skeleton
import proofs.«179407_j89060441850130_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    window's block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an unfetched
    window's block index has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (an unfetched
    window's block index has not moved), for any proof data whose array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every window is read or written whole -/

abbrev r0_0 : Rect S128x1935 := Rect.unit (s := S128x1935) ![0, 0] S128x1935.size inb_S128x1935_S128x1935_0_0
abbrev r0_1 : Rect S1x1935 := Rect.unit (s := S1x1935) ![0, 0] S1x1935.size inb_S1x1935_S1x1935_0_0
abbrev r0_2 : Rect S128x5 := Rect.unit (s := S128x5) ![0, 0] S128x5.size inb_S128x5_S128x5_0_0
abbrev r0_3 : Rect S1935x300 := Rect.unit (s := S1935x300) ![0, 0] S1935x300.size inb_S1935x300_S1935x300_0_0
abbrev r0_4 : Rect S300x300 := Rect.unit (s := S300x300) ![0, 0] S300x300.size inb_S300x300_S300x300_0_0
abbrev r0_5 : Rect S5x300 := Rect.unit (s := S5x300) ![0, 0] S5x300.size inb_S5x300_S5x300_0_0
abbrev r0_6 : Rect S1x1 := Rect.unit (s := S1x1) ![0, 0] S1x1.size inb_S1x1_S1x1_0_0
abbrev r0_7 : Rect S1x1 := Rect.unit (s := S1x1) ![0, 0] S1x1.size inb_S1x1_S1x1_0_0
abbrev r0_8 : Rect S1x300 := Rect.unit (s := S1x300) ![0, 0] S1x300.size inb_S1x300_S1x300_0_0
abbrev r0_9 : Rect S1x300 := Rect.unit (s := S1x300) ![0, 0] S1x300.size inb_S1x300_S1x300_0_0
abbrev r0_10 : Rect S128x300 := Rect.unit (s := S128x300) ![0, 0] S128x300.size inb_S128x300_S128x300_0_0

/-! ## What the body leaves in each output window's buffer -/

/-- Window 10's staging buffer after the body: its one store, over the gated feature block pushed through the two
    bf16 matrix products, plus the bias, times the scale. -/
def out0_10 (x0 : Vec F S128x1935 .f32) (x1 : Vec F S1x1935 .f32) (x3 : Vec F S1935x300 .bf16) (x4 : Vec F S300x300 .bf16) (x6 : Vec F S1x1 .f32) (x8 : Vec F S1x300 .f32) : Vec F S128x300 .f32 :=
  View.canon [⟨r0_10, k0_pay3 (View.ld x1 r0_1) (View.ld x0 r0_0) (View.ld x3 r0_3) (View.ld x4 r0_4) (View.ld x6 r0_6) (View.ld x8 r0_8)⟩]

/-- Window 11's staging buffer after the body: its one store, over the box block's matrix product, plus the bias,
    times the scale. -/
def out0_11 (x2 : Vec F S128x5 .f32) (x5 : Vec F S5x300 .bf16) (x7 : Vec F S1x1 .f32) (x9 : Vec F S1x300 .f32) : Vec F S128x300 .f32 :=
  View.canon [⟨r0_10, k0_pay1 (k0_pay2 (View.ld x2 r0_2) (View.ld x5 r0_5)) (k0_pay4 (View.ld x7 r0_7)) (k0_pay5 (View.ld x9 r0_9))⟩]

/-- The one store of an output window is the whole block, so it covers it. -/
theorem cover0_10 (p0 : Vec F S128x300 .f32) (y : S128x300.Idx) :
    ∃ pc ∈ ([⟨r0_10, p0⟩] : List (View.Piece (Elt F) S128x300 .f32)), y ∈ pc.1.set :=
  View.cover_of_tiled [⟨r0_10, p0⟩] S128x300.size (by rfl) y

/-! ## The body's triple -/

set_option maxHeartbeats 4000000 in
/-- The kernel body on whole staging memrefs, the inputs' at read contents `xW` and the outputs' at anything, runs to
    the continuation holding the inputs' as they were and each output's at `out0_W` of the inputs'. Each output
    buffer is loaded once before it is stored whole; the loaded value is not used. -/
theorem sound_kernel0 (c : Dev nD) (E : Set ℕ) (i : grid0.Coords) (arg1 : Memref sig .tc .vmem S128x1935 .f32) (harg1 : arg1.IsWhole) (arg2 : Memref sig .tc .vmem S1x1935 .f32) (harg2 : arg2.IsWhole) (arg3 : Memref sig .tc .vmem S128x5 .f32) (harg3 : arg3.IsWhole) (arg4 : Memref sig .tc .vmem S1935x300 .bf16) (harg4 : arg4.IsWhole) (arg5 : Memref sig .tc .vmem S300x300 .bf16) (harg5 : arg5.IsWhole) (arg6 : Memref sig .tc .vmem S5x300 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S128x300 .f32) (harg11 : arg11.IsWhole) (arg12 : Memref sig .tc .vmem S128x300 .f32) (harg12 : arg12.IsWhole)
    (x0 : Vec F S128x1935 .f32) (x1 : Vec F S1x1935 .f32) (x2 : Vec F S128x5 .f32) (x3 : Vec F S1935x300 .bf16) (x4 : Vec F S300x300 .bf16) (x5 : Vec F S5x300 .bf16) (x6 : Vec F S1x1 .f32) (x7 : Vec F S1x1 .f32) (x8 : Vec F S1x300 .f32) (x9 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x3 x4 x6 x8) ∗ owns (c : Thread nD τ) arg12 fullShare (out0_11 x2 x5 x7 x9)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_10 _)

/-! ## The pipeline's proof data -/

/-- The proof data of pipeline 0 on core `c`: the arrays as the region finds them (`V`); after the body at point
    `t` each input's buffer at its block and each output's at `out0_W` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 3 t) (iblk0 V c 4 t) (iblk0 V c 6 t) (iblk0 V c 8 t)
    | ⟨11, _⟩ => out0_11 (iblk0 V c 2 t) (iblk0 V c 5 t) (iblk0 V c 7 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 3 t) (iblk0 V c 4 t) (iblk0 V c 6 t) (iblk0 V c 8 t) := by dsimp only [dat0]
theorem after0_11 (c : Dev nD) (t : Fin cfg0.N) : (dat0 V c).after 11 t = out0_11 (iblk0 V c 2 t) (iblk0 V c 5 t) (iblk0 V c 7 t) (iblk0 V c 9 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1000000 in
/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Proj1.lean ====
/- The per-region half of pallas_call 1 (the projection kernel), at a parameter `V` — the TensorCore's buffer
   contents when the region is entered: each window's block at a point, what each output window's staging buffer
   holds after the body as a function of the input blocks, the body's triple, the pipeline's proof data and the
   body obligation. Stated once for every float instance `F`. -/
import proofs.«179407_j89060441850130_2_alg».proof.Proof.Gen.KernelIdeal.Launch
import proofs.«179407_j89060441850130_2_alg».proof.Proof.Gen.KernelIdeal.Skeleton
import proofs.«179407_j89060441850130_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched
    window's block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an unfetched
    window's block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an unfetched
    window's block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (an unfetched
    window's block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (an unfetched
    window's block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (an unfetched
    window's block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (an unfetched
    window's block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (an unfetched
    window's block index has not moved), for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (an unfetched
    window's block index has not moved), for any proof data whose array is `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not (an unfetched
    window's block index has not moved), for any proof data whose array is `V`'s and whose body leaves the block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window is read or written whole -/

abbrev r1_0 : Rect S128x1935 := Rect.unit (s := S128x1935) ![0, 0] S128x1935.size inb_S128x1935_S128x1935_0_0
abbrev r1_1 : Rect S1x1935 := Rect.unit (s := S1x1935) ![0, 0] S1x1935.size inb_S1x1935_S1x1935_0_0
abbrev r1_2 : Rect S128x5 := Rect.unit (s := S128x5) ![0, 0] S128x5.size inb_S128x5_S128x5_0_0
abbrev r1_3 : Rect S1935x300 := Rect.unit (s := S1935x300) ![0, 0] S1935x300.size inb_S1935x300_S1935x300_0_0
abbrev r1_4 : Rect S300x300 := Rect.unit (s := S300x300) ![0, 0] S300x300.size inb_S300x300_S300x300_0_0
abbrev r1_5 : Rect S5x300 := Rect.unit (s := S5x300) ![0, 0] S5x300.size inb_S5x300_S5x300_0_0
abbrev r1_6 : Rect S1x1 := Rect.unit (s := S1x1) ![0, 0] S1x1.size inb_S1x1_S1x1_0_0
abbrev r1_7 : Rect S1x1 := Rect.unit (s := S1x1) ![0, 0] S1x1.size inb_S1x1_S1x1_0_0
abbrev r1_8 : Rect S1x300 := Rect.unit (s := S1x300) ![0, 0] S1x300.size inb_S1x300_S1x300_0_0
abbrev r1_9 : Rect S1x300 := Rect.unit (s := S1x300) ![0, 0] S1x300.size inb_S1x300_S1x300_0_0
abbrev r1_10 : Rect S128x300 := Rect.unit (s := S128x300) ![0, 0] S128x300.size inb_S128x300_S128x300_0_0

/-! ## What the body leaves in each output window's buffer -/

/-- Window 10's staging buffer after the body: its one store, over the gated feature block pushed through the two
    bf16 matrix products, plus the bias, times the scale. -/
def out1_10 (x0 : Vec F S128x1935 .f32) (x1 : Vec F S1x1935 .f32) (x3 : Vec F S1935x300 .bf16) (x4 : Vec F S300x300 .bf16) (x6 : Vec F S1x1 .f32) (x8 : Vec F S1x300 .f32) : Vec F S128x300 .f32 :=
  View.canon [⟨r1_10, k1_pay3 (View.ld x1 r1_1) (View.ld x0 r1_0) (View.ld x3 r1_3) (View.ld x4 r1_4) (View.ld x6 r1_6) (View.ld x8 r1_8)⟩]

/-- Window 11's staging buffer after the body: its one store, over the box block's matrix product, plus the bias,
    times the scale. -/
def out1_11 (x2 : Vec F S128x5 .f32) (x5 : Vec F S5x300 .bf16) (x7 : Vec F S1x1 .f32) (x9 : Vec F S1x300 .f32) : Vec F S128x300 .f32 :=
  View.canon [⟨r1_10, k1_pay1 (k1_pay2 (View.ld x2 r1_2) (View.ld x5 r1_5)) (k1_pay4 (View.ld x7 r1_7)) (k1_pay5 (View.ld x9 r1_9))⟩]

/-- The one store of an output window is the whole block, so it covers it. -/
theorem cover1_10 (p0 : Vec F S128x300 .f32) (y : S128x300.Idx) :
    ∃ pc ∈ ([⟨r1_10, p0⟩] : List (View.Piece (Elt F) S128x300 .f32)), y ∈ pc.1.set :=
  View.cover_of_tiled [⟨r1_10, p0⟩] S128x300.size (by rfl) y

/-! ## The body's triple -/

set_option maxHeartbeats 4000000 in
/-- The kernel body on whole staging memrefs, the inputs' at read contents `xW` and the outputs' at anything, runs to
    the continuation holding the inputs' as they were and each output's at `out1_W` of the inputs'. Each output
    buffer is loaded once before it is stored whole; the loaded value is not used. -/
theorem sound_kernel1 (c : Dev nD) (E : Set ℕ) (i : grid1.Coords) (arg1 : Memref sig .tc .vmem S128x1935 .f32) (harg1 : arg1.IsWhole) (arg2 : Memref sig .tc .vmem S1x1935 .f32) (harg2 : arg2.IsWhole) (arg3 : Memref sig .tc .vmem S128x5 .f32) (harg3 : arg3.IsWhole) (arg4 : Memref sig .tc .vmem S1935x300 .bf16) (harg4 : arg4.IsWhole) (arg5 : Memref sig .tc .vmem S300x300 .bf16) (harg5 : arg5.IsWhole) (arg6 : Memref sig .tc .vmem S5x300 .bf16) (harg6 : arg6.IsWhole) (arg7 : Memref sig .tc .vmem S1x1 .f32) (harg7 : arg7.IsWhole) (arg8 : Memref sig .tc .vmem S1x1 .f32) (harg8 : arg8.IsWhole) (arg9 : Memref sig .tc .vmem S1x300 .f32) (harg9 : arg9.IsWhole) (arg10 : Memref sig .tc .vmem S1x300 .f32) (harg10 : arg10.IsWhole) (arg11 : Memref sig .tc .vmem S128x300 .f32) (harg11 : arg11.IsWhole) (arg12 : Memref sig .tc .vmem S128x300 .f32) (harg12 : arg12.IsWhole)
    (x0 : Vec F S128x1935 .f32) (x1 : Vec F S1x1935 .f32) (x2 : Vec F S128x5 .f32) (x3 : Vec F S1935x300 .bf16) (x4 : Vec F S300x300 .bf16) (x5 : Vec F S5x300 .bf16) (x6 : Vec F S1x1 .f32) (x7 : Vec F S1x1 .f32) (x8 : Vec F S1x300 .f32) (x9 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x3 x4 x6 x8) ∗ owns (c : Thread nD τ) arg12 fullShare (out1_11 x2 x5 x7 x9)) -∗ K ⟨⟩))
      ⊢ wp frame (wpE (defs₀ (F := F)) Variants.none c none) E (cc1__proj_kernel i arg1 harg1 arg2 harg2 arg3 harg3 arg4 harg4 arg5 harg5 arg6 harg6 arg7 harg7 arg8 harg8 arg9 harg9 arg10 harg10 arg11 harg11 arg12 harg12) K := by
  simp only [cc1__proj_kernel_eq_skeleton]; unfold cc1__proj_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1_10 _)
  iexists _; isplitr
  swap; · iexact H11
  ipureintro
  exact View.read_writes_eq_canon _ _ _ (cover1_10 _)

/-! ## The pipeline's proof data -/

/-- The proof data of pipeline 1 on core `c`: the arrays as the region finds them (`V`); after the body at point
    `t` each input's buffer at its block and each output's at `out1_W` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 3 t) (iblk1 V c 4 t) (iblk1 V c 6 t) (iblk1 V c 8 t)
    | ⟨11, _⟩ => out1_11 (iblk1 V c 2 t) (iblk1 V c 5 t) (iblk1 V c 7 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 3 t) (iblk1 V c 4 t) (iblk1 V c 6 t) (iblk1 V c 8 t) := by dsimp only [dat1]
theorem after1_11 (c : Dev nD) (t : Fin cfg1.N) : (dat1 V c).after 11 t = out1_11 (iblk1 V c 2 t) (iblk1 V c 5 t) (iblk1 V c 7 t) (iblk1 V c 9 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.FusedRun.lean ====
import proofs.«179407_j89060441850130_2_alg».proof.Proof.Gen.KernelIdeal.Launch
import proofs.«179407_j89060441850130_2_alg».proof.Proof.Gen.KernelIdeal.Skeleton
import proofs.«179407_j89060441850130_2_alg».proof.Proof.Gen.KernelIdeal.Points
import proofs.«179407_j89060441850130_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pairwise kernel (the third pallas_call) on whole memrefs

At a grid point the body reads four row blocks (two indexed by the row tile, two by the column tile), a bias row and a
square weight block; in eight trips it fills a 4096-row scratch, 512 rows per trip, with the sum of two rectified pairwise
sums; then it multiplies the whole scratch by the weight block, adds the bias row and stores the 64 × 64 × 300 result block.
The scratch is written entirely before it is read, so nothing is carried from one grid point to the next. -/

set_option maxHeartbeats 4000000 in
/-- What the body's stores leave in the output block's staging memref and in the scratch, as pieces (last first), with the
    run of the body that finds them: the six input memrefs at their contents and handed back unchanged, the output memref at
    anything and the scratch at contents `fs` before, both at their pieces written afterwards. (The pieces found for the output
    mention `fs` through the scratch read back after the loop; that they do not depend on it is the cover of the scratch.) -/
noncomputable def kernelRun2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole)
    (x0 x1 x2 x3 : Vec F S64x300 .f32) (x4 : Vec F S1x300 .f32) (x5 : Vec F S300x300 .bf16) (fs : Vec F S4096x300 .bf16) :
    Σ' (L6 : List (View.Piece (Elt F) S64x64x300 .f32)), { LS : List (View.Piece (Elt F) S4096x300 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare fs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc2__fused_kernel i arg2 harg2 arg3 harg3 arg4 harg4 arg5 harg5 arg6 harg6 arg7 harg7 arg8 harg8 arg9 harg9) K } := by
  refine ⟨?_, ?_, fun E K => ?run⟩
  case run =>
    simp only [cc2__fused_kernel_eq_skeleton]; unfold cc2__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg9.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H9

end Cert.KernelIdeal.Hand

end
-- ==== Proof.KI.Fused.lean ====
import proofs.«179407_j89060441850130_2_alg».proof.Proof.Gen.KernelIdeal.Launch
import proofs.«179407_j89060441850130_2_alg».proof.Proof.Gen.KernelIdeal.Skeleton
import proofs.«179407_j89060441850130_2_alg».proof.Proof.Gen.KernelIdeal.Points
import proofs.«179407_j89060441850130_2_alg».proof.Proof.Gen.KernelIdeal.Loops
import proofs.«179407_j89060441850130_2_alg».proof.Proof.KI.FusedRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call at the buffer contents `V` it is entered from: blocks, what a point leaves, the proof data -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds the window's block at every point, whether the point fetches it or the
block index has not moved since the point that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, spelt as the body is called with it, and its wholeness. -/
abbrev ms2_0 (t : Fin cfg2.N) : Memref sig .tc .vmem S64x300 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x300 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x300 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x300 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x300 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S300x300 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x64x300 .f32 := win2_6.stage (cfg2.slots t 6)
abbrev hs2_6 (t : Fin cfg2.N) : (ms2_6 t).IsWhole := hstage2_6 ((cfg2.slots t 6).cast nbuf2_6)
/-- The scratch operand: a whole buffer of its own. -/
abbrev scM2 : Memref sig .tc .vmem S4096x300 .bf16 := Memref.whole cc2_scratch0
abbrev hscM2 : scM2.IsWhole := Memref.isWhole_whole _

/-- The region invariant with the scratch buffer taken out of the scoped rest: the scratch at some contents, the other scoped
    buffers unopened, the generator register at some state. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The pieces the eight trips leave in the scratch (last first), at the body's loads of the two column-tile blocks and the
    contents of the two row-tile memrefs. -/
abbrev pb2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) : List (View.Piece (Elt F) S4096x300 .bf16) :=
  pb_k2_t1 (F := F) Variants.none c none i arg2 harg2 arg3 harg3 arg4 harg4 arg5 harg5 arg6 harg6 arg7 harg7 arg8 harg8 arg9 harg9
    (View.readAt (Elt F) arg3.view (Rect.unit (s := S64x300) ![0, 0] S64x300.size inb_S64x300_S64x300_0_0).toLoadRect (harg3.unread x1))
    (View.readAt (Elt F) arg5.view (Rect.unit (s := S64x300) ![0, 0] S64x300.size inb_S64x300_S64x300_0_0).toLoadRect (harg5.unread x3))
    (harg2.unread x0) (harg4.unread x2) (Scf.trips k2_t1_loop.lb k2_t1_loop.ub k2_t1_loop.st)

/-- The eight trips' stores, 512 rows each, tile the scratch: every entry of it is written before it is read. -/
theorem scover2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) :
    ∀ y : S4096x300.Idx, ∃ pc ∈ pb2 (F := F) c i arg2 harg2 arg3 harg3 arg4 harg4 arg5 harg5 arg6 harg6 arg7 harg7 arg8 harg8 arg9 harg9 x0 x1 x2 x3, y ∈ pc.1.set :=
  View.cover_of_tiledL (pb2 (F := F) c i arg2 harg2 arg3 harg3 arg4 harg4 arg5 harg5 arg6 harg6 arg7 harg7 arg8 harg8 arg9 harg9 x0 x1 x2 x3) S512x300.size (by sl_kernel_rfl)

/-- What the scratch holds when the loop is over, whatever it held before: the trips' pieces as one array. -/
def scr2 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) : Vec F S4096x300 .bf16 :=
  View.canon (pb2 (F := F) c i arg2 harg2 arg3 harg3 arg4 harg4 arg5 harg5 arg6 harg6 arg7 harg7 arg8 harg8 arg9 harg9 x0 x1 x2 x3)

/-- The one piece the body stores into the output block: the product of the scratch with the weight block plus the bias row. -/
abbrev piece6 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) (x4 : Vec F S1x300 .f32) (x5 : Vec F S300x300 .bf16) : View.Piece (Elt F) S64x64x300 .f32 :=
  ⟨(Rect.unit (s := S64x64x300) ![0, 0, 0] S64x64x300.size inb_S64x64x300_S64x64x300_0_0_0), k2_pay2 (View.readAt (Elt F) arg7.view (Rect.unit (s := S300x300) ![0, 0] S300x300.size inb_S300x300_S300x300_0_0).toLoadRect (harg7.unread x5)) (View.ld (scr2 c i arg2 harg2 arg3 harg3 arg4 harg4 arg5 harg5 arg6 harg6 arg7 harg7 arg8 harg8 arg9 harg9 x0 x1 x2 x3) (Rect.unit (s := S4096x300) ![0, 0] S4096x300.size inb_S4096x300_S4096x300_0_0)) (View.readAt (Elt F) arg6.view (Rect.unit (s := S1x300) ![0, 0] S1x300.size inb_S1x300_S1x300_0_0).toLoadRect (harg6.unread x4))⟩

set_option maxHeartbeats 2000000 in
/-- The pieces the run finds for the output block are that one piece: the scratch it reads back is covered by the trips'
    stores, so what the scratch held on entry does not matter. -/
theorem L6_eq (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) (x4 : Vec F S1x300 .f32) (x5 : Vec F S300x300 .bf16) (fs : Vec F S4096x300 .bf16) :
    (kernelRun2 c i arg2 harg2 arg3 harg3 arg4 harg4 arg5 harg5 arg6 harg6 arg7 harg7 arg8 harg8 arg9 harg9 x0 x1 x2 x3 x4 x5 fs).1 = [piece6 c i arg2 harg2 arg3 harg3 arg4 harg4 arg5 harg5 arg6 harg6 arg7 harg7 arg8 harg8 arg9 harg9 x0 x1 x2 x3 x4 x5] := by
  unfold kernelRun2
  dsimp only
  sl_unfold_run_names
  unfold piece6 scr2
  rw [View.readAt_eq_ld arg9.view, View.read_writes_eq_canon _ _ _ (scover2 c i arg2 harg2 arg3 harg3 arg4 harg4 arg5 harg5 arg6 harg6 arg7 harg7 arg8 harg8 arg9 harg9 x0 x1 x2 x3)]

/-- That piece covers the output block. -/
theorem cover6 (p : Vec F S64x64x300 .f32) (y : S64x64x300.Idx) :
    ∃ pc ∈ ([⟨(Rect.unit (s := S64x64x300) ![0, 0, 0] S64x64x300.size inb_S64x64x300_S64x64x300_0_0_0), p⟩] : List (View.Piece (Elt F) S64x64x300 .f32)), y ∈ pc.1.set :=
  View.cover_of_tiled [⟨(Rect.unit (s := S64x64x300) ![0, 0, 0] S64x64x300.size inb_S64x64x300_S64x64x300_0_0_0), p⟩] S64x64x300.size (by rfl) y

/-- What a point leaves in the output block's staging buffer. -/
def out2_6 (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec F S64x300 .f32) (x4 : Vec F S1x300 .f32) (x5 : Vec F S300x300 .bf16) : Vec F S64x64x300 .f32 :=
  View.canon [piece6 c i arg2 harg2 arg3 harg3 arg4 harg4 arg5 harg5 arg6 harg6 arg7 harg7 arg8 harg8 arg9 harg9 x0 x1 x2 x3 x4 x5]

/-- The output block after the body at point `t`: the run at the point's memrefs and input blocks. -/
def outAt2 (c : Dev nD) (t : Fin cfg2.N) : Vec F S64x64x300 .f32 :=
  out2_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 (iblk2 V c 0 t) (iblk2 V c 1 t) (iblk2 V c 2 t) (iblk2 V c 3 t) (iblk2 V c 4 t) (iblk2 V c 5 t)

/-- The proof data of the third pipeline on core `c`: the arrays as the region finds them; after the body at a point each
    input's buffer at its block and the output's at `outAt2`; the invariant is the scoped rest (the scratch among it, at
    anything between points) and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 2000000 in
/-- The body at any point: the inputs' memrefs hold their blocks, the invariant lends the scratch at whatever it holds and
    takes it back at whatever the point left, the output's buffer ends at the store's piece; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  unfold outAt2
  rw [show (dat2 V c).Φ t.castSucc = Pipeline.ΦA spec2 c from rfl, PhiA2_eq]
  iintro ⟨⟨⟨⟨%es, HS⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2 c (grid2.coords t) _ _ _ _ _ _ _ _ _ _ _ _ _ _ _ _ (iblk2 V c 0 t) (iblk2 V c 1 t) (iblk2 V c 2 t) (iblk2 V c 3 t) (iblk2 V c 4 t) (iblk2 V c 5 t) es).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e6, H6⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [L6_eq]
  exact View.read_writes_eq_canon _ _ _ (cover6 _)

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«179407_j89060441850130_2_alg».proof.Proof.Gen.KernelIdeal.Launch
import proofs.«179407_j89060441850130_2_alg».proof.Proof.Gen.KernelIdeal.Skeleton
import proofs.«179407_j89060441850130_2_alg».proof.Proof.Gen.KernelIdeal.Points
import proofs.«179407_j89060441850130_2_alg».proof.Proof.Gen.KernelIdeal.Loops
import proofs.«179407_j89060441850130_2_alg».proof.Proof.Gen.KernelIdeal.Regions
import proofs.«179407_j89060441850130_2_alg».proof.Proof.KI.Proj0
import proofs.«179407_j89060441850130_2_alg».proof.Proof.KI.Proj1
import proofs.«179407_j89060441850130_2_alg».proof.Proof.KI.Fused
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a stretch of host operations, then the three pallas_calls

## The buffer contents at each boundary, folded from the launch memory -/

/-- Core `c`'s buffers at launch. -/
abbrev W0 : Dev nD → Valuation τ sig (Elt F) := fun c b => (s₀ m ρ).mem ((c : Dev nD), b)
/-- After the host operations (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the exit of pallas_call 0: its windows' arrays at what the pipeline leaves (an input's as entered, an output's with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the exit of pallas_call 1: its windows' arrays at what the pipeline leaves (an input's as entered, an output's with every
    write-back folded in), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the exit of pallas_call 2: its windows' arrays at what the pipeline leaves (an input's as entered, an output's with every
    write-back folded in), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host operation writes one, and a region either stages it as an input or leaves it alone -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- No pallas_call has a prefetched table. -/
abbrev adm : (p : Fin 3) → (pcfgs (F := F) p).Adm := fun p => (cfgs p).toPCfg_adm
/-- Every pipeline's proof data, each at its region's entry contents (a literal match on the pipeline index). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The stretch of host operations as a segment over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- the library's lemmas are stated over the pinned configuration; unifying with it unfolds plain definitions in a metavariable's type
set_option backward.isDefEq.respectTransparency.types false in
/-- Pallas_call 0 as a segment of @main: entered with every unscoped buffer at `W1`, left with them at `W2`. Its windows'
    arrays are split out of the unscoped buffers at entry and put back, at what the write-backs leave, at exit; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
/-- Pallas_call 1 as a segment of @main: entered with every unscoped buffer at `W2`, left with them at `W3`. Its windows'
    arrays are split out of the unscoped buffers at entry and put back, at what the write-backs leave, at exit; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
/-- Pallas_call 2 as a segment of @main: entered with every unscoped buffer at `W3`, left with them at `W4`. Its windows'
    arrays are split out of the unscoped buffers at entry and put back, at what the write-backs leave, at exit; the generator
    register goes into the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg0 m ρ), .region (reg0 m ρ), .region (reg1 m ρ), .region (reg2 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the TensorCores
    terminates, nothing faulting, and every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c)⟩) (run_all m ρ)

end Cert.KernelIdeal.Hand

end
-- ==== Proof.KI.ProjValue.lean ====
/- The two outputs of the projection kernel at an entry, at the ideal (extended-real) values: what each output
   window's staging buffer holds after the body, as sums over the contracted axes of the input blocks. -/
import proofs.«179407_j89060441850130_2_alg».proof.Proof.KI.Proj0
import proofs.«179407_j89060441850130_2_alg».proof.Proof.KI.Proj1
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

/-- The zero offset of a whole-block access. -/
theorem hz00 : (![0, 0] : Fin 2 → Nat) = fun _ => 0 := funext fun a => by fin_cases a <;> rfl

/-! ## The row and scalar broadcasts at an entry -/

/-- A [1,1] value broadcast to [128,300] reads its one entry everywhere. -/
theorem bc_1x1_128x300 (x : FVec Ideal S1x1 .f32) (r : Fin 128) (o : Fin 300) :
    broadcastTo S128x300 x broadcasts_S1x1_S128x300 (ix2 r o) = x (ix2 0 0) :=
  broadcastTo_apply x broadcasts_S1x1_S128x300 (ix2 r o) (ix2 0 0) (fun a => by match a with | ⟨0, _⟩ => rfl | ⟨1, _⟩ => rfl)

/-- A [1,300] row broadcast to [128,300] reads the row at the column. -/
theorem bc_1x300_128x300 (x : FVec Ideal S1x300 .f32) (r : Fin 128) (o : Fin 300) :
    broadcastTo S128x300 x broadcasts_S1x300_S128x300 (ix2 r o) = x (ix2 0 o) :=
  broadcastTo_apply x broadcasts_S1x300_S128x300 (ix2 r o) (ix2 0 o) (fun a => by match a with | ⟨0, _⟩ => rfl | ⟨1, _⟩ => rfl)

/-- A [1,1935] row broadcast to [128,1935] reads the row at the column. -/
theorem bc_1x1935_128x1935 (x : FVec Ideal S1x1935 .f32) (r : Fin 128) (k : Fin 1935) :
    broadcastTo S128x1935 x broadcasts_S1x1935_S128x1935 (ix2 r k) = x (ix2 0 k) :=
  broadcastTo_apply x broadcasts_S1x1935_S128x1935 (ix2 r k) (ix2 0 k) (fun a => by match a with | ⟨0, _⟩ => rfl | ⟨1, _⟩ => rfl)

/-! ## The three matrix products at an entry -/

/-- The left operand's row coordinate is the entry's row, -/
theorem lhs0_128_1935_300 (i : S128x300.Idx) (q : dot_S128x1935_S1935x300_S128x300_1_0_0_1_n_n.contr.Idx) : (dot_S128x1935_S1935x300_S128x300_1_0_0_1_n_n.lhsIdx i q 0).val = (i 0).val := by
  unfold DotDims.lhsIdx
  rw [dif_neg (show ¬(0 : Fin S128x1935.rank) ∈ dot_S128x1935_S1935x300_S128x300_1_0_0_1_n_n.lhsBatch by decide), dif_pos (show (0 : Fin S128x1935.rank) ∈ dot_S128x1935_S1935x300_S128x300_1_0_0_1_n_n.lhsNonContracting by decide)]
  rfl
/-- and the right operand's column coordinate the entry's column. -/
theorem rhs1_128_1935_300 (i : S128x300.Idx) (q : dot_S128x1935_S1935x300_S128x300_1_0_0_1_n_n.contr.Idx) : (dot_S128x1935_S1935x300_S128x300_1_0_0_1_n_n.rhsIdx i q 1).val = (i 1).val := by
  unfold DotDims.rhsIdx
  rw [dif_neg (show ¬(1 : Fin S1935x300.rank) ∈ dot_S128x1935_S1935x300_S128x300_1_0_0_1_n_n.rhsBatch by decide), dif_pos (show (1 : Fin S1935x300.rank) ∈ dot_S128x1935_S1935x300_S128x300_1_0_0_1_n_n.rhsNonContracting by decide)]
  rfl

/-- The [128,1935] by [1935,300] matrix product into the zero accumulator, at an entry: the sum over the contracted axis. -/
theorem mm_128_1935_300 (l : FVec Ideal S128x1935 .bf16) (rr : FVec Ideal S1935x300 .bf16) (r : Fin 128) (o : Fin 300) :
    matmul dot_S128x1935_S1935x300_S128x300_1_0_0_1_n_n none l rr (constant (F := Ideal) S128x300 .f32 0x00000000#32) (ix2 r o)
      = ∑ k : Fin 1935, l (ix2 r k) * rr (ix2 k o) := by
  show FloatOps.matmul dot_S128x1935_S1935x300_S128x300_1_0_0_1_n_n none l rr (constant (F := Ideal) S128x300 .f32 0x00000000#32) (ix2 r o) = _
  rw [Ideal.matmul_constant_zero_apply, ← Equiv.sum_comp (ValueIdx.contrEquiv1 dot_S128x1935_S1935x300_S128x300_1_0_0_1_n_n 1935 rfl rfl).symm]
  refine Finset.sum_congr rfl fun k _ => ?_
  have hk := ValueIdx.contrEquiv1_symm_val dot_S128x1935_S1935x300_S128x300_1_0_0_1_n_n 1935 rfl rfl k
  have el : dot_S128x1935_S1935x300_S128x300_1_0_0_1_n_n.lhsIdx (ix2 r o) ((ValueIdx.contrEquiv1 dot_S128x1935_S1935x300_S128x300_1_0_0_1_n_n 1935 rfl rfl).symm k) = ix2 r k := funext fun a => Fin.ext (by
    match a with
    | ⟨0, _⟩ => exact lhs0_128_1935_300 _ _
    | ⟨1, _⟩ => exact (dot_S128x1935_S1935x300_S128x300_1_0_0_1_n_n.lhsIdx_val_of_single rfl _ _).trans hk)
  have er : dot_S128x1935_S1935x300_S128x300_1_0_0_1_n_n.rhsIdx (ix2 r o) ((ValueIdx.contrEquiv1 dot_S128x1935_S1935x300_S128x300_1_0_0_1_n_n 1935 rfl rfl).symm k) = ix2 k o := funext fun a => Fin.ext (by
    match a with
    | ⟨0, _⟩ => exact (dot_S128x1935_S1935x300_S128x300_1_0_0_1_n_n.rhsIdx_val_of_single rfl _ _).trans hk
    | ⟨1, _⟩ => exact rhs1_128_1935_300 _ _)
  rw [el, er]

/-- The left operand's row coordinate is the entry's row, -/
theorem lhs0_128_300_300 (i : S128x300.Idx) (q : dot_S128x300_S300x300_S128x300_1_0_0_1_n_n.contr.Idx) : (dot_S128x300_S300x300_S128x300_1_0_0_1_n_n.lhsIdx i q 0).val = (i 0).val := by
  unfold DotDims.lhsIdx
  rw [dif_neg (show ¬(0 : Fin S128x300.rank) ∈ dot_S128x300_S300x300_S128x300_1_0_0_1_n_n.lhsBatch by decide), dif_pos (show (0 : Fin S128x300.rank) ∈ dot_S128x300_S300x300_S128x300_1_0_0_1_n_n.lhsNonContracting by decide)]
  rfl
/-- and the right operand's column coordinate the entry's column. -/
theorem rhs1_128_300_300 (i : S128x300.Idx) (q : dot_S128x300_S300x300_S128x300_1_0_0_1_n_n.contr.Idx) : (dot_S128x300_S300x300_S128x300_1_0_0_1_n_n.rhsIdx i q 1).val = (i 1).val := by
  unfold DotDims.rhsIdx
  rw [dif_neg (show ¬(1 : Fin S300x300.rank) ∈ dot_S128x300_S300x300_S128x300_1_0_0_1_n_n.rhsBatch by decide), dif_pos (show (1 : Fin S300x300.rank) ∈ dot_S128x300_S300x300_S128x300_1_0_0_1_n_n.rhsNonContracting by decide)]
  rfl

/-- The [128,300] by [300,300] matrix product into the zero accumulator, at an entry: the sum over the contracted axis. -/
theorem mm_128_300_300 (l : FVec Ideal S128x300 .bf16) (rr : FVec Ideal S300x300 .bf16) (r : Fin 128) (o : Fin 300) :
    matmul dot_S128x300_S300x300_S128x300_1_0_0_1_n_n none l rr (constant (F := Ideal) S128x300 .f32 0x00000000#32) (ix2 r o)
      = ∑ k : Fin 300, l (ix2 r k) * rr (ix2 k o) := by
  show FloatOps.matmul dot_S128x300_S300x300_S128x300_1_0_0_1_n_n none l rr (constant (F := Ideal) S128x300 .f32 0x00000000#32) (ix2 r o) = _
  rw [Ideal.matmul_constant_zero_apply, ← Equiv.sum_comp (ValueIdx.contrEquiv1 dot_S128x300_S300x300_S128x300_1_0_0_1_n_n 300 rfl rfl).symm]
  refine Finset.sum_congr rfl fun k _ => ?_
  have hk := ValueIdx.contrEquiv1_symm_val dot_S128x300_S300x300_S128x300_1_0_0_1_n_n 300 rfl rfl k
  have el : dot_S128x300_S300x300_S128x300_1_0_0_1_n_n.lhsIdx (ix2 r o) ((ValueIdx.contrEquiv1 dot_S128x300_S300x300_S128x300_1_0_0_1_n_n 300 rfl rfl).symm k) = ix2 r k := funext fun a => Fin.ext (by
    match a with
    | ⟨0, _⟩ => exact lhs0_128_300_300 _ _
    | ⟨1, _⟩ => exact (dot_S128x300_S300x300_S128x300_1_0_0_1_n_n.lhsIdx_val_of_single rfl _ _).trans hk)
  have er : dot_S128x300_S300x300_S128x300_1_0_0_1_n_n.rhsIdx (ix2 r o) ((ValueIdx.contrEquiv1 dot_S128x300_S300x300_S128x300_1_0_0_1_n_n 300 rfl rfl).symm k) = ix2 k o := funext fun a => Fin.ext (by
    match a with
    | ⟨0, _⟩ => exact (dot_S128x300_S300x300_S128x300_1_0_0_1_n_n.rhsIdx_val_of_single rfl _ _).trans hk
    | ⟨1, _⟩ => exact rhs1_128_300_300 _ _)
  rw [el, er]

/-- The left operand's row coordinate is the entry's row, -/
theorem lhs0_128_5_300 (i : S128x300.Idx) (q : dot_S128x5_S5x300_S128x300_1_0_0_1_n_n.contr.Idx) : (dot_S128x5_S5x300_S128x300_1_0_0_1_n_n.lhsIdx i q 0).val = (i 0).val := by
  unfold DotDims.lhsIdx
  rw [dif_neg (show ¬(0 : Fin S128x5.rank) ∈ dot_S128x5_S5x300_S128x300_1_0_0_1_n_n.lhsBatch by decide), dif_pos (show (0 : Fin S128x5.rank) ∈ dot_S128x5_S5x300_S128x300_1_0_0_1_n_n.lhsNonContracting by decide)]
  rfl
/-- and the right operand's column coordinate the entry's column. -/
theorem rhs1_128_5_300 (i : S128x300.Idx) (q : dot_S128x5_S5x300_S128x300_1_0_0_1_n_n.contr.Idx) : (dot_S128x5_S5x300_S128x300_1_0_0_1_n_n.rhsIdx i q 1).val = (i 1).val := by
  unfold DotDims.rhsIdx
  rw [dif_neg (show ¬(1 : Fin S5x300.rank) ∈ dot_S128x5_S5x300_S128x300_1_0_0_1_n_n.rhsBatch by decide), dif_pos (show (1 : Fin S5x300.rank) ∈ dot_S128x5_S5x300_S128x300_1_0_0_1_n_n.rhsNonContracting by decide)]
  rfl

/-- The [128,5] by [5,300] matrix product into the zero accumulator, at an entry: the sum over the contracted axis. -/
theorem mm_128_5_300 (l : FVec Ideal S128x5 .bf16) (rr : FVec Ideal S5x300 .bf16) (r : Fin 128) (o : Fin 300) :
    matmul dot_S128x5_S5x300_S128x300_1_0_0_1_n_n none l rr (constant (F := Ideal) S128x300 .f32 0x00000000#32) (ix2 r o)
      = ∑ k : Fin 5, l (ix2 r k) * rr (ix2 k o) := by
  show FloatOps.matmul dot_S128x5_S5x300_S128x300_1_0_0_1_n_n none l rr (constant (F := Ideal) S128x300 .f32 0x00000000#32) (ix2 r o) = _
  rw [Ideal.matmul_constant_zero_apply, ← Equiv.sum_comp (ValueIdx.contrEquiv1 dot_S128x5_S5x300_S128x300_1_0_0_1_n_n 5 rfl rfl).symm]
  refine Finset.sum_congr rfl fun k _ => ?_
  have hk := ValueIdx.contrEquiv1_symm_val dot_S128x5_S5x300_S128x300_1_0_0_1_n_n 5 rfl rfl k
  have el : dot_S128x5_S5x300_S128x300_1_0_0_1_n_n.lhsIdx (ix2 r o) ((ValueIdx.contrEquiv1 dot_S128x5_S5x300_S128x300_1_0_0_1_n_n 5 rfl rfl).symm k) = ix2 r k := funext fun a => Fin.ext (by
    match a with
    | ⟨0, _⟩ => exact lhs0_128_5_300 _ _
    | ⟨1, _⟩ => exact (dot_S128x5_S5x300_S128x300_1_0_0_1_n_n.lhsIdx_val_of_single rfl _ _).trans hk)
  have er : dot_S128x5_S5x300_S128x300_1_0_0_1_n_n.rhsIdx (ix2 r o) ((ValueIdx.contrEquiv1 dot_S128x5_S5x300_S128x300_1_0_0_1_n_n 5 rfl rfl).symm k) = ix2 k o := funext fun a => Fin.ext (by
    match a with
    | ⟨0, _⟩ => exact (dot_S128x5_S5x300_S128x300_1_0_0_1_n_n.rhsIdx_val_of_single rfl _ _).trans hk
    | ⟨1, _⟩ => exact rhs1_128_5_300 _ _)
  rw [el, er]

/-! ## The payloads and the output buffers at an entry -/

/-- The first output's payload at an entry: the gated feature row through the two matrix products, plus the bias,
    times the scale. A narrowing format change is the identity on extended reals. -/
theorem k0_pay3_apply (v0 : FVec Ideal S1x1935 .f32) (v3 : FVec Ideal S128x1935 .f32) (v7 : FVec Ideal S1935x300 .bf16) (v11 : FVec Ideal S300x300 .bf16)
    (v19 : FVec Ideal S1x1 .f32) (v21 : FVec Ideal S1x300 .f32) (r : Fin 128) (o : Fin 300) :
    k0_pay3 (F := Ideal) v0 v3 v7 v11 v19 v21 (ix2 r o)
      = v19 (ix2 0 0) * ((∑ d : Fin 300, (∑ k : Fin 1935, (v3 (ix2 r k) * Ideal.logistic (v0 (ix2 0 k))) * v7 (ix2 k d)) * v11 (ix2 d o)) + v21 (ix2 0 o)) := by
  unfold k0_pay3
  simp only [shapeCast_self]
  rw [mulf_apply, addf_apply, bc_1x1_128x300, bc_1x300_128x300, mm_128_300_300]
  refine congrArg (fun z => v19 (ix2 0 0) * (z + v21 (ix2 0 o))) (Finset.sum_congr rfl fun d _ => ?_)
  rw [truncf_apply, mm_128_1935_300]
  refine congrArg (· * v11 (ix2 d o)) (Finset.sum_congr rfl fun k _ => ?_)
  rw [truncf_apply, mulf_apply, bc_1x1935_128x1935]
  rfl

/-- The second output's payload at an entry: the box row through its matrix product, plus the bias, times the scale. -/
theorem k0_pay1_apply (v14 : FVec Ideal S128x5 .f32) (v16 : FVec Ideal S5x300 .bf16) (v28 : FVec Ideal S1x1 .f32) (v30 : FVec Ideal S1x300 .f32)
    (r : Fin 128) (o : Fin 300) :
    k0_pay1 (F := Ideal) (k0_pay2 v14 v16) (k0_pay4 v28) (k0_pay5 v30) (ix2 r o)
      = v28 (ix2 0 0) * ((∑ j : Fin 5, v14 (ix2 r j) * v16 (ix2 j o)) + v30 (ix2 0 o)) := by
  unfold k0_pay1 k0_pay2 k0_pay4 k0_pay5
  simp only [shapeCast_self]
  rw [mulf_apply, addf_apply, bc_1x1_128x300, bc_1x300_128x300, mm_128_5_300]
  refine congrArg (fun z => v28 (ix2 0 0) * (z + v30 (ix2 0 o))) (Finset.sum_congr rfl fun j _ => ?_)
  rw [truncf_apply]

/-- Window 10's staging buffer after the body, at an entry. -/
theorem out0_10_apply (x0 : Vec Ideal S128x1935 .f32) (x1 : Vec Ideal S1x1935 .f32) (x3 : Vec Ideal S1935x300 .bf16) (x4 : Vec Ideal S300x300 .bf16)
    (x6 : Vec Ideal S1x1 .f32) (x8 : Vec Ideal S1x300 .f32) (r : Fin 128) (o : Fin 300) :
    out0_10 (F := Ideal) x0 x1 x3 x4 x6 x8 (ix2 r o)
      = x6 (ix2 0 0) * ((∑ d : Fin 300, (∑ k : Fin 1935, (x0 (ix2 r k) * Ideal.logistic (x1 (ix2 0 k))) * x3 (ix2 k d)) * x4 (ix2 d o)) + x8 (ix2 0 o)) := by
  unfold out0_10
  rw [View.canon_unit_zero hz00]
  simp only [View.ld_unit_zero (S := S128x1935) hz00, View.ld_unit_zero (S := S1x1935) hz00, View.ld_unit_zero (S := S1935x300) hz00,
    View.ld_unit_zero (S := S300x300) hz00, View.ld_unit_zero (S := S1x1) hz00, View.ld_unit_zero (S := S1x300) hz00]
  exact k0_pay3_apply x1 x0 x3 x4 x6 x8 r o

/-- Window 11's staging buffer after the body, at an entry. -/
theorem out0_11_apply (x2 : Vec Ideal S128x5 .f32) (x5 : Vec Ideal S5x300 .bf16) (x7 : Vec Ideal S1x1 .f32) (x9 : Vec Ideal S1x300 .f32)
    (r : Fin 128) (o : Fin 300) :
    out0_11 (F := Ideal) x2 x5 x7 x9 (ix2 r o)
      = x7 (ix2 0 0) * ((∑ j : Fin 5, x2 (ix2 r j) * x5 (ix2 j o)) + x9 (ix2 0 o)) := by
  unfold out0_11
  rw [View.canon_unit_zero hz00]
  simp only [View.ld_unit_zero (S := S128x5) hz00, View.ld_unit_zero (S := S5x300) hz00, View.ld_unit_zero (S := S1x1) hz00, View.ld_unit_zero (S := S1x300) hz00]
  exact k0_pay1_apply x2 x5 x7 x9 r o

/-- The first output's payload at an entry: the gated feature row through the two matrix products, plus the bias,
    times the scale. A narrowing format change is the identity on extended reals. -/
theorem k1_pay3_apply (v0 : FVec Ideal S1x1935 .f32) (v3 : FVec Ideal S128x1935 .f32) (v7 : FVec Ideal S1935x300 .bf16) (v11 : FVec Ideal S300x300 .bf16)
    (v19 : FVec Ideal S1x1 .f32) (v21 : FVec Ideal S1x300 .f32) (r : Fin 128) (o : Fin 300) :
    k1_pay3 (F := Ideal) v0 v3 v7 v11 v19 v21 (ix2 r o)
      = v19 (ix2 0 0) * ((∑ d : Fin 300, (∑ k : Fin 1935, (v3 (ix2 r k) * Ideal.logistic (v0 (ix2 0 k))) * v7 (ix2 k d)) * v11 (ix2 d o)) + v21 (ix2 0 o)) := by
  unfold k1_pay3
  simp only [shapeCast_self]
  rw [mulf_apply, addf_apply, bc_1x1_128x300, bc_1x300_128x300, mm_128_300_300]
  refine congrArg (fun z => v19 (ix2 0 0) * (z + v21 (ix2 0 o))) (Finset.sum_congr rfl fun d _ => ?_)
  rw [truncf_apply, mm_128_1935_300]
  refine congrArg (· * v11 (ix2 d o)) (Finset.sum_congr rfl fun k _ => ?_)
  rw [truncf_apply, mulf_apply, bc_1x1935_128x1935]
  rfl

/-- The second output's payload at an entry: the box row through its matrix product, plus the bias, times the scale. -/
theorem k1_pay1_apply (v14 : FVec Ideal S128x5 .f32) (v16 : FVec Ideal S5x300 .bf16) (v28 : FVec Ideal S1x1 .f32) (v30 : FVec Ideal S1x300 .f32)
    (r : Fin 128) (o : Fin 300) :
    k1_pay1 (F := Ideal) (k1_pay2 v14 v16) (k1_pay4 v28) (k1_pay5 v30) (ix2 r o)
      = v28 (ix2 0 0) * ((∑ j : Fin 5, v14 (ix2 r j) * v16 (ix2 j o)) + v30 (ix2 0 o)) := by
  unfold k1_pay1 k1_pay2 k1_pay4 k1_pay5
  simp only [shapeCast_self]
  rw [mulf_apply, addf_apply, bc_1x1_128x300, bc_1x300_128x300, mm_128_5_300]
  refine congrArg (fun z => v28 (ix2 0 0) * (z + v30 (ix2 0 o))) (Finset.sum_congr rfl fun j _ => ?_)
  rw [truncf_apply]

/-- Window 10's staging buffer after the body, at an entry. -/
theorem out1_10_apply (x0 : Vec Ideal S128x1935 .f32) (x1 : Vec Ideal S1x1935 .f32) (x3 : Vec Ideal S1935x300 .bf16) (x4 : Vec Ideal S300x300 .bf16)
    (x6 : Vec Ideal S1x1 .f32) (x8 : Vec Ideal S1x300 .f32) (r : Fin 128) (o : Fin 300) :
    out1_10 (F := Ideal) x0 x1 x3 x4 x6 x8 (ix2 r o)
      = x6 (ix2 0 0) * ((∑ d : Fin 300, (∑ k : Fin 1935, (x0 (ix2 r k) * Ideal.logistic (x1 (ix2 0 k))) * x3 (ix2 k d)) * x4 (ix2 d o)) + x8 (ix2 0 o)) := by
  unfold out1_10
  rw [View.canon_unit_zero hz00]
  simp only [View.ld_unit_zero (S := S128x1935) hz00, View.ld_unit_zero (S := S1x1935) hz00, View.ld_unit_zero (S := S1935x300) hz00,
    View.ld_unit_zero (S := S300x300) hz00, View.ld_unit_zero (S := S1x1) hz00, View.ld_unit_zero (S := S1x300) hz00]
  exact k1_pay3_apply x1 x0 x3 x4 x6 x8 r o

/-- Window 11's staging buffer after the body, at an entry. -/
theorem out1_11_apply (x2 : Vec Ideal S128x5 .f32) (x5 : Vec Ideal S5x300 .bf16) (x7 : Vec Ideal S1x1 .f32) (x9 : Vec Ideal S1x300 .f32)
    (r : Fin 128) (o : Fin 300) :
    out1_11 (F := Ideal) x2 x5 x7 x9 (ix2 r o)
      = x7 (ix2 0 0) * ((∑ j : Fin 5, x2 (ix2 r j) * x5 (ix2 j o)) + x9 (ix2 0 o)) := by
  unfold out1_11
  rw [View.canon_unit_zero hz00]
  simp only [View.ld_unit_zero (S := S128x5) hz00, View.ld_unit_zero (S := S5x300) hz00, View.ld_unit_zero (S := S1x1) hz00, View.ld_unit_zero (S := S1x300) hz00]
  exact k1_pay1_apply x2 x5 x7 x9 r o

end Cert.KernelIdeal.Hand

end
-- ==== Proof.KI.ProjArr.lean ====
/- From blocks to the array, for the two calls of the projection kernel at the ideal values: each output array after
   the region, at an entry, as sums over the contracted axes of the arrays the region finds. -/
import proofs.«179407_j89060441850130_2_alg».proof.Proof.KI.ProjValue

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The first output at an entry, from whole arrays: the gated feature row through the two matrix products, plus the
    bias, times the scale. -/
def P10 (a0 : S384x1935.Idx → EReal) (a1 : S1x1935.Idx → EReal) (a3 : S1935x300.Idx → EReal) (a4 : S300x300.Idx → EReal)
    (a6 : S1x1.Idx → EReal) (a8 : S1x300.Idx → EReal) (n : Fin 384) (o : Fin 300) : EReal :=
  a6 (ix2 0 0) * ((∑ d : Fin 300, (∑ kk : Fin 1935, (a0 (ix2 n kk) * Ideal.logistic (a1 (ix2 0 kk))) * a3 (ix2 kk d)) * a4 (ix2 d o)) + a8 (ix2 0 o))

theorem P10_def (a0 : S384x1935.Idx → EReal) (a1 : S1x1935.Idx → EReal) (a3 : S1935x300.Idx → EReal) (a4 : S300x300.Idx → EReal)
    (a6 : S1x1.Idx → EReal) (a8 : S1x300.Idx → EReal) (n : Fin 384) (o : Fin 300) :
    P10 a0 a1 a3 a4 a6 a8 n o = a6 (ix2 0 0) * ((∑ d : Fin 300, (∑ kk : Fin 1935, (a0 (ix2 n kk) * Ideal.logistic (a1 (ix2 0 kk))) * a3 (ix2 kk d)) * a4 (ix2 d o)) + a8 (ix2 0 o)) := rfl

/-- The second output at an entry: the box row through its matrix product, plus the bias, times the scale. -/
def P11 (a2 : S384x5.Idx → EReal) (a5 : S5x300.Idx → EReal) (a7 : S1x1.Idx → EReal) (a9 : S1x300.Idx → EReal) (n : Fin 384) (o : Fin 300) : EReal :=
  a7 (ix2 0 0) * ((∑ j : Fin 5, a2 (ix2 n j) * a5 (ix2 j o)) + a9 (ix2 0 o))

theorem P11_def (a2 : S384x5.Idx → EReal) (a5 : S5x300.Idx → EReal) (a7 : S1x1.Idx → EReal) (a9 : S1x300.Idx → EReal) (n : Fin 384) (o : Fin 300) :
    P11 a2 a5 a7 a9 n o = a7 (ix2 0 0) * ((∑ j : Fin 5, a2 (ix2 n j) * a5 (ix2 j o)) + a9 (ix2 0 o)) := rfl

/-! # pallas_call 0 -/

/-- Every block row of the outputs is some point's (decided over the grid), and window 11 moves with window 10. -/
theorem idx_onto0_10 : ∀ q0 : Fin 3, ∃ t : Fin cfg0.N, win0_10.index t = ![q0.val, 0] :=
  (by decide +kernel : ∀ q0 : Fin 3, ∃ t : Fin grid0.N, win0_10.index t = ![q0.val, 0])
theorem idx_onto0_11 : ∀ q0 : Fin 3, ∃ t : Fin cfg0.N, win0_11.index t = ![q0.val, 0] :=
  (by decide +kernel : ∀ q0 : Fin 3, ∃ t : Fin grid0.N, win0_11.index t = ![q0.val, 0])
theorem idx0_11_10 : ∀ t : Fin cfg0.N, win0_11.index t (0 : Fin 2) = win0_10.index t (0 : Fin 2) ∧ win0_10.index t (1 : Fin 2) = 0 ∧ win0_11.index t (1 : Fin 2) = 0 :=
  (by decide +kernel : ∀ t : Fin grid0.N, win0_11.index t (0 : Fin 2) = win0_10.index t (0 : Fin 2) ∧ win0_10.index t (1 : Fin 2) = 0 ∧ win0_11.index t (1 : Fin 2) = 0)

/-- Window 1 is resident: its block is its whole array at every point. -/
theorem iblk0_1_eq (c : Dev nD) (t : Fin cfg0.N) : iblk0 (F := Ideal) V c 1 t = V c (Pipeline.arrRef spec0 1) := by
  obtain ⟨e0, e1⟩ : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 1935 + 1 * (y 1).val = (y 1).val; omega

/-- Window 3 is resident: its block is its whole array at every point. -/
theorem iblk0_3_eq (c : Dev nD) (t : Fin cfg0.N) : iblk0 (F := Ideal) V c 3 t = V c (Pipeline.arrRef spec0 3) := by
  obtain ⟨e0, e1⟩ : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1935 + 1 * (y 0).val = (y 0).val; omega
  | ⟨1, _⟩ => show win0_3.index t (1 : Fin 2) * 300 + 1 * (y 1).val = (y 1).val; omega

/-- Window 4 is resident: its block is its whole array at every point. -/
theorem iblk0_4_eq (c : Dev nD) (t : Fin cfg0.N) : iblk0 (F := Ideal) V c 4 t = V c (Pipeline.arrRef spec0 4) := by
  obtain ⟨e0, e1⟩ : win0_4.index t (0 : Fin 2) = 0 ∧ win0_4.index t (1 : Fin 2) = 0 :=
    (by decide +kernel : ∀ t : Fin grid0.N, win0_4.index t (0 : Fin 2) = 0 ∧ win0_4.index t (1 : Fin 2) = 0) t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 300 + 1 * (y 0).val = (y 0).val; omega
  | ⟨1, _⟩ => show win0_4.index t (1 : Fin 2) * 300 + 1 * (y 1).val = (y 1).val; omega

/-- Window 5 is resident: its block is its whole array at every point. -/
theorem iblk0_5_eq (c : Dev nD) (t : Fin cfg0.N) : iblk0 (F := Ideal) V c 5 t = V c (Pipeline.arrRef spec0 5) := by
  obtain ⟨e0, e1⟩ : win0_5.index t (0 : Fin 2) = 0 ∧ win0_5.index t (1 : Fin 2) = 0 :=
    (by decide +kernel : ∀ t : Fin grid0.N, win0_5.index t (0 : Fin 2) = 0 ∧ win0_5.index t (1 : Fin 2) = 0) t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 5 + 1 * (y 0).val = (y 0).val; omega
  | ⟨1, _⟩ => show win0_5.index t (1 : Fin 2) * 300 + 1 * (y 1).val = (y 1).val; omega

/-- Window 6 is resident: its block is its whole array at every point. -/
theorem iblk0_6_eq (c : Dev nD) (t : Fin cfg0.N) : iblk0 (F := Ideal) V c 6 t = V c (Pipeline.arrRef spec0 6) := by
  obtain ⟨e0, e1⟩ : win0_6.index t (0 : Fin 2) = 0 ∧ win0_6.index t (1 : Fin 2) = 0 :=
    (by decide +kernel : ∀ t : Fin grid0.N, win0_6.index t (0 : Fin 2) = 0 ∧ win0_6.index t (1 : Fin 2) = 0) t
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1 + 1 * (y 1).val = (y 1).val; omega

/-- Window 7 is resident: its block is its whole array at every point. -/
theorem iblk0_7_eq (c : Dev nD) (t : Fin cfg0.N) : iblk0 (F := Ideal) V c 7 t = V c (Pipeline.arrRef spec0 7) := by
  obtain ⟨e0, e1⟩ : win0_7.index t (0 : Fin 2) = 0 ∧ win0_7.index t (1 : Fin 2) = 0 :=
    (by decide +kernel : ∀ t : Fin grid0.N, win0_7.index t (0 : Fin 2) = 0 ∧ win0_7.index t (1 : Fin 2) = 0) t
  funext y
  show V c (Pipeline.arrRef spec0 7) (((cfg0.win 7).blk t).view.emb y) = V c (Pipeline.arrRef spec0 7) y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1 + 1 * (y 1).val = (y 1).val; omega

/-- Window 8 is resident: its block is its whole array at every point. -/
theorem iblk0_8_eq (c : Dev nD) (t : Fin cfg0.N) : iblk0 (F := Ideal) V c 8 t = V c (Pipeline.arrRef spec0 8) := by
  obtain ⟨e0, e1⟩ : win0_8.index t (0 : Fin 2) = 0 ∧ win0_8.index t (1 : Fin 2) = 0 :=
    (by decide +kernel : ∀ t : Fin grid0.N, win0_8.index t (0 : Fin 2) = 0 ∧ win0_8.index t (1 : Fin 2) = 0) t
  funext y
  show V c (Pipeline.arrRef spec0 8) (((cfg0.win 8).blk t).view.emb y) = V c (Pipeline.arrRef spec0 8) y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 300 + 1 * (y 1).val = (y 1).val; omega

/-- Window 9 is resident: its block is its whole array at every point. -/
theorem iblk0_9_eq (c : Dev nD) (t : Fin cfg0.N) : iblk0 (F := Ideal) V c 9 t = V c (Pipeline.arrRef spec0 9) := by
  obtain ⟨e0, e1⟩ : win0_9.index t (0 : Fin 2) = 0 ∧ win0_9.index t (1 : Fin 2) = 0 :=
    (by decide +kernel : ∀ t : Fin grid0.N, win0_9.index t (0 : Fin 2) = 0 ∧ win0_9.index t (1 : Fin 2) = 0) t
  funext y
  show V c (Pipeline.arrRef spec0 9) (((cfg0.win 9).blk t).view.emb y) = V c (Pipeline.arrRef spec0 9) y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 300 + 1 * (y 1).val = (y 1).val; omega

/-- Window 0's block at a point is the rows of its array that the output's block at the point covers. -/
theorem iblk0_0_apply (c : Dev nD) (t : Fin cfg0.N) (r : Fin 128) (q : Fin 1935) (n : Fin 384) (hn : n.val = win0_10.index t (0 : Fin 2) * 128 + r.val) :
    iblk0 (F := Ideal) V c 0 t (ix2 r q) = V c (Pipeline.arrRef spec0 0) (ix2 n q) := by
  obtain ⟨e0, e1⟩ : win0_0.index t (0 : Fin 2) = win0_10.index t (0 : Fin 2) ∧ win0_0.index t (1 : Fin 2) = 0 :=
    (by decide +kernel : ∀ t : Fin grid0.N, win0_0.index t (0 : Fin 2) = win0_10.index t (0 : Fin 2) ∧ win0_0.index t (1 : Fin 2) = 0) t
  show V c (Pipeline.arrRef spec0 0) (((cfg0.win 0).blk t).view.emb (ix2 r q)) = V c (Pipeline.arrRef spec0 0) (ix2 n q)
  refine congrArg _ (funext fun a => Fin.ext ?_)
  match a with
  | ⟨0, _⟩ => show win0_0.index t (0 : Fin 2) * 128 + 1 * r.val = n.val; omega
  | ⟨1, _⟩ => show win0_0.index t (1 : Fin 2) * 1935 + 1 * q.val = q.val; omega

/-- Window 2's block at a point is the rows of its array that the output's block at the point covers. -/
theorem iblk0_2_apply (c : Dev nD) (t : Fin cfg0.N) (r : Fin 128) (q : Fin 5) (n : Fin 384) (hn : n.val = win0_10.index t (0 : Fin 2) * 128 + r.val) :
    iblk0 (F := Ideal) V c 2 t (ix2 r q) = V c (Pipeline.arrRef spec0 2) (ix2 n q) := by
  obtain ⟨e0, e1⟩ : win0_2.index t (0 : Fin 2) = win0_10.index t (0 : Fin 2) ∧ win0_2.index t (1 : Fin 2) = 0 :=
    (by decide +kernel : ∀ t : Fin grid0.N, win0_2.index t (0 : Fin 2) = win0_10.index t (0 : Fin 2) ∧ win0_2.index t (1 : Fin 2) = 0) t
  show V c (Pipeline.arrRef spec0 2) (((cfg0.win 2).blk t).view.emb (ix2 r q)) = V c (Pipeline.arrRef spec0 2) (ix2 n q)
  refine congrArg _ (funext fun a => Fin.ext ?_)
  match a with
  | ⟨0, _⟩ => show win0_2.index t (0 : Fin 2) * 128 + 1 * r.val = n.val; omega
  | ⟨1, _⟩ => show win0_2.index t (1 : Fin 2) * 5 + 1 * q.val = q.val; omega

/-- What output window 10's array ends holding, as one function of the arrays the region finds. -/
def G0_10 (c : Dev nD) : S384x300.Idx → Elt Ideal .f32 := fun i =>
  P10 (V c (Pipeline.arrRef spec0 0)) (V c (Pipeline.arrRef spec0 1)) (V c (Pipeline.arrRef spec0 3)) (V c (Pipeline.arrRef spec0 4)) (V c (Pipeline.arrRef spec0 6)) (V c (Pipeline.arrRef spec0 8)) ⟨(i 0).val, idx2_lt0 i⟩ ⟨(i 1).val, idx2_lt1 i⟩

/-- What output window 11's array ends holding. -/
def G0_11 (c : Dev nD) : S384x300.Idx → Elt Ideal .f32 := fun i =>
  P11 (V c (Pipeline.arrRef spec0 2)) (V c (Pipeline.arrRef spec0 5)) (V c (Pipeline.arrRef spec0 7)) (V c (Pipeline.arrRef spec0 9)) ⟨(i 0).val, idx2_lt0 i⟩ ⟨(i 1).val, idx2_lt1 i⟩

/-- What point `t` writes back to window 10's array is block `t` of that function. -/
theorem flushed0_10_eq (c : Dev nD) (t : Fin cfg0.N) :
    (dat0 (F := Ideal) V c).flushed 10 t = ((cfg0.win 10).blk t).view.read (Elt Ideal) (G0_10 V c) := by
  show (cfg0.win 10).cut (grid0.coords t) ((dat0 V c).after 10 t) = _
  rw [after0_10]
  obtain ⟨-, e1, -⟩ := idx0_11_10 t
  funext j
  obtain ⟨r, o, rfl⟩ : ∃ (r : Fin 128) (o : Fin 300), j = ix2 r o := ⟨j 0, j 1, eq_ix2 j⟩
  show out0_10 _ _ _ _ _ _ (ix2 r o) = G0_10 V c (((cfg0.win 10).blk t).view.emb (ix2 r o))
  rw [out0_10_apply, iblk0_1_eq, iblk0_3_eq, iblk0_4_eq, iblk0_6_eq, iblk0_8_eq]
  unfold G0_10 P10
  have hr : (((cfg0.win 10).blk t).view.emb (ix2 r o) 0).val = win0_10.index t (0 : Fin 2) * 128 + r.val := by
    show win0_10.index t (0 : Fin 2) * 128 + 1 * r.val = _; omega
  have ho : (⟨(((cfg0.win 10).blk t).view.emb (ix2 r o) 1).val, idx2_lt1 _⟩ : Fin 300) = o := Fin.ext (by
    show win0_10.index t (1 : Fin 2) * 300 + 1 * o.val = o.val; omega)
  rw [ho]
  simp only [iblk0_0_apply V c t r _ ⟨(((cfg0.win 10).blk t).view.emb (ix2 r o) 0).val, idx2_lt0 _⟩ hr]

/-- What point `t` writes back to window 11's array is block `t` of that function. -/
theorem flushed0_11_eq (c : Dev nD) (t : Fin cfg0.N) :
    (dat0 (F := Ideal) V c).flushed 11 t = ((cfg0.win 11).blk t).view.read (Elt Ideal) (G0_11 V c) := by
  show (cfg0.win 11).cut (grid0.coords t) ((dat0 V c).after 11 t) = _
  rw [after0_11]
  obtain ⟨e0, -, e1⟩ := idx0_11_10 t
  funext j
  obtain ⟨r, o, rfl⟩ : ∃ (r : Fin 128) (o : Fin 300), j = ix2 r o := ⟨j 0, j 1, eq_ix2 j⟩
  show out0_11 _ _ _ _ (ix2 r o) = G0_11 V c (((cfg0.win 11).blk t).view.emb (ix2 r o))
  rw [out0_11_apply, iblk0_5_eq, iblk0_7_eq, iblk0_9_eq]
  unfold G0_11 P11
  have hr : (((cfg0.win 11).blk t).view.emb (ix2 r o) 0).val = win0_10.index t (0 : Fin 2) * 128 + r.val := by
    show win0_11.index t (0 : Fin 2) * 128 + 1 * r.val = _; omega
  have ho : (⟨(((cfg0.win 11).blk t).view.emb (ix2 r o) 1).val, idx2_lt1 _⟩ : Fin 300) = o := Fin.ext (by
    show win0_11.index t (1 : Fin 2) * 300 + 1 * o.val = o.val; omega)
  rw [ho]
  simp only [iblk0_2_apply V c t r _ ⟨(((cfg0.win 11).blk t).view.emb (ix2 r o) 0).val, idx2_lt0 _⟩ hr]

/-- An index of the array is in point `t`'s block of output window 10 iff each coordinate is in the block's range. -/
theorem mem_blk0_10 (t : Fin cfg0.N) (i : S384x300.Idx) :
    i ∈ ((cfg0.win 10).blk t).view.set ↔ ∀ a : Fin 2, win0_10.index t a * S128x300.size a ≤ (i a).val ∧ (i a).val < win0_10.index t a * S128x300.size a + S128x300.size a := by
  show i ∈ ((View.whole main_v38_0).slice (win0_10.rect t)).set ↔ _
  rw [View.set_slice_whole, Rect.mem_set_unit]
  exact Iff.rfl

/-- Output window 10's blocks tile its array: row `n` is in the block of the point with block index `n / 128`. -/
theorem cover0_arr_10 (i : S384x300.Idx) : ∃ t : Fin cfg0.N, (cfg0.win 10).flush t = true ∧ i ∈ ((cfg0.win 10).blk t).view.set := by
  have hi0 : (i 0).val < 384 := idx2_lt0 i
  have hi1 : (i 1).val < 300 := idx2_lt1 i
  obtain ⟨t, ht⟩ := idx_onto0_10 ⟨(i 0).val / 128, by omega⟩
  have q0 : win0_10.index t (0 : Fin 2) = (i 0).val / 128 := congrFun ht 0
  have q1 : win0_10.index t (1 : Fin 2) = 0 := congrFun ht 1
  refine ⟨t, flush0_10 t, ?_⟩
  rw [mem_blk0_10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 300 ≤ (i 1).val ∧ (i 1).val < win0_10.index t (1 : Fin 2) * 300 + 300; omega

/-- An index of the array is in point `t`'s block of output window 11 iff each coordinate is in the block's range. -/
theorem mem_blk0_11 (t : Fin cfg0.N) (i : S384x300.Idx) :
    i ∈ ((cfg0.win 11).blk t).view.set ↔ ∀ a : Fin 2, win0_11.index t a * S128x300.size a ≤ (i a).val ∧ (i a).val < win0_11.index t a * S128x300.size a + S128x300.size a := by
  show i ∈ ((View.whole main_v38_1).slice (win0_11.rect t)).set ↔ _
  rw [View.set_slice_whole, Rect.mem_set_unit]
  exact Iff.rfl

/-- Output window 11's blocks tile its array: row `n` is in the block of the point with block index `n / 128`. -/
theorem cover0_arr_11 (i : S384x300.Idx) : ∃ t : Fin cfg0.N, (cfg0.win 11).flush t = true ∧ i ∈ ((cfg0.win 11).blk t).view.set := by
  have hi0 : (i 0).val < 384 := idx2_lt0 i
  have hi1 : (i 1).val < 300 := idx2_lt1 i
  obtain ⟨t, ht⟩ := idx_onto0_11 ⟨(i 0).val / 128, by omega⟩
  have q0 : win0_11.index t (0 : Fin 2) = (i 0).val / 128 := congrFun ht 0
  have q1 : win0_11.index t (1 : Fin 2) = 0 := congrFun ht 1
  refine ⟨t, flush0_11 t, ?_⟩
  rw [mem_blk0_11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 300 ≤ (i 1).val ∧ (i 1).val < win0_11.index t (1 : Fin 2) * 300 + 300; omega

/-- Output window 10's array after the region, at an entry. -/
theorem arr0_10 (c : Dev nD) (n : Fin 384) (o : Fin 300) : (dat0 (F := Ideal) V c).arrAt 10 cfg0.N (ix2 n o)
    = P10 (V c (Pipeline.arrRef spec0 0)) (V c (Pipeline.arrRef spec0 1)) (V c (Pipeline.arrRef spec0 3)) (V c (Pipeline.arrRef spec0 4)) (V c (Pipeline.arrRef spec0 6)) (V c (Pipeline.arrRef spec0 8)) n o :=
  congrFun ((dat0 (F := Ideal) V c).arrAt_eq_of_cover 10 (G0_10 V c) (fun t _ => flushed0_10_eq V c t) cover0_arr_10) (ix2 n o)

/-- Output window 11's array after the region, at an entry. -/
theorem arr0_11 (c : Dev nD) (n : Fin 384) (o : Fin 300) : (dat0 (F := Ideal) V c).arrAt 11 cfg0.N (ix2 n o)
    = P11 (V c (Pipeline.arrRef spec0 2)) (V c (Pipeline.arrRef spec0 5)) (V c (Pipeline.arrRef spec0 7)) (V c (Pipeline.arrRef spec0 9)) n o :=
  congrFun ((dat0 (F := Ideal) V c).arrAt_eq_of_cover 11 (G0_11 V c) (fun t _ => flushed0_11_eq V c t) cover0_arr_11) (ix2 n o)

/-! # pallas_call 1 -/

/-- Every block row of the outputs is some point's (decided over the grid), and window 11 moves with window 10. -/
theorem idx_onto1_10 : ∀ q0 : Fin 3, ∃ t : Fin cfg1.N, win1_10.index t = ![q0.val, 0] :=
  (by decide +kernel : ∀ q0 : Fin 3, ∃ t : Fin grid1.N, win1_10.index t = ![q0.val, 0])
theorem idx_onto1_11 : ∀ q0 : Fin 3, ∃ t : Fin cfg1.N, win1_11.index t = ![q0.val, 0] :=
  (by decide +kernel : ∀ q0 : Fin 3, ∃ t : Fin grid1.N, win1_11.index t = ![q0.val, 0])
theorem idx1_11_10 : ∀ t : Fin cfg1.N, win1_11.index t (0 : Fin 2) = win1_10.index t (0 : Fin 2) ∧ win1_10.index t (1 : Fin 2) = 0 ∧ win1_11.index t (1 : Fin 2) = 0 :=
  (by decide +kernel : ∀ t : Fin grid1.N, win1_11.index t (0 : Fin 2) = win1_10.index t (0 : Fin 2) ∧ win1_10.index t (1 : Fin 2) = 0 ∧ win1_11.index t (1 : Fin 2) = 0)

/-- Window 1 is resident: its block is its whole array at every point. -/
theorem iblk1_1_eq (c : Dev nD) (t : Fin cfg1.N) : iblk1 (F := Ideal) V c 1 t = V c (Pipeline.arrRef spec1 1) := by
  obtain ⟨e0, e1⟩ : win1_1.index t (0 : Fin 2) = 0 ∧ win1_1.index t (1 : Fin 2) = 0 :=
    (by decide +kernel : ∀ t : Fin grid1.N, win1_1.index t (0 : Fin 2) = 0 ∧ win1_1.index t (1 : Fin 2) = 0) t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 1935 + 1 * (y 1).val = (y 1).val; omega

/-- Window 3 is resident: its block is its whole array at every point. -/
theorem iblk1_3_eq (c : Dev nD) (t : Fin cfg1.N) : iblk1 (F := Ideal) V c 3 t = V c (Pipeline.arrRef spec1 3) := by
  obtain ⟨e0, e1⟩ : win1_3.index t (0 : Fin 2) = 0 ∧ win1_3.index t (1 : Fin 2) = 0 :=
    (by decide +kernel : ∀ t : Fin grid1.N, win1_3.index t (0 : Fin 2) = 0 ∧ win1_3.index t (1 : Fin 2) = 0) t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1935 + 1 * (y 0).val = (y 0).val; omega
  | ⟨1, _⟩ => show win1_3.index t (1 : Fin 2) * 300 + 1 * (y 1).val = (y 1).val; omega

/-- Window 4 is resident: its block is its whole array at every point. -/
theorem iblk1_4_eq (c : Dev nD) (t : Fin cfg1.N) : iblk1 (F := Ideal) V c 4 t = V c (Pipeline.arrRef spec1 4) := by
  obtain ⟨e0, e1⟩ : win1_4.index t (0 : Fin 2) = 0 ∧ win1_4.index t (1 : Fin 2) = 0 :=
    (by decide +kernel : ∀ t : Fin grid1.N, win1_4.index t (0 : Fin 2) = 0 ∧ win1_4.index t (1 : Fin 2) = 0) t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 300 + 1 * (y 0).val = (y 0).val; omega
  | ⟨1, _⟩ => show win1_4.index t (1 : Fin 2) * 300 + 1 * (y 1).val = (y 1).val; omega

/-- Window 5 is resident: its block is its whole array at every point. -/
theorem iblk1_5_eq (c : Dev nD) (t : Fin cfg1.N) : iblk1 (F := Ideal) V c 5 t = V c (Pipeline.arrRef spec1 5) := by
  obtain ⟨e0, e1⟩ : win1_5.index t (0 : Fin 2) = 0 ∧ win1_5.index t (1 : Fin 2) = 0 :=
    (by decide +kernel : ∀ t : Fin grid1.N, win1_5.index t (0 : Fin 2) = 0 ∧ win1_5.index t (1 : Fin 2) = 0) t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 5 + 1 * (y 0).val = (y 0).val; omega
  | ⟨1, _⟩ => show win1_5.index t (1 : Fin 2) * 300 + 1 * (y 1).val = (y 1).val; omega

/-- Window 6 is resident: its block is its whole array at every point. -/
theorem iblk1_6_eq (c : Dev nD) (t : Fin cfg1.N) : iblk1 (F := Ideal) V c 6 t = V c (Pipeline.arrRef spec1 6) := by
  obtain ⟨e0, e1⟩ : win1_6.index t (0 : Fin 2) = 0 ∧ win1_6.index t (1 : Fin 2) = 0 :=
    (by decide +kernel : ∀ t : Fin grid1.N, win1_6.index t (0 : Fin 2) = 0 ∧ win1_6.index t (1 : Fin 2) = 0) t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- Window 7 is resident: its block is its whole array at every point. -/
theorem iblk1_7_eq (c : Dev nD) (t : Fin cfg1.N) : iblk1 (F := Ideal) V c 7 t = V c (Pipeline.arrRef spec1 7) := by
  obtain ⟨e0, e1⟩ : win1_7.index t (0 : Fin 2) = 0 ∧ win1_7.index t (1 : Fin 2) = 0 :=
    (by decide +kernel : ∀ t : Fin grid1.N, win1_7.index t (0 : Fin 2) = 0 ∧ win1_7.index t (1 : Fin 2) = 0) t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 1 + 1 * (y 1).val = (y 1).val; omega

/-- Window 8 is resident: its block is its whole array at every point. -/
theorem iblk1_8_eq (c : Dev nD) (t : Fin cfg1.N) : iblk1 (F := Ideal) V c 8 t = V c (Pipeline.arrRef spec1 8) := by
  obtain ⟨e0, e1⟩ : win1_8.index t (0 : Fin 2) = 0 ∧ win1_8.index t (1 : Fin 2) = 0 :=
    (by decide +kernel : ∀ t : Fin grid1.N, win1_8.index t (0 : Fin 2) = 0 ∧ win1_8.index t (1 : Fin 2) = 0) t
  funext y
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 300 + 1 * (y 1).val = (y 1).val; omega

/-- Window 9 is resident: its block is its whole array at every point. -/
theorem iblk1_9_eq (c : Dev nD) (t : Fin cfg1.N) : iblk1 (F := Ideal) V c 9 t = V c (Pipeline.arrRef spec1 9) := by
  obtain ⟨e0, e1⟩ : win1_9.index t (0 : Fin 2) = 0 ∧ win1_9.index t (1 : Fin 2) = 0 :=
    (by decide +kernel : ∀ t : Fin grid1.N, win1_9.index t (0 : Fin 2) = 0 ∧ win1_9.index t (1 : Fin 2) = 0) t
  funext y
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 300 + 1 * (y 1).val = (y 1).val; omega

/-- Window 0's block at a point is the rows of its array that the output's block at the point covers. -/
theorem iblk1_0_apply (c : Dev nD) (t : Fin cfg1.N) (r : Fin 128) (q : Fin 1935) (n : Fin 384) (hn : n.val = win1_10.index t (0 : Fin 2) * 128 + r.val) :
    iblk1 (F := Ideal) V c 0 t (ix2 r q) = V c (Pipeline.arrRef spec1 0) (ix2 n q) := by
  obtain ⟨e0, e1⟩ : win1_0.index t (0 : Fin 2) = win1_10.index t (0 : Fin 2) ∧ win1_0.index t (1 : Fin 2) = 0 :=
    (by decide +kernel : ∀ t : Fin grid1.N, win1_0.index t (0 : Fin 2) = win1_10.index t (0 : Fin 2) ∧ win1_0.index t (1 : Fin 2) = 0) t
  show V c (Pipeline.arrRef spec1 0) (((cfg1.win 0).blk t).view.emb (ix2 r q)) = V c (Pipeline.arrRef spec1 0) (ix2 n q)
  refine congrArg _ (funext fun a => Fin.ext ?_)
  match a with
  | ⟨0, _⟩ => show win1_0.index t (0 : Fin 2) * 128 + 1 * r.val = n.val; omega
  | ⟨1, _⟩ => show win1_0.index t (1 : Fin 2) * 1935 + 1 * q.val = q.val; omega

/-- Window 2's block at a point is the rows of its array that the output's block at the point covers. -/
theorem iblk1_2_apply (c : Dev nD) (t : Fin cfg1.N) (r : Fin 128) (q : Fin 5) (n : Fin 384) (hn : n.val = win1_10.index t (0 : Fin 2) * 128 + r.val) :
    iblk1 (F := Ideal) V c 2 t (ix2 r q) = V c (Pipeline.arrRef spec1 2) (ix2 n q) := by
  obtain ⟨e0, e1⟩ : win1_2.index t (0 : Fin 2) = win1_10.index t (0 : Fin 2) ∧ win1_2.index t (1 : Fin 2) = 0 :=
    (by decide +kernel : ∀ t : Fin grid1.N, win1_2.index t (0 : Fin 2) = win1_10.index t (0 : Fin 2) ∧ win1_2.index t (1 : Fin 2) = 0) t
  show V c (Pipeline.arrRef spec1 2) (((cfg1.win 2).blk t).view.emb (ix2 r q)) = V c (Pipeline.arrRef spec1 2) (ix2 n q)
  refine congrArg _ (funext fun a => Fin.ext ?_)
  match a with
  | ⟨0, _⟩ => show win1_2.index t (0 : Fin 2) * 128 + 1 * r.val = n.val; omega
  | ⟨1, _⟩ => show win1_2.index t (1 : Fin 2) * 5 + 1 * q.val = q.val; omega

/-- What output window 10's array ends holding, as one function of the arrays the region finds. -/
def G1_10 (c : Dev nD) : S384x300.Idx → Elt Ideal .f32 := fun i =>
  P10 (V c (Pipeline.arrRef spec1 0)) (V c (Pipeline.arrRef spec1 1)) (V c (Pipeline.arrRef spec1 3)) (V c (Pipeline.arrRef spec1 4)) (V c (Pipeline.arrRef spec1 6)) (V c (Pipeline.arrRef spec1 8)) ⟨(i 0).val, idx2_lt0 i⟩ ⟨(i 1).val, idx2_lt1 i⟩

/-- What output window 11's array ends holding. -/
def G1_11 (c : Dev nD) : S384x300.Idx → Elt Ideal .f32 := fun i =>
  P11 (V c (Pipeline.arrRef spec1 2)) (V c (Pipeline.arrRef spec1 5)) (V c (Pipeline.arrRef spec1 7)) (V c (Pipeline.arrRef spec1 9)) ⟨(i 0).val, idx2_lt0 i⟩ ⟨(i 1).val, idx2_lt1 i⟩

/-- What point `t` writes back to window 10's array is block `t` of that function. -/
theorem flushed1_10_eq (c : Dev nD) (t : Fin cfg1.N) :
    (dat1 (F := Ideal) V c).flushed 10 t = ((cfg1.win 10).blk t).view.read (Elt Ideal) (G1_10 V c) := by
  show (cfg1.win 10).cut (grid1.coords t) ((dat1 V c).after 10 t) = _
  rw [after1_10]
  obtain ⟨-, e1, -⟩ := idx1_11_10 t
  funext j
  obtain ⟨r, o, rfl⟩ : ∃ (r : Fin 128) (o : Fin 300), j = ix2 r o := ⟨j 0, j 1, eq_ix2 j⟩
  show out1_10 _ _ _ _ _ _ (ix2 r o) = G1_10 V c (((cfg1.win 10).blk t).view.emb (ix2 r o))
  rw [out1_10_apply, iblk1_1_eq, iblk1_3_eq, iblk1_4_eq, iblk1_6_eq, iblk1_8_eq]
  unfold G1_10 P10
  have hr : (((cfg1.win 10).blk t).view.emb (ix2 r o) 0).val = win1_10.index t (0 : Fin 2) * 128 + r.val := by
    show win1_10.index t (0 : Fin 2) * 128 + 1 * r.val = _; omega
  have ho : (⟨(((cfg1.win 10).blk t).view.emb (ix2 r o) 1).val, idx2_lt1 _⟩ : Fin 300) = o := Fin.ext (by
    show win1_10.index t (1 : Fin 2) * 300 + 1 * o.val = o.val; omega)
  rw [ho]
  simp only [iblk1_0_apply V c t r _ ⟨(((cfg1.win 10).blk t).view.emb (ix2 r o) 0).val, idx2_lt0 _⟩ hr]

/-- What point `t` writes back to window 11's array is block `t` of that function. -/
theorem flushed1_11_eq (c : Dev nD) (t : Fin cfg1.N) :
    (dat1 (F := Ideal) V c).flushed 11 t = ((cfg1.win 11).blk t).view.read (Elt Ideal) (G1_11 V c) := by
  show (cfg1.win 11).cut (grid1.coords t) ((dat1 V c).after 11 t) = _
  rw [after1_11]
  obtain ⟨e0, -, e1⟩ := idx1_11_10 t
  funext j
  obtain ⟨r, o, rfl⟩ : ∃ (r : Fin 128) (o : Fin 300), j = ix2 r o := ⟨j 0, j 1, eq_ix2 j⟩
  show out1_11 _ _ _ _ (ix2 r o) = G1_11 V c (((cfg1.win 11).blk t).view.emb (ix2 r o))
  rw [out1_11_apply, iblk1_5_eq, iblk1_7_eq, iblk1_9_eq]
  unfold G1_11 P11
  have hr : (((cfg1.win 11).blk t).view.emb (ix2 r o) 0).val = win1_10.index t (0 : Fin 2) * 128 + r.val := by
    show win1_11.index t (0 : Fin 2) * 128 + 1 * r.val = _; omega
  have ho : (⟨(((cfg1.win 11).blk t).view.emb (ix2 r o) 1).val, idx2_lt1 _⟩ : Fin 300) = o := Fin.ext (by
    show win1_11.index t (1 : Fin 2) * 300 + 1 * o.val = o.val; omega)
  rw [ho]
  simp only [iblk1_2_apply V c t r _ ⟨(((cfg1.win 11).blk t).view.emb (ix2 r o) 0).val, idx2_lt0 _⟩ hr]

/-- An index of the array is in point `t`'s block of output window 10 iff each coordinate is in the block's range. -/
theorem mem_blk1_10 (t : Fin cfg1.N) (i : S384x300.Idx) :
    i ∈ ((cfg1.win 10).blk t).view.set ↔ ∀ a : Fin 2, win1_10.index t a * S128x300.size a ≤ (i a).val ∧ (i a).val < win1_10.index t a * S128x300.size a + S128x300.size a := by
  show i ∈ ((View.whole main_v39_0).slice (win1_10.rect t)).set ↔ _
  rw [View.set_slice_whole, Rect.mem_set_unit]
  exact Iff.rfl

/-- Output window 10's blocks tile its array: row `n` is in the block of the point with block index `n / 128`. -/
theorem cover1_arr_10 (i : S384x300.Idx) : ∃ t : Fin cfg1.N, (cfg1.win 10).flush t = true ∧ i ∈ ((cfg1.win 10).blk t).view.set := by
  have hi0 : (i 0).val < 384 := idx2_lt0 i
  have hi1 : (i 1).val < 300 := idx2_lt1 i
  obtain ⟨t, ht⟩ := idx_onto1_10 ⟨(i 0).val / 128, by omega⟩
  have q0 : win1_10.index t (0 : Fin 2) = (i 0).val / 128 := congrFun ht 0
  have q1 : win1_10.index t (1 : Fin 2) = 0 := congrFun ht 1
  refine ⟨t, flush1_10 t, ?_⟩
  rw [mem_blk1_10]
  intro a
  match a with
  | ⟨0, _⟩ => show win1_10.index t (0 : Fin 2) * 128 ≤ (i 0).val ∧ (i 0).val < win1_10.index t (0 : Fin 2) * 128 + 128; omega
  | ⟨1, _⟩ => show win1_10.index t (1 : Fin 2) * 300 ≤ (i 1).val ∧ (i 1).val < win1_10.index t (1 : Fin 2) * 300 + 300; omega

/-- An index of the array is in point `t`'s block of output window 11 iff each coordinate is in the block's range. -/
theorem mem_blk1_11 (t : Fin cfg1.N) (i : S384x300.Idx) :
    i ∈ ((cfg1.win 11).blk t).view.set ↔ ∀ a : Fin 2, win1_11.index t a * S128x300.size a ≤ (i a).val ∧ (i a).val < win1_11.index t a * S128x300.size a + S128x300.size a := by
  show i ∈ ((View.whole main_v39_1).slice (win1_11.rect t)).set ↔ _
  rw [View.set_slice_whole, Rect.mem_set_unit]
  exact Iff.rfl

/-- Output window 11's blocks tile its array: row `n` is in the block of the point with block index `n / 128`. -/
theorem cover1_arr_11 (i : S384x300.Idx) : ∃ t : Fin cfg1.N, (cfg1.win 11).flush t = true ∧ i ∈ ((cfg1.win 11).blk t).view.set := by
  have hi0 : (i 0).val < 384 := idx2_lt0 i
  have hi1 : (i 1).val < 300 := idx2_lt1 i
  obtain ⟨t, ht⟩ := idx_onto1_11 ⟨(i 0).val / 128, by omega⟩
  have q0 : win1_11.index t (0 : Fin 2) = (i 0).val / 128 := congrFun ht 0
  have q1 : win1_11.index t (1 : Fin 2) = 0 := congrFun ht 1
  refine ⟨t, flush1_11 t, ?_⟩
  rw [mem_blk1_11]
  intro a
  match a with
  | ⟨0, _⟩ => show win1_11.index t (0 : Fin 2) * 128 ≤ (i 0).val ∧ (i 0).val < win1_11.index t (0 : Fin 2) * 128 + 128; omega
  | ⟨1, _⟩ => show win1_11.index t (1 : Fin 2) * 300 ≤ (i 1).val ∧ (i 1).val < win1_11.index t (1 : Fin 2) * 300 + 300; omega

/-- Output window 10's array after the region, at an entry. -/
theorem arr1_10 (c : Dev nD) (n : Fin 384) (o : Fin 300) : (dat1 (F := Ideal) V c).arrAt 10 cfg1.N (ix2 n o)
    = P10 (V c (Pipeline.arrRef spec1 0)) (V c (Pipeline.arrRef spec1 1)) (V c (Pipeline.arrRef spec1 3)) (V c (Pipeline.arrRef spec1 4)) (V c (Pipeline.arrRef spec1 6)) (V c (Pipeline.arrRef spec1 8)) n o :=
  congrFun ((dat1 (F := Ideal) V c).arrAt_eq_of_cover 10 (G1_10 V c) (fun t _ => flushed1_10_eq V c t) cover1_arr_10) (ix2 n o)

/-- Output window 11's array after the region, at an entry. -/
theorem arr1_11 (c : Dev nD) (n : Fin 384) (o : Fin 300) : (dat1 (F := Ideal) V c).arrAt 11 cfg1.N (ix2 n o)
    = P11 (V c (Pipeline.arrRef spec1 2)) (V c (Pipeline.arrRef spec1 5)) (V c (Pipeline.arrRef spec1 7)) (V c (Pipeline.arrRef spec1 9)) n o :=
  congrFun ((dat1 (F := Ideal) V c).arrAt_eq_of_cover 11 (G1_11 V c) (fun t _ => flushed1_11_eq V c t) cover1_arr_11) (ix2 n o)

end Cert.KernelIdeal.Hand

end
-- ==== Proof.KI.FusedPay.lean ====
/- The two payloads of the pairwise kernel at an entry, at the ideal (extended-real) values: the rectified sum of a
   row block and a column block laid out as 512 = 8 × 64 rows, and the last linear layer (a matrix product over the
   300 hidden coordinates plus a bias row) laid out as 64 × 64 pairs. A row of the flat layout is the pair
   (a, b) ↦ 64 a + b; a narrowing format change is the identity on extended reals. -/
import proofs.«179407_j89060441850130_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.SL.Sem
open Idealize.ShloMosaic.ValueIdx
open Cert.KernelIdeal Cert.KernelIdeal.Gen

/-! ## The layout operations at an entry -/

/-- An [8,64,300] array cast to [512,300] reads, at row 64 a + b, the entry (a, b). -/
theorem sc_8x64x300_512x300 {α : Type} (x : S8x64x300.Idx → α) (a : Fin 8) (b : Fin 64) (o : Fin 300) :
    shapeCast S512x300 x shapeCasts_S8x64x300_S512x300
        (ix2 (⟨64 * a.val + b.val, by have := a.isLt; have := b.isLt; omega⟩ : Fin 512) o) = x (ix3 a b o) :=
  shapeCast_apply x shapeCasts_S8x64x300_S512x300 _ (ix3 a b o) (by
    rw [Shape.rowMajor_val_three, Shape.rowMajor_val_two]
    show (a.val * 64 + b.val) * 300 + o.val = (64 * a.val + b.val) * 300 + o.val
    omega)

/-- A [4096,300] array cast to [64,64,300] reads, at the pair (a, b), row 64 a + b. -/
theorem sc_4096x300_64x64x300 {α : Type} (x : S4096x300.Idx → α) (a b : Fin 64) (p : Fin 300) :
    shapeCast S64x64x300 x shapeCasts_S4096x300_S64x64x300 (ix3 a b p)
      = x (ix2 (⟨64 * a.val + b.val, by have := a.isLt; have := b.isLt; omega⟩ : Fin 4096) p) :=
  shapeCast_apply x shapeCasts_S4096x300_S64x64x300 (ix3 a b p) _ (by
    rw [Shape.rowMajor_val_three, Shape.rowMajor_val_two]
    show (64 * a.val + b.val) * 300 + p.val = (a.val * 64 + b.val) * 300 + p.val
    omega)

/-- An [8,300] array cast to [8,1,300] reads the row and the column. -/
theorem sc_8x300_8x1x300 {α : Type} (x : S8x300.Idx → α) (a : Fin 8) (u : Fin 1) (o : Fin 300) :
    shapeCast S8x1x300 x shapeCasts_S8x300_S8x1x300 (ix3 a u o) = x (ix2 a o) :=
  shapeCast_apply x shapeCasts_S8x300_S8x1x300 (ix3 a u o) (ix2 a o) (by
    have hu : u.val = 0 := by omega
    rw [Shape.rowMajor_val_two, Shape.rowMajor_val_three]
    show a.val * 300 + o.val = (a.val * 1 + u.val) * 300 + o.val
    omega)

/-- An [8,1,300] array broadcast to [8,64,300] reads its row at every middle coordinate. -/
theorem bt_8x1x300_8x64x300 {α : Type} (x : S8x1x300.Idx → α) (a : Fin 8) (b : Fin 64) (o : Fin 300) :
    broadcastTo S8x64x300 x broadcasts_S8x1x300_S8x64x300 (ix3 a b o) = x (ix3 a 0 o) :=
  broadcastTo_apply x broadcasts_S8x1x300_S8x64x300 (ix3 a b o) (ix3 a 0 o) (fun c => by match c with | ⟨0, _⟩ => rfl | ⟨1, _⟩ => rfl | ⟨2, _⟩ => rfl)

/-- A [1,64,300] array broadcast to [8,64,300] reads its one slab at every leading coordinate. -/
theorem bt_1x64x300_8x64x300 {α : Type} (x : S1x64x300.Idx → α) (a : Fin 8) (b : Fin 64) (o : Fin 300) :
    broadcastTo S8x64x300 x broadcasts_S1x64x300_S8x64x300 (ix3 a b o) = x (ix3 0 b o) :=
  broadcastTo_apply x broadcasts_S1x64x300_S8x64x300 (ix3 a b o) (ix3 0 b o) (fun c => by match c with | ⟨0, _⟩ => rfl | ⟨1, _⟩ => rfl | ⟨2, _⟩ => rfl)

/-- A [1,1,300] row broadcast to [64,64,300] reads the row at the last coordinate. -/
theorem bt_1x1x300_64x64x300 {α : Type} (x : S1x1x300.Idx → α) (a b : Fin 64) (p : Fin 300) :
    broadcastTo S64x64x300 x broadcasts_S1x1x300_S64x64x300 (ix3 a b p) = x (ix3 0 0 p) :=
  broadcastTo_apply x broadcasts_S1x1x300_S64x64x300 (ix3 a b p) (ix3 0 0 p) (fun c => by match c with | ⟨0, _⟩ => rfl | ⟨1, _⟩ => rfl | ⟨2, _⟩ => rfl)

/-! ## The matrix product at an entry -/

/-- The left operand's row coordinate is the entry's row, -/
theorem lhs0_4096_300_300 (i : S4096x300.Idx) (q : dot_S4096x300_S300x300_S4096x300_1_0_0_1_n_n.contr.Idx) : (dot_S4096x300_S300x300_S4096x300_1_0_0_1_n_n.lhsIdx i q 0).val = (i 0).val := by
  unfold DotDims.lhsIdx
  rw [dif_neg (show ¬(0 : Fin S4096x300.rank) ∈ dot_S4096x300_S300x300_S4096x300_1_0_0_1_n_n.lhsBatch by decide), dif_pos (show (0 : Fin S4096x300.rank) ∈ dot_S4096x300_S300x300_S4096x300_1_0_0_1_n_n.lhsNonContracting by decide)]
  rfl
/-- and the right operand's column coordinate the entry's column. -/
theorem rhs1_4096_300_300 (i : S4096x300.Idx) (q : dot_S4096x300_S300x300_S4096x300_1_0_0_1_n_n.contr.Idx) : (dot_S4096x300_S300x300_S4096x300_1_0_0_1_n_n.rhsIdx i q 1).val = (i 1).val := by
  unfold DotDims.rhsIdx
  rw [dif_neg (show ¬(1 : Fin S300x300.rank) ∈ dot_S4096x300_S300x300_S4096x300_1_0_0_1_n_n.rhsBatch by decide), dif_pos (show (1 : Fin S300x300.rank) ∈ dot_S4096x300_S300x300_S4096x300_1_0_0_1_n_n.rhsNonContracting by decide)]
  rfl

/-- The [4096,300] by [300,300] matrix product into the zero accumulator, at an entry: the sum over the contracted axis. -/
theorem mm_4096_300_300 (l : FVec Ideal S4096x300 .bf16) (rr : FVec Ideal S300x300 .bf16) (r : Fin 4096) (p : Fin 300) :
    matmul dot_S4096x300_S300x300_S4096x300_1_0_0_1_n_n none l rr (constant (F := Ideal) S4096x300 .f32 0x00000000#32) (ix2 r p)
      = ∑ k : Fin 300, l (ix2 r k) * rr (ix2 k p) := by
  show FloatOps.matmul dot_S4096x300_S300x300_S4096x300_1_0_0_1_n_n none l rr (constant (F := Ideal) S4096x300 .f32 0x00000000#32) (ix2 r p) = _
  rw [Ideal.matmul_constant_zero_apply, ← Equiv.sum_comp (ValueIdx.contrEquiv1 dot_S4096x300_S300x300_S4096x300_1_0_0_1_n_n 300 rfl rfl).symm]
  refine Finset.sum_congr rfl fun k _ => ?_
  have hk := ValueIdx.contrEquiv1_symm_val dot_S4096x300_S300x300_S4096x300_1_0_0_1_n_n 300 rfl rfl k
  have el : dot_S4096x300_S300x300_S4096x300_1_0_0_1_n_n.lhsIdx (ix2 r p) ((ValueIdx.contrEquiv1 dot_S4096x300_S300x300_S4096x300_1_0_0_1_n_n 300 rfl rfl).symm k) = ix2 r k := funext fun a => Fin.ext (by
    match a with
    | ⟨0, _⟩ => exact lhs0_4096_300_300 _ _
    | ⟨1, _⟩ => exact (dot_S4096x300_S300x300_S4096x300_1_0_0_1_n_n.lhsIdx_val_of_single rfl _ _).trans hk)
  have er : dot_S4096x300_S300x300_S4096x300_1_0_0_1_n_n.rhsIdx (ix2 r p) ((ValueIdx.contrEquiv1 dot_S4096x300_S300x300_S4096x300_1_0_0_1_n_n 300 rfl rfl).symm k) = ix2 k p := funext fun a => Fin.ext (by
    match a with
    | ⟨0, _⟩ => exact (dot_S4096x300_S300x300_S4096x300_1_0_0_1_n_n.rhsIdx_val_of_single rfl _ _).trans hk
    | ⟨1, _⟩ => exact rhs1_4096_300_300 _ _)
  rw [el, er]

/-! ## The payloads at an entry -/

/-- The first payload at row 64 a + b: the two rectified sums of row a of the small blocks and row b of the large. -/
theorem k2_pay1_apply (v0 v2 : Vec Ideal S64x300 .f32) (v19 v22 : Vec Ideal S8x300 .f32) (a : Fin 8) (b : Fin 64) (o : Fin 300) :
    k2_pay1 (F := Ideal) v0 v2 v19 v22
        (ix2 (⟨64 * a.val + b.val, by have := a.isLt; have := b.isLt; omega⟩ : Fin 512) o)
      = max (v19 (ix2 a o) + v0 (ix2 b o)) 0 + max (v22 (ix2 a o) + v2 (ix2 b o)) 0 := by
  unfold k2_pay1
  simp only [shapeCast_self]
  rw [sc_8x64x300_512x300, truncf_apply, addf_apply, maximumf_apply, maximumf_apply, addf_apply, addf_apply,
    bt_8x1x300_8x64x300, bt_1x64x300_8x64x300, bt_8x1x300_8x64x300, bt_1x64x300_8x64x300,
    sc_8x300_8x1x300, sc_8x300_8x1x300, shapeCast_ab_1ab_apply, shapeCast_ab_1ab_apply, broadcast_apply]
  show max (v19 (ix2 a o) + v0 (ix2 b o)) (Ideal.ofBits .f32 0x00000000#32)
      + max (v22 (ix2 a o) + v2 (ix2 b o)) (Ideal.ofBits .f32 0x00000000#32) = _
  rw [Ideal.ofBits_zero_f32]

/-- The second payload at the pair (a, b): row 64 a + b of the left operand against the weights, plus the bias row. -/
theorem k2_pay2_apply (v5 : Vec Ideal S300x300 .bf16) (v7 : Vec Ideal S4096x300 .bf16) (v10 : Vec Ideal S1x300 .f32)
    (a b : Fin 64) (p : Fin 300) :
    k2_pay2 (F := Ideal) v5 v7 v10 (ix3 a b p)
      = (∑ o : Fin 300, v7 (ix2 (⟨64 * a.val + b.val, by have := a.isLt; have := b.isLt; omega⟩ : Fin 4096) o) * v5 (ix2 o p))
        + v10 (ix2 0 p) := by
  unfold k2_pay2
  simp only [shapeCast_self]
  rw [addf_apply, sc_4096x300_64x64x300, mm_4096_300_300, bt_1x1x300_64x64x300, shapeCast_ab_1ab_apply]

end Cert.KernelIdeal.Hand

end
-- ==== Proof.KI.FusedScr.lean ====
/- What the scratch of the pairwise kernel holds after its eight trips, read at a row: trip k stores, at rows
   512 k … 512 k + 511, the rectified sums of rows 8 k … 8 k + 7 of the two small inputs against all 64 rows of the
   two large ones, row 64 a' + b of the trip's block being the pair (8 k + a', b). So row 64 a + b of the whole scratch
   is the pair (a, b): the eight stores tile the scratch and agree with one function of the row. -/
import proofs.«179407_j89060441850130_2_alg».proof.Proof.Gen.KernelIdeal.Loops
import proofs.«179407_j89060441850130_2_alg».proof.Proof.KI.FusedPay
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL.Sem
open Idealize.ShloMosaic.ValueIdx
open Cert.KernelIdeal Cert.KernelIdeal.Gen

/-! ## One trip's piece -/

unseal trip_k2_t1 in
/-- One trip's piece: the rectified-sum payload of the trip's eight rows, stored at the trip's 512 rows of the scratch. -/
theorem tripL_eq (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (v0 v2 : Vec Ideal S64x300 .f32) (X2 : BufTy.Contents (Elt Ideal) arg2.view.ty) (X4 : BufTy.Contents (Elt Ideal) arg4.view.ty) (k : Fin k2_t1_loop.trips) :
    tripL_k2_t1 (F := Ideal) Variants.none c none i arg2 harg2 arg3 harg3 arg4 harg4 arg5 harg5 arg6 harg6 arg7 harg7 arg8 harg8 arg9 harg9 v0 v2 X2 X4 k
      = [(⟨(Rect.unit (s := S4096x300) (k2_off2 k) S512x300.size (k2_off2_inb k)),
          k2_pay1 v0 v2
            (View.readAt (Elt Ideal) arg2.view (Rect.unit (s := S64x300) (k2_off1 k) S8x300.size (k2_off1_inb k)).toLoadRect X2)
            (View.readAt (Elt Ideal) arg4.view (Rect.unit (s := S64x300) (k2_off1 k) S8x300.size (k2_off1_inb k)).toLoadRect X4)⟩ : View.Piece (Elt Ideal) S4096x300 .bf16)] := by
  unfold tripL_k2_t1
  delta trip_k2_t1
  rfl

/-- The loop makes eight trips. -/
theorem trips_eq : k2_t1_loop.trips = 8 := by decide

/-! ## The pieces of the trips before `n` -/

/-- A property of every trip's pieces is a property of every piece of the trips before `n`. -/
theorem pb_forall (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (v0 v2 : Vec Ideal S64x300 .f32) (X2 : BufTy.Contents (Elt Ideal) arg2.view.ty) (X4 : BufTy.Contents (Elt Ideal) arg4.view.ty)
    (P : View.Piece (Elt Ideal) S4096x300 .bf16 → Prop)
    (hP : ∀ k : Fin k2_t1_loop.trips, ∀ p ∈ tripL_k2_t1 (F := Ideal) Variants.none c none i arg2 harg2 arg3 harg3 arg4 harg4 arg5 harg5 arg6 harg6 arg7 harg7 arg8 harg8 arg9 harg9 v0 v2 X2 X4 k, P p) :
    ∀ n, n ≤ k2_t1_loop.trips → ∀ p ∈ pb_k2_t1 (F := Ideal) Variants.none c none i arg2 harg2 arg3 harg3 arg4 harg4 arg5 harg5 arg6 harg6 arg7 harg7 arg8 harg8 arg9 harg9 v0 v2 X2 X4 n, P p
  | 0, _, p, hp => by rw [pb_k2_t1] at hp; exact absurd hp List.not_mem_nil
  | n + 1, hn, p, hp => by
    have e : pb_k2_t1 (F := Ideal) Variants.none c none i arg2 harg2 arg3 harg3 arg4 harg4 arg5 harg5 arg6 harg6 arg7 harg7 arg8 harg8 arg9 harg9 v0 v2 X2 X4 (n + 1) = tripL_k2_t1 (F := Ideal) Variants.none c none i arg2 harg2 arg3 harg3 arg4 harg4 arg5 harg5 arg6 harg6 arg7 harg7 arg8 harg8 arg9 harg9 v0 v2 X2 X4 ⟨n, hn⟩ ++ pb_k2_t1 (F := Ideal) Variants.none c none i arg2 harg2 arg3 harg3 arg4 harg4 arg5 harg5 arg6 harg6 arg7 harg7 arg8 harg8 arg9 harg9 v0 v2 X2 X4 n :=
      pb_k2_t1_succ (F := Ideal) Variants.none c none i arg2 harg2 arg3 harg3 arg4 harg4 arg5 harg5 arg6 harg6 arg7 harg7 arg8 harg8 arg9 harg9 v0 v2 X2 X4 ⟨n, hn⟩
    rw [e] at hp
    rcases List.mem_append.mp hp with h | h
    · exact hP _ p h
    · exact pb_forall c i arg2 harg2 arg3 harg3 arg4 harg4 arg5 harg5 arg6 harg6 arg7 harg7 arg8 harg8 arg9 harg9 v0 v2 X2 X4 P hP n (Nat.le_of_lt hn) p h

/-- Trip `k`'s pieces are among the pieces of the trips before any later `n`. -/
theorem trip_sub_pb (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (v0 v2 : Vec Ideal S64x300 .f32) (X2 : BufTy.Contents (Elt Ideal) arg2.view.ty) (X4 : BufTy.Contents (Elt Ideal) arg4.view.ty) (k : Fin k2_t1_loop.trips) :
    ∀ n, k.val < n → n ≤ k2_t1_loop.trips → ∀ p ∈ tripL_k2_t1 (F := Ideal) Variants.none c none i arg2 harg2 arg3 harg3 arg4 harg4 arg5 harg5 arg6 harg6 arg7 harg7 arg8 harg8 arg9 harg9 v0 v2 X2 X4 k, p ∈ pb_k2_t1 (F := Ideal) Variants.none c none i arg2 harg2 arg3 harg3 arg4 harg4 arg5 harg5 arg6 harg6 arg7 harg7 arg8 harg8 arg9 harg9 v0 v2 X2 X4 n
  | 0, h, _, _, _ => absurd h (Nat.not_lt_zero _)
  | n + 1, h, hn, p, hp => by
    have e : pb_k2_t1 (F := Ideal) Variants.none c none i arg2 harg2 arg3 harg3 arg4 harg4 arg5 harg5 arg6 harg6 arg7 harg7 arg8 harg8 arg9 harg9 v0 v2 X2 X4 (n + 1) = tripL_k2_t1 (F := Ideal) Variants.none c none i arg2 harg2 arg3 harg3 arg4 harg4 arg5 harg5 arg6 harg6 arg7 harg7 arg8 harg8 arg9 harg9 v0 v2 X2 X4 ⟨n, hn⟩ ++ pb_k2_t1 (F := Ideal) Variants.none c none i arg2 harg2 arg3 harg3 arg4 harg4 arg5 harg5 arg6 harg6 arg7 harg7 arg8 harg8 arg9 harg9 v0 v2 X2 X4 n :=
      pb_k2_t1_succ (F := Ideal) Variants.none c none i arg2 harg2 arg3 harg3 arg4 harg4 arg5 harg5 arg6 harg6 arg7 harg7 arg8 harg8 arg9 harg9 v0 v2 X2 X4 ⟨n, hn⟩
    rw [e]
    refine List.mem_append.mpr ?_
    by_cases hk : k.val = n
    · left
      have hk' : (⟨n, hn⟩ : Fin k2_t1_loop.trips) = k := Fin.ext hk.symm
      rw [hk']; exact hp
    · right
      exact trip_sub_pb c i arg2 harg2 arg3 harg3 arg4 harg4 arg5 harg5 arg6 harg6 arg7 harg7 arg8 harg8 arg9 harg9 v0 v2 X2 X4 k n (by omega) (Nat.le_of_lt hn) p hp

/-! ## The one function of the row -/

/-- Row `r` of the scratch is the pair (r / 64, r % 64): the small inputs' row, -/
def scrRowHi (y : S4096x300.Idx) : S64x300.Idx :=
  ix2 (⟨(y 0).val / 64, by have := idx2_lt0 y; omega⟩ : Fin 64) (⟨(y 1).val, idx2_lt1 y⟩ : Fin 300)
/-- and the large inputs' row. -/
def scrRowLo (y : S4096x300.Idx) : S64x300.Idx :=
  ix2 (⟨(y 0).val % 64, by omega⟩ : Fin 64) (⟨(y 1).val, idx2_lt1 y⟩ : Fin 300)

/-- What every store agrees with: the two rectified sums at the row's pair. -/
def scrG (r2 r4 w0 w2 : S64x300.Idx → EReal) (y : S4096x300.Idx) : EReal :=
  max (r2 (scrRowHi y) + w0 (scrRowLo y)) 0 + max (r4 (scrRowHi y) + w2 (scrRowLo y)) 0

theorem scrRowHi_ix (a b : Fin 64) (o : Fin 300) :
    scrRowHi (ix2 (⟨64 * a.val + b.val, by have := a.isLt; have := b.isLt; omega⟩ : Fin 4096) o) = ix2 a o := by
  unfold scrRowHi
  funext d
  match d with
  | ⟨0, _⟩ => exact Fin.ext (by show (64 * a.val + b.val) / 64 = a.val; have := b.isLt; omega)
  | ⟨1, _⟩ => rfl

theorem scrRowLo_ix (a b : Fin 64) (o : Fin 300) :
    scrRowLo (ix2 (⟨64 * a.val + b.val, by have := a.isLt; have := b.isLt; omega⟩ : Fin 4096) o) = ix2 b o := by
  unfold scrRowLo
  funext d
  match d with
  | ⟨0, _⟩ => exact Fin.ext (by show (64 * a.val + b.val) % 64 = b.val; have := b.isLt; omega)
  | ⟨1, _⟩ => rfl

/-- Trip `k`'s block, at its row 64 a' + b, is the scratch's row 64 (8 k + a') + b. -/
theorem scrRowHi_emb (k : Fin k2_t1_loop.trips) (a' : Fin 8) (b : Fin 64) (o : Fin 300) :
    scrRowHi ((Rect.unit (s := S4096x300) (k2_off2 k) S512x300.size (k2_off2_inb k)).emb (ix2 (⟨64 * a'.val + b.val, by have := a'.isLt; have := b.isLt; omega⟩ : Fin 512) o))
      = (Rect.unit (s := S64x300) (k2_off1 k) S8x300.size (k2_off1_inb k)).toLoadRect.idx (ix2 a' o) := by
  have hk : k.val < 8 := Nat.lt_of_lt_of_le k.isLt k2_t1_abs.2.1
  have h2 : k2_off2 k 0 = 512 * k.val := congrFun (k2_off2_eq k) 0
  have h1 : k2_off1 k 0 = 8 * k.val := congrFun (k2_off1_eq k) 0
  have h2' : k2_off2 k 1 = 0 := congrFun (k2_off2_eq k) 1
  have h1' : k2_off1 k 1 = 0 := congrFun (k2_off1_eq k) 1
  unfold scrRowHi
  funext d
  match d with
  | ⟨0, _⟩ =>
    exact Fin.ext (by
      show (k2_off2 k 0 + 1 * (64 * a'.val + b.val)) / 64 = k2_off1 k 0 + 1 * a'.val
      rw [h1, h2]; have := a'.isLt; have := b.isLt; omega)
  | ⟨1, _⟩ =>
    exact Fin.ext (by
      show k2_off2 k 1 + 1 * o.val = k2_off1 k 1 + 1 * o.val
      rw [h1', h2'])

theorem scrRowLo_emb (k : Fin k2_t1_loop.trips) (a' : Fin 8) (b : Fin 64) (o : Fin 300) :
    scrRowLo ((Rect.unit (s := S4096x300) (k2_off2 k) S512x300.size (k2_off2_inb k)).emb (ix2 (⟨64 * a'.val + b.val, by have := a'.isLt; have := b.isLt; omega⟩ : Fin 512) o))
      = ix2 b o := by
  have hk : k.val < 8 := Nat.lt_of_lt_of_le k.isLt k2_t1_abs.2.1
  have h2 : k2_off2 k 0 = 512 * k.val := congrFun (k2_off2_eq k) 0
  have h2' : k2_off2 k 1 = 0 := congrFun (k2_off2_eq k) 1
  unfold scrRowLo
  funext d
  match d with
  | ⟨0, _⟩ =>
    exact Fin.ext (by
      show (k2_off2 k 0 + 1 * (64 * a'.val + b.val)) % 64 = b.val
      rw [h2]; have := a'.isLt; have := b.isLt; omega)
  | ⟨1, _⟩ =>
    exact Fin.ext (by
      show k2_off2 k 1 + 1 * o.val = o.val
      rw [h2']; omega)

/-! ## Every piece is a block of that function -/

/-- Trip `k`'s payload at its row 64 a' + b. -/
theorem piece_at (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (v0 v2 : Vec Ideal S64x300 .f32) (X2 : BufTy.Contents (Elt Ideal) arg2.view.ty) (X4 : BufTy.Contents (Elt Ideal) arg4.view.ty) (k : Fin k2_t1_loop.trips) (a' : Fin 8) (b : Fin 64) (o : Fin 300) :
    k2_pay1 (F := Ideal) v0 v2
        (View.readAt (Elt Ideal) arg2.view (Rect.unit (s := S64x300) (k2_off1 k) S8x300.size (k2_off1_inb k)).toLoadRect X2)
        (View.readAt (Elt Ideal) arg4.view (Rect.unit (s := S64x300) (k2_off1 k) S8x300.size (k2_off1_inb k)).toLoadRect X4)
        (ix2 (⟨64 * a'.val + b.val, by have := a'.isLt; have := b.isLt; omega⟩ : Fin 512) o)
      = scrG (arg2.view.read (Elt Ideal) X2) (arg4.view.read (Elt Ideal) X4) v0 v2
          ((Rect.unit (s := S4096x300) (k2_off2 k) S512x300.size (k2_off2_inb k)).emb (ix2 (⟨64 * a'.val + b.val, by have := a'.isLt; have := b.isLt; omega⟩ : Fin 512) o)) := by
  rw [k2_pay1_apply]
  unfold scrG
  rw [scrRowHi_emb, scrRowLo_emb]
  rfl

/-- Trip `k`'s payload at any index of its block. -/
theorem piece_eq (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (v0 v2 : Vec Ideal S64x300 .f32) (X2 : BufTy.Contents (Elt Ideal) arg2.view.ty) (X4 : BufTy.Contents (Elt Ideal) arg4.view.ty) (k : Fin k2_t1_loop.trips) (x : S512x300.Idx) :
    k2_pay1 (F := Ideal) v0 v2
        (View.readAt (Elt Ideal) arg2.view (Rect.unit (s := S64x300) (k2_off1 k) S8x300.size (k2_off1_inb k)).toLoadRect X2)
        (View.readAt (Elt Ideal) arg4.view (Rect.unit (s := S64x300) (k2_off1 k) S8x300.size (k2_off1_inb k)).toLoadRect X4) x
      = scrG (arg2.view.read (Elt Ideal) X2) (arg4.view.read (Elt Ideal) X4) v0 v2 ((Rect.unit (s := S4096x300) (k2_off2 k) S512x300.size (k2_off2_inb k)).emb x) := by
  have h0 : (x 0).val < 512 := idx2_lt0 x
  have hx : x = ix2 (⟨64 * (⟨(x 0).val / 64, by omega⟩ : Fin 8).val + (⟨(x 0).val % 64, by omega⟩ : Fin 64).val, by
      show 64 * ((x 0).val / 64) + (x 0).val % 64 < 512; omega⟩ : Fin 512) (⟨(x 1).val, idx2_lt1 x⟩ : Fin 300) := by
    funext d
    match d with
    | ⟨0, _⟩ => exact Fin.ext (by show (x 0).val = 64 * ((x 0).val / 64) + (x 0).val % 64; omega)
    | ⟨1, _⟩ => rfl
  rw [hx]
  exact piece_at c i arg2 harg2 arg3 harg3 arg4 harg4 arg5 harg5 arg6 harg6 arg7 harg7 arg8 harg8 arg9 harg9 v0 v2 X2 X4 k _ _ _

/-! ## The scratch at a row -/

/-- After the eight trips, row 64 a + b of the scratch holds the two rectified sums of row a of the small inputs and
    row b of the large ones. -/
theorem scr_apply (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (v0 v2 : Vec Ideal S64x300 .f32) (X2 : BufTy.Contents (Elt Ideal) arg2.view.ty) (X4 : BufTy.Contents (Elt Ideal) arg4.view.ty) (a b : Fin 64) (o : Fin 300) :
    View.canon (pb_k2_t1 (F := Ideal) Variants.none c none i arg2 harg2 arg3 harg3 arg4 harg4 arg5 harg5 arg6 harg6 arg7 harg7 arg8 harg8 arg9 harg9 v0 v2 X2 X4 (Scf.trips k2_t1_loop.lb k2_t1_loop.ub k2_t1_loop.st))
        (ix2 (⟨64 * a.val + b.val, by have := a.isLt; have := b.isLt; omega⟩ : Fin 4096) o)
      = max (arg2.view.read (Elt Ideal) X2 (ix2 a o) + v0 (ix2 b o)) 0
        + max (arg4.view.read (Elt Ideal) X4 (ix2 a o) + v2 (ix2 b o)) 0 := by
  have hval : scrG (arg2.view.read (Elt Ideal) X2) (arg4.view.read (Elt Ideal) X4) v0 v2
      (ix2 (⟨64 * a.val + b.val, by have := a.isLt; have := b.isLt; omega⟩ : Fin 4096) o)
      = max (arg2.view.read (Elt Ideal) X2 (ix2 a o) + v0 (ix2 b o)) 0
        + max (arg4.view.read (Elt Ideal) X4 (ix2 a o) + v2 (ix2 b o)) 0 := by
    unfold scrG; rw [scrRowHi_ix, scrRowLo_ix]
  have hN : Scf.trips k2_t1_loop.lb k2_t1_loop.ub k2_t1_loop.st ≤ k2_t1_loop.trips := Nat.le_refl _
  have ha : a.val / 8 < k2_t1_loop.trips := by rw [trips_eq]; have := a.isLt; omega
  refine (View.canon_apply_of_pieces
    (scrG (arg2.view.read (Elt Ideal) X2) (arg4.view.read (Elt Ideal) X4) v0 v2) _ ?_ _ ?_).trans hval
  · refine pb_forall c i arg2 harg2 arg3 harg3 arg4 harg4 arg5 harg5 arg6 harg6 arg7 harg7 arg8 harg8 arg9 harg9 v0 v2 X2 X4 (fun p => ∀ x : p.1.shape.Idx, p.2 x = scrG (arg2.view.read (Elt Ideal) X2) (arg4.view.read (Elt Ideal) X4) v0 v2 (p.1.emb x)) ?_ _ hN
    intro k p hp
    rw [tripL_eq] at hp
    rw [List.mem_singleton.mp hp]
    intro x
    exact piece_eq c i arg2 harg2 arg3 harg3 arg4 harg4 arg5 harg5 arg6 harg6 arg7 harg7 arg8 harg8 arg9 harg9 v0 v2 X2 X4 k x
  · refine ⟨(⟨(Rect.unit (s := S4096x300) (k2_off2 ⟨a.val / 8, ha⟩) S512x300.size (k2_off2_inb ⟨a.val / 8, ha⟩)),
          k2_pay1 v0 v2
            (View.readAt (Elt Ideal) arg2.view (Rect.unit (s := S64x300) (k2_off1 ⟨a.val / 8, ha⟩) S8x300.size (k2_off1_inb ⟨a.val / 8, ha⟩)).toLoadRect X2)
            (View.readAt (Elt Ideal) arg4.view (Rect.unit (s := S64x300) (k2_off1 ⟨a.val / 8, ha⟩) S8x300.size (k2_off1_inb ⟨a.val / 8, ha⟩)).toLoadRect X4)⟩ : View.Piece (Elt Ideal) S4096x300 .bf16), ?_, ?_⟩
    · refine trip_sub_pb c i arg2 harg2 arg3 harg3 arg4 harg4 arg5 harg5 arg6 harg6 arg7 harg7 arg8 harg8 arg9 harg9 v0 v2 X2 X4 ⟨a.val / 8, ha⟩ _ ?_ hN _ ?_
      · show a.val / 8 < k2_t1_loop.trips
        exact ha
      · rw [tripL_eq]; exact List.mem_singleton_self _
    · have h2 : k2_off2 ⟨a.val / 8, ha⟩ 0 = 512 * (a.val / 8) := congrFun (k2_off2_eq ⟨a.val / 8, ha⟩) 0
      have h2' : k2_off2 ⟨a.val / 8, ha⟩ 1 = 0 := congrFun (k2_off2_eq ⟨a.val / 8, ha⟩) 1
      show (ix2 (⟨64 * a.val + b.val, by have := a.isLt; have := b.isLt; omega⟩ : Fin 4096) o : S4096x300.Idx)
        ∈ (Rect.unit (s := S4096x300) (k2_off2 ⟨a.val / 8, ha⟩) S512x300.size (k2_off2_inb ⟨a.val / 8, ha⟩)).set
      rw [Rect.mem_set_unit]
      intro d
      match d with
      | ⟨0, _⟩ =>
        show k2_off2 ⟨a.val / 8, ha⟩ 0 ≤ 64 * a.val + b.val ∧ 64 * a.val + b.val < k2_off2 ⟨a.val / 8, ha⟩ 0 + 512
        rw [h2]; have := a.isLt; have := b.isLt; omega
      | ⟨1, _⟩ =>
        show k2_off2 ⟨a.val / 8, ha⟩ 1 ≤ o.val ∧ o.val < k2_off2 ⟨a.val / 8, ha⟩ 1 + 300
        rw [h2']; have := o.isLt; omega

end Cert.KernelIdeal.Hand

end
-- ==== Proof.KI.FusedOut.lean ====
/- What a grid point of the pairwise kernel leaves in its output block, at an entry: the last linear layer applied to
   the scratch's row for the pair (a, b) — the two rectified sums of row a of the row-tile blocks and row b of the
   column-tile blocks — plus the bias row. -/
import proofs.«179407_j89060441850130_2_alg».proof.Proof.KI.Fused
import proofs.«179407_j89060441850130_2_alg».proof.Proof.KI.FusedScr

set_option maxRecDepth 16384

noncomputable section

open scoped BigOperators

namespace Cert.KernelIdeal.Hand

open Idealize.ShloMosaic Idealize.ShloMosaic.TcCoe Idealize.ShloMosaic.Tactic Idealize.SL.Sem
open Idealize.ShloMosaic.ValueIdx
open Cert.KernelIdeal Cert.KernelIdeal.Gen

/-- The zero offset of a whole rank-2 block, -/
theorem fz00 : (![0, 0] : Fin 2 → Nat) = fun _ => 0 := funext fun a => by fin_cases a <;> rfl
/-- and of a whole rank-3 block. -/
theorem fz000 : (![0, 0, 0] : Fin 3 → Nat) = fun _ => 0 := funext fun a => by fin_cases a <;> rfl

/-- The output block's staging buffer after the body, at the pair (a, b) and coordinate p. -/
theorem out2_6_apply (c : Dev nD) (i : grid2.Coords) (arg2 : Memref sig .tc .vmem S64x300 .f32) (harg2 : arg2.IsWhole) (arg3 : Memref sig .tc .vmem S64x300 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S1x300 .f32) (harg6 : arg6.IsWhole) (arg7 : Memref sig .tc .vmem S300x300 .bf16) (harg7 : arg7.IsWhole) (arg8 : Memref sig .tc .vmem S64x64x300 .f32) (harg8 : arg8.IsWhole) (arg9 : Memref sig .tc .vmem S4096x300 .bf16) (harg9 : arg9.IsWhole) (x0 x1 x2 x3 : Vec Ideal S64x300 .f32) (x4 : Vec Ideal S1x300 .f32) (x5 : Vec Ideal S300x300 .bf16) (a b : Fin 64) (p : Fin 300) :
    out2_6 (F := Ideal) c i arg2 harg2 arg3 harg3 arg4 harg4 arg5 harg5 arg6 harg6 arg7 harg7 arg8 harg8 arg9 harg9 x0 x1 x2 x3 x4 x5 (ix3 a b p)
      = (∑ o : Fin 300, (max (x0 (ix2 a o) + x1 (ix2 b o)) 0 + max (x2 (ix2 a o) + x3 (ix2 b o)) 0) * x5 (ix2 o p))
        + x4 (ix2 0 p) := by
  unfold out2_6
  rw [View.canon_unit_zero fz000, k2_pay2_apply]
  rw [View.readAt_eq_ld, View.readAt_eq_ld, harg7.read_unread, harg6.read_unread,
    View.ld_unit_zero (S := S300x300) fz00, View.ld_unit_zero (S := S1x300) fz00,
    View.ld_unit_zero (S := S4096x300) fz00]
  refine congrArg (· + x4 (ix2 0 p)) (Finset.sum_congr rfl fun o _ => ?_)
  refine congrArg (· * x5 (ix2 o p)) ?_
  unfold scr2
  refine (scr_apply c i arg2 harg2 arg3 harg3 arg4 harg4 arg5 harg5 arg6 harg6 arg7 harg7 arg8 harg8 arg9 harg9
    (View.readAt (Elt Ideal) arg3.view (Rect.unit (s := S64x300) ![0, 0] S64x300.size inb_S64x300_S64x300_0_0).toLoadRect (harg3.unread x1))
    (View.readAt (Elt Ideal) arg5.view (Rect.unit (s := S64x300) ![0, 0] S64x300.size inb_S64x300_S64x300_0_0).toLoadRect (harg5.unread x3))
    (harg2.unread x0) (harg4.unread x2) a b o).trans ?_
  rw [harg2.read_unread, harg4.read_unread, View.readAt_eq_ld, View.readAt_eq_ld, harg3.read_unread, harg5.read_unread,
    View.ld_unit_zero (S := S64x300) fz00, View.ld_unit_zero (S := S64x300) fz00]

end Cert.KernelIdeal.Hand

end
-- ==== Proof.KI.FusedArr.lean ====
/- From blocks to the array for the pairwise kernel at the ideal values: the result array after the region, at an entry,
   as a sum over the contracted axis of the arrays the region finds. -/
import proofs.«179407_j89060441850130_2_alg».proof.Proof.KI.Fused
import proofs.«179407_j89060441850130_2_alg».proof.Proof.KI.FusedOut

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The result at an entry (n, m, p), from whole arrays: over the contracted axis, the sum of the two rectified pairwise sums
    of row n of the first and third array with row m of the second and fourth, times column p of the weight array; plus the bias. -/
def P6 (a0 a1 a2 a3 : S384x300.Idx → EReal) (a4 : S1x300.Idx → EReal) (a5 : S300x300.Idx → EReal) (n m : Fin 384) (p : Fin 300) : EReal :=
  (∑ o : Fin 300, (max (a0 (ix2 n o) + a1 (ix2 m o)) 0 + max (a2 (ix2 n o) + a3 (ix2 m o)) 0) * a5 (ix2 o p)) + a4 (ix2 0 p)

theorem P6_def (a0 a1 a2 a3 : S384x300.Idx → EReal) (a4 : S1x300.Idx → EReal) (a5 : S300x300.Idx → EReal) (n m : Fin 384) (p : Fin 300) :
    P6 a0 a1 a2 a3 a4 a5 n m p = (∑ o : Fin 300, (max (a0 (ix2 n o) + a1 (ix2 m o)) 0 + max (a2 (ix2 n o) + a3 (ix2 m o)) 0) * a5 (ix2 o p)) + a4 (ix2 0 p) := rfl

/-- Every pair of block indices of the result is some grid point's, and the last block index is always zero (decided over the grid). -/
theorem idx_onto2_6 : ∀ q0 q1 : Fin 6, ∃ t : Fin cfg2.N, win2_6.index t = ![q0.val, q1.val, 0] :=
  (by decide +kernel : ∀ q0 q1 : Fin 6, ∃ t : Fin grid2.N, win2_6.index t = ![q0.val, q1.val, 0])
theorem idx2_6_last : ∀ t : Fin cfg2.N, win2_6.index t (2 : Fin 3) = 0 :=
  (by decide +kernel : ∀ t : Fin grid2.N, win2_6.index t (2 : Fin 3) = 0)

/-- Window 4 is resident: its block is its whole array at every point. -/
theorem iblk2_4_eq (c : Dev nD) (t : Fin cfg2.N) : iblk2 (F := Ideal) V c 4 t = V c (Pipeline.arrRef spec2 4) := by
  obtain ⟨e0, e1⟩ : win2_4.index t (0 : Fin 2) = 0 ∧ win2_4.index t (1 : Fin 2) = 0 :=
    (by decide +kernel : ∀ t : Fin grid2.N, win2_4.index t (0 : Fin 2) = 0 ∧ win2_4.index t (1 : Fin 2) = 0) t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 300 + 1 * (y 1).val = (y 1).val; omega

/-- Window 5 is resident: its block is its whole array at every point. -/
theorem iblk2_5_eq (c : Dev nD) (t : Fin cfg2.N) : iblk2 (F := Ideal) V c 5 t = V c (Pipeline.arrRef spec2 5) := by
  obtain ⟨e0, e1⟩ : win2_5.index t (0 : Fin 2) = 0 ∧ win2_5.index t (1 : Fin 2) = 0 :=
    (by decide +kernel : ∀ t : Fin grid2.N, win2_5.index t (0 : Fin 2) = 0 ∧ win2_5.index t (1 : Fin 2) = 0) t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 300 + 1 * (y 0).val = (y 0).val; omega
  | ⟨1, _⟩ => show win2_5.index t (1 : Fin 2) * 300 + 1 * (y 1).val = (y 1).val; omega

/-- Window 0's block at a point is the rows of its array under the output block's row tile. -/
theorem iblk2_0_apply (c : Dev nD) (t : Fin cfg2.N) (r : Fin 64) (q : Fin 300) (n : Fin 384) (hn : n.val = win2_6.index t (0 : Fin 3) * 64 + r.val) :
    iblk2 (F := Ideal) V c 0 t (ix2 r q) = V c (Pipeline.arrRef spec2 0) (ix2 n q) := by
  obtain ⟨e0, e1⟩ : win2_0.index t (0 : Fin 2) = win2_6.index t (0 : Fin 3) ∧ win2_0.index t (1 : Fin 2) = 0 :=
    (by decide +kernel : ∀ t : Fin grid2.N, win2_0.index t (0 : Fin 2) = win2_6.index t (0 : Fin 3) ∧ win2_0.index t (1 : Fin 2) = 0) t
  show V c (Pipeline.arrRef spec2 0) (((cfg2.win 0).blk t).view.emb (ix2 r q)) = V c (Pipeline.arrRef spec2 0) (ix2 n q)
  refine congrArg _ (funext fun a => Fin.ext ?_)
  match a with
  | ⟨0, _⟩ => show win2_0.index t (0 : Fin 2) * 64 + 1 * r.val = n.val; omega
  | ⟨1, _⟩ => show win2_0.index t (1 : Fin 2) * 300 + 1 * q.val = q.val; omega

/-- Window 2's block at a point is the rows of its array under the output block's row tile. -/
theorem iblk2_2_apply (c : Dev nD) (t : Fin cfg2.N) (r : Fin 64) (q : Fin 300) (n : Fin 384) (hn : n.val = win2_6.index t (0 : Fin 3) * 64 + r.val) :
    iblk2 (F := Ideal) V c 2 t (ix2 r q) = V c (Pipeline.arrRef spec2 2) (ix2 n q) := by
  obtain ⟨e0, e1⟩ : win2_2.index t (0 : Fin 2) = win2_6.index t (0 : Fin 3) ∧ win2_2.index t (1 : Fin 2) = 0 :=
    (by decide +kernel : ∀ t : Fin grid2.N, win2_2.index t (0 : Fin 2) = win2_6.index t (0 : Fin 3) ∧ win2_2.index t (1 : Fin 2) = 0) t
  show V c (Pipeline.arrRef spec2 2) (((cfg2.win 2).blk t).view.emb (ix2 r q)) = V c (Pipeline.arrRef spec2 2) (ix2 n q)
  refine congrArg _ (funext fun a => Fin.ext ?_)
  match a with
  | ⟨0, _⟩ => show win2_2.index t (0 : Fin 2) * 64 + 1 * r.val = n.val; omega
  | ⟨1, _⟩ => show win2_2.index t (1 : Fin 2) * 300 + 1 * q.val = q.val; omega

/-- Window 1's block at a point is the rows of its array under the output block's column tile. -/
theorem iblk2_1_apply (c : Dev nD) (t : Fin cfg2.N) (r : Fin 64) (q : Fin 300) (n : Fin 384) (hn : n.val = win2_6.index t (1 : Fin 3) * 64 + r.val) :
    iblk2 (F := Ideal) V c 1 t (ix2 r q) = V c (Pipeline.arrRef spec2 1) (ix2 n q) := by
  obtain ⟨e0, e1⟩ : win2_1.index t (0 : Fin 2) = win2_6.index t (1 : Fin 3) ∧ win2_1.index t (1 : Fin 2) = 0 :=
    (by decide +kernel : ∀ t : Fin grid2.N, win2_1.index t (0 : Fin 2) = win2_6.index t (1 : Fin 3) ∧ win2_1.index t (1 : Fin 2) = 0) t
  show V c (Pipeline.arrRef spec2 1) (((cfg2.win 1).blk t).view.emb (ix2 r q)) = V c (Pipeline.arrRef spec2 1) (ix2 n q)
  refine congrArg _ (funext fun a => Fin.ext ?_)
  match a with
  | ⟨0, _⟩ => show win2_1.index t (0 : Fin 2) * 64 + 1 * r.val = n.val; omega
  | ⟨1, _⟩ => show win2_1.index t (1 : Fin 2) * 300 + 1 * q.val = q.val; omega

/-- Window 3's block at a point is the rows of its array under the output block's column tile. -/
theorem iblk2_3_apply (c : Dev nD) (t : Fin cfg2.N) (r : Fin 64) (q : Fin 300) (n : Fin 384) (hn : n.val = win2_6.index t (1 : Fin 3) * 64 + r.val) :
    iblk2 (F := Ideal) V c 3 t (ix2 r q) = V c (Pipeline.arrRef spec2 3) (ix2 n q) := by
  obtain ⟨e0, e1⟩ : win2_3.index t (0 : Fin 2) = win2_6.index t (1 : Fin 3) ∧ win2_3.index t (1 : Fin 2) = 0 :=
    (by decide +kernel : ∀ t : Fin grid2.N, win2_3.index t (0 : Fin 2) = win2_6.index t (1 : Fin 3) ∧ win2_3.index t (1 : Fin 2) = 0) t
  show V c (Pipeline.arrRef spec2 3) (((cfg2.win 3).blk t).view.emb (ix2 r q)) = V c (Pipeline.arrRef spec2 3) (ix2 n q)
  refine congrArg _ (funext fun a => Fin.ext ?_)
  match a with
  | ⟨0, _⟩ => show win2_3.index t (0 : Fin 2) * 64 + 1 * r.val = n.val; omega
  | ⟨1, _⟩ => show win2_3.index t (1 : Fin 2) * 300 + 1 * q.val = q.val; omega

/-- What the result array ends holding, as one function of the arrays the region finds. -/
def G2_6 (c : Dev nD) : S384x384x300.Idx → Elt Ideal .f32 := fun i =>
  P6 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    ⟨(i 0).val, idx3_lt0 i⟩ ⟨(i 1).val, idx3_lt1 i⟩ ⟨(i 2).val, idx3_lt2 i⟩

/-- What point `t` writes back to the result array is block `t` of that function. -/
theorem flushed2_6_eq (c : Dev nD) (t : Fin cfg2.N) :
    (dat2 (F := Ideal) V c).flushed 6 t = ((cfg2.win 6).blk t).view.read (Elt Ideal) (G2_6 V c) := by
  show (cfg2.win 6).cut (grid2.coords t) ((dat2 V c).after 6 t) = _
  rw [after2_6]
  have e2 := idx2_6_last t
  funext j
  obtain ⟨a, b, p, rfl⟩ : ∃ (a b : Fin 64) (p : Fin 300), j = ix3 a b p := ⟨j 0, j 1, j 2, eq_ix3 j⟩
  show outAt2 V c t (ix3 a b p) = G2_6 V c (((cfg2.win 6).blk t).view.emb (ix3 a b p))
  unfold outAt2
  rw [out2_6_apply, iblk2_4_eq, iblk2_5_eq]
  unfold G2_6 P6
  have hn : ((((cfg2.win 6).blk t).view.emb (ix3 a b p)) 0).val = win2_6.index t (0 : Fin 3) * 64 + a.val := by
    show win2_6.index t (0 : Fin 3) * 64 + 1 * a.val = _; omega
  have hm : ((((cfg2.win 6).blk t).view.emb (ix3 a b p)) 1).val = win2_6.index t (1 : Fin 3) * 64 + b.val := by
    show win2_6.index t (1 : Fin 3) * 64 + 1 * b.val = _; omega
  have hp : (⟨((((cfg2.win 6).blk t).view.emb (ix3 a b p)) 2).val, idx3_lt2 _⟩ : Fin 300) = p := Fin.ext (by
    show win2_6.index t (2 : Fin 3) * 300 + 1 * p.val = p.val; omega)
  rw [hp]
  simp only [iblk2_0_apply V c t a _ ⟨((((cfg2.win 6).blk t).view.emb (ix3 a b p)) 0).val, idx3_lt0 _⟩ hn, iblk2_2_apply V c t a _ ⟨((((cfg2.win 6).blk t).view.emb (ix3 a b p)) 0).val, idx3_lt0 _⟩ hn,
    iblk2_1_apply V c t b _ ⟨((((cfg2.win 6).blk t).view.emb (ix3 a b p)) 1).val, idx3_lt1 _⟩ hm, iblk2_3_apply V c t b _ ⟨((((cfg2.win 6).blk t).view.emb (ix3 a b p)) 1).val, idx3_lt1 _⟩ hm]

/-- An index of the result array is in point `t`'s block iff each coordinate is in the block's range. -/
theorem mem_blk2_6 (t : Fin cfg2.N) (i : S384x384x300.Idx) :
    i ∈ ((cfg2.win 6).blk t).view.set ↔ ∀ a : Fin 3, win2_6.index t a * S64x64x300.size a ≤ (i a).val ∧ (i a).val < win2_6.index t a * S64x64x300.size a + S64x64x300.size a := by
  show i ∈ ((View.whole main_v40).slice (win2_6.rect t)).set ↔ _
  rw [View.set_slice_whole, Rect.mem_set_unit]
  exact Iff.rfl

/-- The result's blocks tile its array: entry (n, m, ·) is in the block of the point with block indices n / 64 and m / 64. -/
theorem cover2_arr_6 (i : S384x384x300.Idx) : ∃ t : Fin cfg2.N, (cfg2.win 6).flush t = true ∧ i ∈ ((cfg2.win 6).blk t).view.set := by
  have hi0 : (i 0).val < 384 := idx3_lt0 i
  have hi1 : (i 1).val < 384 := idx3_lt1 i
  have hi2 : (i 2).val < 300 := idx3_lt2 i
  obtain ⟨t, ht⟩ := idx_onto2_6 ⟨(i 0).val / 64, by omega⟩ ⟨(i 1).val / 64, by omega⟩
  have q0 : win2_6.index t (0 : Fin 3) = (i 0).val / 64 := congrFun ht 0
  have q1 : win2_6.index t (1 : Fin 3) = (i 1).val / 64 := congrFun ht 1
  have q2 : win2_6.index t (2 : Fin 3) = 0 := congrFun ht 2
  refine ⟨t, flush2_6 t, ?_⟩
  rw [mem_blk2_6]
  intro a
  match a with
  | ⟨0, _⟩ => show win2_6.index t (0 : Fin 3) * 64 ≤ (i 0).val ∧ (i 0).val < win2_6.index t (0 : Fin 3) * 64 + 64; omega
  | ⟨1, _⟩ => show win2_6.index t (1 : Fin 3) * 64 ≤ (i 1).val ∧ (i 1).val < win2_6.index t (1 : Fin 3) * 64 + 64; omega
  | ⟨2, _⟩ => show win2_6.index t (2 : Fin 3) * 300 ≤ (i 2).val ∧ (i 2).val < win2_6.index t (2 : Fin 3) * 300 + 300; omega

/-- The result array after the region, at an entry. -/
theorem arr2_6 (c : Dev nD) (n m : Fin 384) (p : Fin 300) : (dat2 (F := Ideal) V c).arrAt 6 cfg2.N (ix3 n m p)
    = P6 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) n m p :=
  congrFun ((dat2 (F := Ideal) V c).arrAt_eq_of_cover 6 (G2_6 V c) (fun t _ => flushed2_6_eq V c t) cover2_arr_6) (ix3 n m p)

end Cert.KernelIdeal.Hand

end
-- ==== Proof.Spec.lean ====
/-
  The value specification of the pairwise relation head, over plain functions of coordinates into the
  extended reals, and the algebraic law joining its two shapes.

  Two row sets (384 rows each) carry a feature vector (1935 entries, gated entrywise by a logistic and
  projected to 300 coordinates by an embedding matrix) and a box (5 entries). A first linear layer acts on
  the concatenation of the two rows' embedded features (its weight matrix has 600 = 300 + 300 columns: the
  first 300 multiply the first row's embedding, the last 300 the second's), a second one on the concatenation
  of the two boxes (10 = 5 + 5 columns); each is followed by a rectifier and scaled by a nonnegative mixing
  weight, and a third linear layer acts on the sum.

  `Gk` scales BEFORE the rectifier and splits each first-layer sum into a per-row part that carries the bias and
  a per-row part that carries none; `Gr` adds the two halves, then the bias, rectifies, and scales after. On the
  extended reals the two agree when every entry is a real number and the mixing weights are nonnegative reals
  (distributivity fails at the infinities, so finiteness is a hypothesis, not a convenience).
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-! ## The two halves of a concatenated axis -/

/-- Column `d` of the first half of a 600-column matrix. -/
abbrev lo300 (d : Fin 300) : Fin 600 := ⟨d.val, by have := d.isLt; omega⟩
/-- Column `d` of the second half of a 600-column matrix. -/
abbrev hi300 (d : Fin 300) : Fin 600 := ⟨300 + d.val, by have := d.isLt; omega⟩
/-- Column `j` of the first half of a 10-column matrix. -/
abbrev lo5 (j : Fin 5) : Fin 10 := ⟨j.val, by have := j.isLt; omega⟩
/-- Column `j` of the second half of a 10-column matrix. -/
abbrev hi5 (j : Fin 5) : Fin 10 := ⟨5 + j.val, by have := j.isLt; omega⟩

/-! ## The layers -/

/-- The gated, embedded features: `Σ_k (feature[n,k] · σ(gate[k])) · emb[k,d]`. -/
def feat (feature : Fin 384 → Fin 1935 → EReal) (gate : Fin 1935 → EReal) (emb : Fin 1935 → Fin 300 → EReal)
    (n : Fin 384) (d : Fin 300) : EReal :=
  ∑ k : Fin 1935, (feature n k * Ideal.logistic (gate k)) * emb k d

/-- A row's product with the first 300 columns of the first layer's weights: `Σ_d f[n,d] · w[o,d]`. -/
def projLo (f : Fin 384 → Fin 300 → EReal) (w : Fin 300 → Fin 600 → EReal) (n : Fin 384) (o : Fin 300) : EReal :=
  ∑ d : Fin 300, f n d * w o (lo300 d)
/-- A row's product with the last 300 columns of the first layer's weights: `Σ_d f[m,d] · w[o,300+d]`. -/
def projHi (f : Fin 384 → Fin 300 → EReal) (w : Fin 300 → Fin 600 → EReal) (m : Fin 384) (o : Fin 300) : EReal :=
  ∑ d : Fin 300, f m d * w o (hi300 d)
/-- A box's product with the first 5 columns of the second layer's weights: `Σ_j box[n,j] · w[o,j]`. -/
def boxLo (b : Fin 384 → Fin 5 → EReal) (w : Fin 300 → Fin 10 → EReal) (n : Fin 384) (o : Fin 300) : EReal :=
  ∑ j : Fin 5, b n j * w o (lo5 j)
/-- A box's product with the last 5 columns of the second layer's weights: `Σ_j box[m,j] · w[o,5+j]`. -/
def boxHi (b : Fin 384 → Fin 5 → EReal) (w : Fin 300 → Fin 10 → EReal) (m : Fin 384) (o : Fin 300) : EReal :=
  ∑ j : Fin 5, b m j * w o (hi5 j)

/-- The first row's scaled share of the first layer, bias included: `w0 · ((Σ_d f1[n,d] · fc1_w[o,d]) + fc1_b[o])`. -/
def semA (f1 : Fin 384 → Fin 300 → EReal) (fc1_w : Fin 300 → Fin 600 → EReal) (fc1_b : Fin 300 → EReal) (w0 : EReal)
    (n : Fin 384) (o : Fin 300) : EReal :=
  w0 * (projLo f1 fc1_w n o + fc1_b o)
/-- The second row's scaled share of the first layer, no bias: `w0 · ((Σ_d f2[m,d] · fc1_w[o,300+d]) + 0)`. -/
def semB (f2 : Fin 384 → Fin 300 → EReal) (fc1_w : Fin 300 → Fin 600 → EReal) (w0 : EReal)
    (m : Fin 384) (o : Fin 300) : EReal :=
  w0 * (projHi f2 fc1_w m o + 0)
/-- The first box's scaled share of the second layer, bias included: `w1 · ((Σ_j box1[n,j] · fc2_w[o,j]) + fc2_b[o])`. -/
def spatA (box1 : Fin 384 → Fin 5 → EReal) (fc2_w : Fin 300 → Fin 10 → EReal) (fc2_b : Fin 300 → EReal) (w1 : EReal)
    (n : Fin 384) (o : Fin 300) : EReal :=
  w1 * (boxLo box1 fc2_w n o + fc2_b o)
/-- The second box's scaled share of the second layer, no bias: `w1 · ((Σ_j box2[m,j] · fc2_w[o,5+j]) + 0)`. -/
def spatB (box2 : Fin 384 → Fin 5 → EReal) (fc2_w : Fin 300 → Fin 10 → EReal) (w1 : EReal)
    (m : Fin 384) (o : Fin 300) : EReal :=
  w1 * (boxHi box2 fc2_w m o + 0)

/-- The sum of the two rectified, already scaled layers at a pair of rows. -/
def mixed (sA sB pA pB : Fin 384 → Fin 300 → EReal) (n m : Fin 384) (o : Fin 300) : EReal :=
  max (sA n o + sB m o) 0 + max (pA n o + pB m o) 0

/-- Scale first, rectify after, the two rows' shares computed apart. -/
def Gk (feature1 : Fin 384 → Fin 1935 → EReal) (box1 : Fin 384 → Fin 5 → EReal)
    (feature2 : Fin 384 → Fin 1935 → EReal) (box2 : Fin 384 → Fin 5 → EReal)
    (emb : Fin 1935 → Fin 300 → EReal) (gate1 gate2 : Fin 1935 → EReal)
    (fc1_w : Fin 300 → Fin 600 → EReal) (fc1_b : Fin 300 → EReal)
    (fc2_w : Fin 300 → Fin 10 → EReal) (fc2_b : Fin 300 → EReal)
    (fc3_w : Fin 300 → Fin 300 → EReal) (fc3_b : Fin 300 → EReal) (w0 w1 : EReal)
    (n m : Fin 384) (p : Fin 300) : EReal :=
  (∑ o : Fin 300,
      mixed (semA (feat feature1 gate1 emb) fc1_w fc1_b w0) (semB (feat feature2 gate2 emb) fc1_w w0)
        (spatA box1 fc2_w fc2_b w1) (spatB box2 fc2_w w1) n m o * fc3_w p o) + fc3_b p

/-- Add the two rows' shares, then the bias, rectify, and scale after. -/
def Gr (feature1 : Fin 384 → Fin 1935 → EReal) (box1 : Fin 384 → Fin 5 → EReal)
    (feature2 : Fin 384 → Fin 1935 → EReal) (box2 : Fin 384 → Fin 5 → EReal)
    (emb : Fin 1935 → Fin 300 → EReal) (gate1 gate2 : Fin 1935 → EReal)
    (fc1_w : Fin 300 → Fin 600 → EReal) (fc1_b : Fin 300 → EReal)
    (fc2_w : Fin 300 → Fin 10 → EReal) (fc2_b : Fin 300 → EReal)
    (fc3_w : Fin 300 → Fin 300 → EReal) (fc3_b : Fin 300 → EReal) (w0 w1 : EReal)
    (n m : Fin 384) (p : Fin 300) : EReal :=
  (∑ o : Fin 300,
      (w0 * max ((projLo (feat feature1 gate1 emb) fc1_w n o + projHi (feat feature2 gate2 emb) fc1_w m o) + fc1_b o) 0
        + w1 * max ((boxLo box1 fc2_w n o + boxHi box2 fc2_w m o) + fc2_b o) 0) * fc3_w p o) + fc3_b p

end Cert.Spec

end
-- ==== Proof.KI.Glue.lean ====
/- The three calls' array formulas, with what the host stretch put in each operand, are the specification's
   scale-then-rectify formula: the first two calls compute, per row, the scaled shares of the two linear layers (the first
   row set's with the biases, the second's with none), and the third adds the shares of a pair of rows, rectifies, and
   applies the last linear layer. -/
import proofs.«179407_j89060441850130_2_alg».proof.Proof.KI.ProjArr
import proofs.«179407_j89060441850130_2_alg».proof.Proof.KI.FusedArr
import proofs.«179407_j89060441850130_2_alg».proof.Proof.Spec

set_option maxRecDepth 16384

noncomputable section

open scoped BigOperators

namespace Cert.KernelIdeal.Hand

open Idealize.ShloMosaic Idealize.ShloMosaic.ValueIdx
open Cert.KernelIdeal

theorem glue
    (f1 f2 : S384x1935.Idx → EReal) (b1 b2 : S384x5.Idx → EReal) (emb : S1935x300.Idx → EReal) (g1 g2 : S1935.Idx → EReal)
    (fc1w : S300x600.Idx → EReal) (fc1b : S300.Idx → EReal) (fc2w : S300x10.Idx → EReal) (fc2b : S300.Idx → EReal)
    (fc3w : S300x300.Idx → EReal) (fc3b : S300.Idx → EReal) (w0 w1 : EReal)
    (v0 v1 : S1x1935.Idx → EReal) (v10 : S1935x300.Idx → EReal) (v11 v12 : S300x300.Idx → EReal) (v13 v14 : S5x300.Idx → EReal)
    (v16 : S300x300.Idx → EReal) (v17 v18 v19 v20 v21 : S1x300.Idx → EReal) (v34 v37 : S1x1.Idx → EReal)
    (h0 : ∀ k : Fin 1935, v0 (ix2 0 k) = g1 (ix1 k)) (h1 : ∀ k : Fin 1935, v1 (ix2 0 k) = g2 (ix1 k))
    (h10 : ∀ (k : Fin 1935) (d : Fin 300), v10 (ix2 k d) = emb (ix2 k d))
    (h11 : ∀ d o : Fin 300, v11 (ix2 d o) = fc1w (ix2 o (Cert.Spec.lo300 d)))
    (h12 : ∀ d o : Fin 300, v12 (ix2 d o) = fc1w (ix2 o (Cert.Spec.hi300 d)))
    (h13 : ∀ (j : Fin 5) (o : Fin 300), v13 (ix2 j o) = fc2w (ix2 o (Cert.Spec.lo5 j)))
    (h14 : ∀ (j : Fin 5) (o : Fin 300), v14 (ix2 j o) = fc2w (ix2 o (Cert.Spec.hi5 j)))
    (h16 : ∀ o p : Fin 300, v16 (ix2 o p) = fc3w (ix2 p o))
    (h17 : ∀ o : Fin 300, v17 (ix2 0 o) = fc1b (ix1 o)) (h18 : ∀ o : Fin 300, v18 (ix2 0 o) = fc2b (ix1 o))
    (h19 : ∀ p : Fin 300, v19 (ix2 0 p) = fc3b (ix1 p))
    (h20 : ∀ o : Fin 300, v20 (ix2 0 o) = 0) (h21 : ∀ o : Fin 300, v21 (ix2 0 o) = 0)
    (h34 : v34 (ix2 0 0) = w0) (h37 : v37 (ix2 0 0) = w1)
    (S0 S1 T0 T1 : S384x300.Idx → EReal)
    (hS0 : ∀ (n : Fin 384) (o : Fin 300), S0 (ix2 n o) = P10 f1 v0 v10 v11 v34 v17 n o)
    (hT0 : ∀ (n : Fin 384) (o : Fin 300), T0 (ix2 n o) = P11 b1 v13 v37 v18 n o)
    (hS1 : ∀ (n : Fin 384) (o : Fin 300), S1 (ix2 n o) = P10 f2 v1 v10 v12 v34 v20 n o)
    (hT1 : ∀ (n : Fin 384) (o : Fin 300), T1 (ix2 n o) = P11 b2 v14 v37 v21 n o)
    (n m : Fin 384) (p : Fin 300) :
    P6 S0 S1 T0 T1 v19 v16 n m p
      = Cert.Spec.Gk (fun a b => f1 (ix2 a b)) (fun a b => b1 (ix2 a b)) (fun a b => f2 (ix2 a b)) (fun a b => b2 (ix2 a b))
          (fun a b => emb (ix2 a b)) (fun a => g1 (ix1 a)) (fun a => g2 (ix1 a)) (fun a b => fc1w (ix2 a b))
          (fun a => fc1b (ix1 a)) (fun a b => fc2w (ix2 a b)) (fun a => fc2b (ix1 a)) (fun a b => fc3w (ix2 a b))
          (fun a => fc3b (ix1 a)) w0 w1 n m p := by
  rw [P6_def]
  unfold Cert.Spec.Gk Cert.Spec.mixed Cert.Spec.semA Cert.Spec.semB Cert.Spec.spatA Cert.Spec.spatB Cert.Spec.projLo
    Cert.Spec.projHi Cert.Spec.boxLo Cert.Spec.boxHi Cert.Spec.feat
  simp only [hS0, hS1, hT0, hT1, P10_def, P11_def, h0, h1, h10, h11, h12, h13, h14, h16, h17, h18, h19, h20, h21, h34, h37]

end Cert.KernelIdeal.Hand

end
-- ==== Proof.Softmax.lean ====
/-
  The mixing weights: a two-entry softmax, written once over the host operations both programs spell it with
  (subtract the maximum, exponentiate, divide by the sum), and the one fact the value proof uses of it: for a
  real-valued argument each entry is a nonnegative real (an exponential of a real difference over a positive
  real sum).
-/
import Idealize.ShloMosaic.Lib.StableHlo
import Idealize.ShloMosaic.PureOps
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

abbrev S2 : Shape := ⟨1, ![2]⟩
abbrev S1 : Shape := ⟨1, ![1]⟩
abbrev S_ : Shape := ⟨0, ![]⟩

theorem reducesTo_S2_S_ : S2.ReducesTo [0] S_ := by decide
theorem pos_S_ : 0 < S_.numel := by decide
theorem bcast_S_S1 : S_.BroadcastsInDim S1 (![] : Fin 0 → Fin S1.rank) := by decide
theorem bcast_S1_S2 : S1.BroadcastsInDim S2 (![0] : Fin 1 → Fin S2.rank) := by decide

/-- The maximum of the entries (as the host computes it: a fold from minus infinity, then once more against it). -/
def softmaxM (wl : FVec Ideal S2 .f32) : FVec Ideal S_ .f32 :=
  maximumf (constant (F := Ideal) S_ .f32 0xFF800000#32)
    (Host.reduce (FloatOps.maximumf (F := Ideal)) wl (constant (F := Ideal) S_ .f32 0xFF800000#32)
      reducesTo_S2_S_ pos_S_)

/-- The exponentials of the entries less their maximum. -/
def softmaxE (wl : FVec Ideal S2 .f32) : FVec Ideal S2 .f32 :=
  Host.exp (subf wl (broadcastInDim S2 ![0] bcast_S1_S2 (broadcastInDim S1 ![] bcast_S_S1 (softmaxM wl))))

/-- The sum of those exponentials. -/
def softmaxS (wl : FVec Ideal S2 .f32) : FVec Ideal S_ .f32 :=
  Host.reduceAdd (softmaxE wl) (constant (F := Ideal) S_ .f32 0x00000000#32) reducesTo_S2_S_ pos_S_

/-- The softmax of a two-entry array: each exponential over their sum. -/
def softmaxW (wl : FVec Ideal S2 .f32) : FVec Ideal S2 .f32 :=
  Host.divf (softmaxE wl) (broadcastInDim S2 ![0] bcast_S1_S2 (broadcastInDim S1 ![] bcast_S_S1 (softmaxS wl)))

/-- A scalar broadcast to one entry and then to two reads the scalar. -/
theorem bcast2_apply {α : Type} (y : S_.Idx → α) (i : S2.Idx) :
    broadcastInDim S2 ![0] bcast_S1_S2 (broadcastInDim S1 ![] bcast_S_S1 y) i = y ix0 := by
  unfold broadcastInDim
  exact congrArg y (funext fun a => a.elim0)

theorem softmaxE_apply (wl : FVec Ideal S2 .f32) (i : S2.Idx) :
    softmaxE wl i = Ideal.exp (wl i - softmaxM wl ix0) := by
  show Ideal.exp (wl i - broadcastInDim S2 ![0] bcast_S1_S2 (broadcastInDim S1 ![] bcast_S_S1 (softmaxM wl)) i) = _
  rw [bcast2_apply]

theorem softmaxW_apply (wl : FVec Ideal S2 .f32) (i : S2.Idx) :
    softmaxW wl i = Ideal.div (softmaxE wl i) (softmaxS wl ix0) := by
  show Ideal.div (softmaxE wl i) (broadcastInDim S2 ![0] bcast_S1_S2 (broadcastInDim S1 ![] bcast_S_S1 (softmaxS wl)) i) = _
  rw [bcast2_apply]

/-- The pattern of minus infinity is the bottom of the extended reals. -/
theorem ofBits_neg_inf : Ideal.ofBits .f32 0xFF800000#32 = ⊥ := by simp [Ideal.ofBits, Ideal.ieee]

/-- A sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem softmaxM_eq (wl : FVec Ideal S2 .f32) :
    softmaxM wl ix0 = (Finset.univ : Finset S2.Idx).fold max ⊥ wl := by
  have hfold := Host.reduce_eq_fold (FloatOps.maximumf (F := Ideal) (φ := .f32)) wl
    (constant (F := Ideal) S_ .f32 0xFF800000#32) reducesTo_S2_S_ pos_S_ ix0
  rw [Finset.filter_true_of_mem (fun i _ => funext fun a => a.elim0)] at hfold
  show max (Ideal.ofBits .f32 0xFF800000#32) (Host.reduce (FloatOps.maximumf (F := Ideal)) wl
    (constant (F := Ideal) S_ .f32 0xFF800000#32) reducesTo_S2_S_ pos_S_ ix0) = _
  rw [hfold]
  show max (Ideal.ofBits .f32 0xFF800000#32) ((Finset.univ : Finset S2.Idx).fold max (Ideal.ofBits .f32 0xFF800000#32) wl) = _
  rw [ofBits_neg_inf, max_eq_right bot_le]

/-- The maximum of a real-valued two-entry array is a real. -/
theorem max_real (wl : FVec Ideal S2 .f32) (hwl : ∀ i, ∃ r : ℝ, wl i = (r : EReal)) :
    ∃ m : ℝ, softmaxM wl ix0 = (m : EReal) := by
  rw [softmaxM_eq]
  have hlt : (Finset.univ : Finset S2.Idx).fold max ⊥ wl < ⊤ := by
    rw [Finset.fold_max_lt]
    refine ⟨bot_lt_top, fun x _ => ?_⟩
    obtain ⟨r, hr⟩ := hwl x
    rw [hr]; exact EReal.coe_lt_top r
  have hgt : ⊥ < (Finset.univ : Finset S2.Idx).fold max ⊥ wl := by
    obtain ⟨r, hr⟩ := hwl (ix1 0)
    refine lt_of_lt_of_le (EReal.bot_lt_coe r) ?_
    rw [Finset.le_fold_max]
    exact Or.inr ⟨ix1 0, Finset.mem_univ _, by rw [hr]⟩
  exact ⟨_, (EReal.coe_toReal hlt.ne hgt.ne').symm⟩

/-- Each shifted exponential of a real-valued array is a positive real. -/
theorem softmaxE_pos (wl : FVec Ideal S2 .f32) (hwl : ∀ i, ∃ r : ℝ, wl i = (r : EReal)) (i : S2.Idx) :
    ∃ e : ℝ, 0 < e ∧ softmaxE wl i = (e : EReal) := by
  obtain ⟨m, hm⟩ := max_real wl hwl
  obtain ⟨r, hr⟩ := hwl i
  refine ⟨Real.exp (r - m), Real.exp_pos _, ?_⟩
  rw [softmaxE_apply, hm, hr, ← EReal.coe_sub, Ideal.exp_coe]

/-- For a real-valued argument each entry of the softmax is a nonnegative real. -/
theorem softmaxW_nonneg_real (wl : FVec Ideal S2 .f32) (hwl : ∀ i, ∃ r : ℝ, wl i = (r : EReal)) (i : S2.Idx) :
    ∃ r : ℝ, 0 ≤ r ∧ softmaxW wl i = (r : EReal) := by
  choose e he_pos he using softmaxE_pos wl hwl
  have hsum : softmaxS wl ix0 = ((∑ k : S2.Idx, e k : ℝ) : EReal) := by
    show Host.reduceAdd (softmaxE wl) (constant (F := Ideal) S_ .f32 0x00000000#32) reducesTo_S2_S_ pos_S_ ix0 = _
    rw [hostReduceAdd_apply, Ideal.hostReduceAdd_total reducesTo_S2_S_ (fun b => b.elim0)]
    show Ideal.ofBits .f32 0x00000000#32 + ∑ k : S2.Idx, softmaxE wl k = _
    rw [Ideal.ofBits_zero_f32, zero_add, ← coe_sum]
    exact Finset.sum_congr rfl fun k _ => he _
  have hne : (Finset.univ : Finset S2.Idx).Nonempty := ⟨ix1 0, Finset.mem_univ _⟩
  have hpos : 0 < ∑ k : S2.Idx, e k := Finset.sum_pos (fun k _ => he_pos _) hne
  refine ⟨e i * (1 / ∑ k : S2.Idx, e k), mul_nonneg (he_pos i).le (one_div_pos.mpr hpos).le, ?_⟩
  rw [softmaxW_apply, hsum, Ideal.div_coe hpos.ne', he i, EReal.coe_mul]

end Cert.Spec

end
-- ==== Proof.KI.HostStage.lean ====
/- What the host operations before the three calls leave in each operand, read at an entry, at the ideal values and
   over any contents of the buffers before them: reshapes add a unit axis, the weight halves are sliced and
   transposed, a narrowing format change is the identity on extended reals, the mixing weights are the two-entry
   softmax, and no argument is written. -/
import proofs.«179407_j89060441850130_2_alg».proof.Proof.Gen.KernelIdeal.Regions
import proofs.«179407_j89060441850130_2_alg».proof.Proof.Spec
import proofs.«179407_j89060441850130_2_alg».proof.Proof.Softmax
import Idealize.ShloMosaic.Lib.Pipeline.Value
import Idealize.ShloMosaic.Lib.ValueIdx
import Idealize.ShloMosaic.PureOps.Ideal.Laws

set_option maxRecDepth 16384
set_option maxHeartbeats 2000000

noncomputable section

namespace Cert.KernelIdeal.Hand

open Idealize.ShloMosaic Idealize.ShloMosaic.TcCoe Idealize.SL.Sem Idealize.ShloMosaic.StableHlo
open Idealize.ShloMosaic.ValueIdx
open Cert.KernelIdeal Cert.KernelIdeal.Gen

variable (W : Valuation τ sig (Elt Ideal))

/-! ## The reshaped rows -/

/-- `v0` is argument 5 with a leading unit axis. -/
theorem host_v0 (k : Fin 1935) :
    (StableHlo.after (hostOps0 (F := Ideal)) W (Proc.devRef .tc main_v0) : S1x1935.Idx → EReal) (ix2 0 k) = (W (Proc.devRef .tc main_arg5) : S1935.Idx → EReal) (ix1 k) := by
  have e : (StableHlo.after (hostOps0 (F := Ideal)) W (Proc.devRef .tc main_v0) : S1x1935.Idx → EReal)
      = shapeCast S1x1935 (W (Proc.devRef .tc main_arg5) : S1935.Idx → EReal) shapeCasts_S1935_S1x1935 := by
    after_results_simp; try rfl
  refine (congrFun e _).trans ?_
  exact shapeCast_apply _ _ (ix2 0 k) (ix1 k) (by
    rw [Shape.rowMajor_val_two, Shape.rowMajor_val_one]; show k.val = 0 * 1935 + k.val; omega)

/-- `v1` is argument 6 with a leading unit axis. -/
theorem host_v1 (k : Fin 1935) :
    (StableHlo.after (hostOps0 (F := Ideal)) W (Proc.devRef .tc main_v1) : S1x1935.Idx → EReal) (ix2 0 k) = (W (Proc.devRef .tc main_arg6) : S1935.Idx → EReal) (ix1 k) := by
  have e : (StableHlo.after (hostOps0 (F := Ideal)) W (Proc.devRef .tc main_v1) : S1x1935.Idx → EReal)
      = shapeCast S1x1935 (W (Proc.devRef .tc main_arg6) : S1935.Idx → EReal) shapeCasts_S1935_S1x1935 := by
    after_results_simp; try rfl
  refine (congrFun e _).trans ?_
  exact shapeCast_apply _ _ (ix2 0 k) (ix1 k) (by
    rw [Shape.rowMajor_val_two, Shape.rowMajor_val_one]; show k.val = 0 * 1935 + k.val; omega)

/-- `v17` is argument 9 with a leading unit axis. -/
theorem host_v17 (k : Fin 300) :
    (StableHlo.after (hostOps0 (F := Ideal)) W (Proc.devRef .tc main_v17) : S1x300.Idx → EReal) (ix2 0 k) = (W (Proc.devRef .tc main_arg9) : S300.Idx → EReal) (ix1 k) := by
  have e : (StableHlo.after (hostOps0 (F := Ideal)) W (Proc.devRef .tc main_v17) : S1x300.Idx → EReal)
      = shapeCast S1x300 (W (Proc.devRef .tc main_arg9) : S300.Idx → EReal) shapeCasts_S300_S1x300 := by
    after_results_simp; try rfl
  refine (congrFun e _).trans ?_
  exact shapeCast_apply _ _ (ix2 0 k) (ix1 k) (by
    rw [Shape.rowMajor_val_two, Shape.rowMajor_val_one]; show k.val = 0 * 300 + k.val; omega)

/-- `v18` is argument 11 with a leading unit axis. -/
theorem host_v18 (k : Fin 300) :
    (StableHlo.after (hostOps0 (F := Ideal)) W (Proc.devRef .tc main_v18) : S1x300.Idx → EReal) (ix2 0 k) = (W (Proc.devRef .tc main_arg11) : S300.Idx → EReal) (ix1 k) := by
  have e : (StableHlo.after (hostOps0 (F := Ideal)) W (Proc.devRef .tc main_v18) : S1x300.Idx → EReal)
      = shapeCast S1x300 (W (Proc.devRef .tc main_arg11) : S300.Idx → EReal) shapeCasts_S300_S1x300 := by
    after_results_simp; try rfl
  refine (congrFun e _).trans ?_
  exact shapeCast_apply _ _ (ix2 0 k) (ix1 k) (by
    rw [Shape.rowMajor_val_two, Shape.rowMajor_val_one]; show k.val = 0 * 300 + k.val; omega)

/-- `v19` is argument 13 with a leading unit axis. -/
theorem host_v19 (k : Fin 300) :
    (StableHlo.after (hostOps0 (F := Ideal)) W (Proc.devRef .tc main_v19) : S1x300.Idx → EReal) (ix2 0 k) = (W (Proc.devRef .tc main_arg13) : S300.Idx → EReal) (ix1 k) := by
  have e : (StableHlo.after (hostOps0 (F := Ideal)) W (Proc.devRef .tc main_v19) : S1x300.Idx → EReal)
      = shapeCast S1x300 (W (Proc.devRef .tc main_arg13) : S300.Idx → EReal) shapeCasts_S300_S1x300 := by
    after_results_simp; try rfl
  refine (congrFun e _).trans ?_
  exact shapeCast_apply _ _ (ix2 0 k) (ix1 k) (by
    rw [Shape.rowMajor_val_two, Shape.rowMajor_val_one]; show k.val = 0 * 300 + k.val; omega)

/-! ## The matrices: a narrowing format change is the identity -/

/-- `v10` is argument 4. -/
theorem host_v10 (k : Fin 1935) (d : Fin 300) :
    (StableHlo.after (hostOps0 (F := Ideal)) W (Proc.devRef .tc main_v10) : S1935x300.Idx → EReal) (ix2 k d) = (W (Proc.devRef .tc main_arg4) : S1935x300.Idx → EReal) (ix2 k d) := by
  have e : (StableHlo.after (hostOps0 (F := Ideal)) W (Proc.devRef .tc main_v10) : S1935x300.Idx → EReal)
      = (truncf (F := Ideal) .bf16 (W (Proc.devRef .tc main_arg4) : FVec Ideal S1935x300 .f32) bitsLt_bf16_f32 : FVec Ideal S1935x300 .bf16) := by
    after_results_simp; try rfl
  exact congrFun e _

/-- `v16` is argument 12 transposed. -/
theorem host_v16 (o : Fin 300) (p : Fin 300) :
    (StableHlo.after (hostOps0 (F := Ideal)) W (Proc.devRef .tc main_v16) : S300x300.Idx → EReal) (ix2 o p) = (W (Proc.devRef .tc main_arg12) : S300x300.Idx → EReal) (ix2 p o) := by
  have e : (StableHlo.after (hostOps0 (F := Ideal)) W (Proc.devRef .tc main_v16) : S300x300.Idx → EReal)
      = (truncf (F := Ideal) .bf16 (transpose S300x300 [1, 0] (W (Proc.devRef .tc main_arg12) : FVec Ideal S300x300 .f32) transposes_S300x300_S300x300_1_0 : FVec Ideal S300x300 .f32) bitsLt_bf16_f32 : FVec Ideal S300x300 .bf16) := by
    after_results_simp; try rfl
  refine (congrFun e _).trans ?_
  show transpose S300x300 [1, 0] (W (Proc.devRef .tc main_arg12) : S300x300.Idx → EReal) transposes_S300x300_S300x300_1_0 (ix2 o p) = _
  exact transpose_apply _ _ _ (ix2 o p) (ix2 p o) (fun b => by match b with | ⟨0, _⟩ => rfl | ⟨1, _⟩ => rfl)

/-- `v11` is the first 300 columns of argument 8, transposed. -/
theorem host_v11 (a : Fin 300) (o : Fin 300) :
    (StableHlo.after (hostOps0 (F := Ideal)) W (Proc.devRef .tc main_v11) : S300x300.Idx → EReal) (ix2 a o) = (W (Proc.devRef .tc main_arg8) : S300x600.Idx → EReal) (ix2 o (Cert.Spec.lo300 a)) := by
  have e : (StableHlo.after (hostOps0 (F := Ideal)) W (Proc.devRef .tc main_v11) : S300x300.Idx → EReal)
      = (truncf (F := Ideal) .bf16 (transpose S300x300 [1, 0] (extractStridedSlice S300x300 ![0, 0] (W (Proc.devRef .tc main_arg8) : FVec Ideal S300x600 .f32) slices_S300x600_S300x300_0_0) transposes_S300x300_S300x300_1_0 : FVec Ideal S300x300 .f32) bitsLt_bf16_f32 : FVec Ideal S300x300 .bf16) := by
    after_results_simp; try rfl
  refine (congrFun e _).trans ?_
  show transpose S300x300 [1, 0] (extractStridedSlice S300x300 ![0, 0] (W (Proc.devRef .tc main_arg8) : S300x600.Idx → EReal) slices_S300x600_S300x300_0_0) transposes_S300x300_S300x300_1_0 (ix2 a o) = _
  refine (transpose_apply _ _ _ (ix2 a o) (ix2 o a) (fun b => by match b with | ⟨0, _⟩ => rfl | ⟨1, _⟩ => rfl)).trans ?_
  exact extractStridedSlice_apply _ _ _ (ix2 o a) (ix2 o (Cert.Spec.lo300 a)) (fun b => by
    match b with
    | ⟨0, _⟩ => show o.val = 0 + o.val; omega
    | ⟨1, _⟩ => show a.val = 0 + a.val; omega)

/-- `v12` is the last 300 columns of argument 8, transposed. -/
theorem host_v12 (a : Fin 300) (o : Fin 300) :
    (StableHlo.after (hostOps0 (F := Ideal)) W (Proc.devRef .tc main_v12) : S300x300.Idx → EReal) (ix2 a o) = (W (Proc.devRef .tc main_arg8) : S300x600.Idx → EReal) (ix2 o (Cert.Spec.hi300 a)) := by
  have e : (StableHlo.after (hostOps0 (F := Ideal)) W (Proc.devRef .tc main_v12) : S300x300.Idx → EReal)
      = (truncf (F := Ideal) .bf16 (transpose S300x300 [1, 0] (extractStridedSlice S300x300 ![0, 300] (W (Proc.devRef .tc main_arg8) : FVec Ideal S300x600 .f32) slices_S300x600_S300x300_0_300) transposes_S300x300_S300x300_1_0 : FVec Ideal S300x300 .f32) bitsLt_bf16_f32 : FVec Ideal S300x300 .bf16) := by
    after_results_simp; try rfl
  refine (congrFun e _).trans ?_
  show transpose S300x300 [1, 0] (extractStridedSlice S300x300 ![0, 300] (W (Proc.devRef .tc main_arg8) : S300x600.Idx → EReal) slices_S300x600_S300x300_0_300) transposes_S300x300_S300x300_1_0 (ix2 a o) = _
  refine (transpose_apply _ _ _ (ix2 a o) (ix2 o a) (fun b => by match b with | ⟨0, _⟩ => rfl | ⟨1, _⟩ => rfl)).trans ?_
  exact extractStridedSlice_apply _ _ _ (ix2 o a) (ix2 o (Cert.Spec.hi300 a)) (fun b => by
    match b with
    | ⟨0, _⟩ => show o.val = 0 + o.val; omega
    | ⟨1, _⟩ => show (Cert.Spec.hi300 a).val = 300 + a.val; rfl)

/-- `v13` is the first 5 columns of argument 10, transposed. -/
theorem host_v13 (a : Fin 5) (o : Fin 300) :
    (StableHlo.after (hostOps0 (F := Ideal)) W (Proc.devRef .tc main_v13) : S5x300.Idx → EReal) (ix2 a o) = (W (Proc.devRef .tc main_arg10) : S300x10.Idx → EReal) (ix2 o (Cert.Spec.lo5 a)) := by
  have e : (StableHlo.after (hostOps0 (F := Ideal)) W (Proc.devRef .tc main_v13) : S5x300.Idx → EReal)
      = (truncf (F := Ideal) .bf16 (transpose S5x300 [1, 0] (extractStridedSlice S300x5 ![0, 0] (W (Proc.devRef .tc main_arg10) : FVec Ideal S300x10 .f32) slices_S300x10_S300x5_0_0) transposes_S300x5_S5x300_1_0 : FVec Ideal S5x300 .f32) bitsLt_bf16_f32 : FVec Ideal S5x300 .bf16) := by
    after_results_simp; try rfl
  refine (congrFun e _).trans ?_
  show transpose S5x300 [1, 0] (extractStridedSlice S300x5 ![0, 0] (W (Proc.devRef .tc main_arg10) : S300x10.Idx → EReal) slices_S300x10_S300x5_0_0) transposes_S300x5_S5x300_1_0 (ix2 a o) = _
  refine (transpose_apply _ _ _ (ix2 a o) (ix2 o a) (fun b => by match b with | ⟨0, _⟩ => rfl | ⟨1, _⟩ => rfl)).trans ?_
  exact extractStridedSlice_apply _ _ _ (ix2 o a) (ix2 o (Cert.Spec.lo5 a)) (fun b => by
    match b with
    | ⟨0, _⟩ => show o.val = 0 + o.val; omega
    | ⟨1, _⟩ => show a.val = 0 + a.val; omega)

/-- `v14` is the last 5 columns of argument 10, transposed. -/
theorem host_v14 (a : Fin 5) (o : Fin 300) :
    (StableHlo.after (hostOps0 (F := Ideal)) W (Proc.devRef .tc main_v14) : S5x300.Idx → EReal) (ix2 a o) = (W (Proc.devRef .tc main_arg10) : S300x10.Idx → EReal) (ix2 o (Cert.Spec.hi5 a)) := by
  have e : (StableHlo.after (hostOps0 (F := Ideal)) W (Proc.devRef .tc main_v14) : S5x300.Idx → EReal)
      = (truncf (F := Ideal) .bf16 (transpose S5x300 [1, 0] (extractStridedSlice S300x5 ![0, 5] (W (Proc.devRef .tc main_arg10) : FVec Ideal S300x10 .f32) slices_S300x10_S300x5_0_5) transposes_S300x5_S5x300_1_0 : FVec Ideal S5x300 .f32) bitsLt_bf16_f32 : FVec Ideal S5x300 .bf16) := by
    after_results_simp; try rfl
  refine (congrFun e _).trans ?_
  show transpose S5x300 [1, 0] (extractStridedSlice S300x5 ![0, 5] (W (Proc.devRef .tc main_arg10) : S300x10.Idx → EReal) slices_S300x10_S300x5_0_5) transposes_S300x5_S5x300_1_0 (ix2 a o) = _
  refine (transpose_apply _ _ _ (ix2 a o) (ix2 o a) (fun b => by match b with | ⟨0, _⟩ => rfl | ⟨1, _⟩ => rfl)).trans ?_
  exact extractStridedSlice_apply _ _ _ (ix2 o a) (ix2 o (Cert.Spec.hi5 a)) (fun b => by
    match b with
    | ⟨0, _⟩ => show o.val = 0 + o.val; omega
    | ⟨1, _⟩ => show (Cert.Spec.hi5 a).val = 5 + a.val; rfl)

/-! ## The zero rows -/

/-- `v20` is the zero row. -/
theorem host_v20 (o : Fin 300) :
    (StableHlo.after (hostOps0 (F := Ideal)) W (Proc.devRef .tc main_v20) : S1x300.Idx → EReal) (ix2 0 o) = (0 : EReal) := by
  have e : (StableHlo.after (hostOps0 (F := Ideal)) W (Proc.devRef .tc main_v20) : S1x300.Idx → EReal)
      = broadcastInDim S1x300 ![] bcast_S_S1x300 (constant (F := Ideal) S_ .f32 0x00000000#32) := by
    after_results_simp; try rfl
  refine (congrFun e _).trans ?_
  refine (broadcastInDim_apply _ _ _ (ix2 0 o) (fun a => a.elim0) (fun a => a.elim0)).trans ?_
  exact Ideal.ofBits_zero_f32

/-- `v21` is the zero row. -/
theorem host_v21 (o : Fin 300) :
    (StableHlo.after (hostOps0 (F := Ideal)) W (Proc.devRef .tc main_v21) : S1x300.Idx → EReal) (ix2 0 o) = (0 : EReal) := by
  have e : (StableHlo.after (hostOps0 (F := Ideal)) W (Proc.devRef .tc main_v21) : S1x300.Idx → EReal)
      = broadcastInDim S1x300 ![] bcast_S_S1x300 (constant (F := Ideal) S_ .f32 0x00000000#32) := by
    after_results_simp; try rfl
  refine (congrFun e _).trans ?_
  refine (broadcastInDim_apply _ _ _ (ix2 0 o) (fun a => a.elim0) (fun a => a.elim0)).trans ?_
  exact Ideal.ofBits_zero_f32

/-! ## The mixing weights -/

/-- `v34` is entry 0 of the two-entry softmax of argument 7, as a [1,1] array. -/
theorem host_v34 :
    (StableHlo.after (hostOps0 (F := Ideal)) W (Proc.devRef .tc main_v34) : S1x1.Idx → EReal) (ix2 0 0)
      = Cert.Spec.softmaxW (W (Proc.devRef .tc main_arg7)) (ix1 0) := by
  have e : (StableHlo.after (hostOps0 (F := Ideal)) W (Proc.devRef .tc main_v34) : S1x1.Idx → EReal)
      = shapeCast S1x1 (shapeCast S_ (extractStridedSlice S1 ![0] (Cert.Spec.softmaxW (W (Proc.devRef .tc main_arg7))) slices_S2_S1_0) shapeCasts_S1_S_) shapeCasts_S_S1x1 := by
    after_results_simp; try rfl
  refine (congrFun e _).trans ?_
  refine (shapeCast_apply _ _ (ix2 0 0) (fun a => a.elim0) (by
    have h1 : (Shape.rowMajor S_ (fun a => a.elim0)).val < 1 := (Shape.rowMajor S_ (fun a => a.elim0)).isLt
    have h2 : (Shape.rowMajor S1x1 (ix2 0 0)).val < 1 := (Shape.rowMajor S1x1 (ix2 0 0)).isLt
    exact (Nat.lt_one_iff.mp h1).trans (Nat.lt_one_iff.mp h2).symm)).trans ?_
  refine (shapeCast_apply _ _ (fun a => a.elim0) (ix1 0) (by
    have h1 : (Shape.rowMajor S_ (fun a => a.elim0)).val < 1 := (Shape.rowMajor S_ (fun a => a.elim0)).isLt
    have h2 : (Shape.rowMajor S1 (ix1 0)).val < 1 := (Shape.rowMajor S1 (ix1 0)).isLt
    exact (Nat.lt_one_iff.mp h2).trans (Nat.lt_one_iff.mp h1).symm)).trans ?_
  exact extractStridedSlice_apply _ _ _ (ix1 0) (ix1 0) (fun b => by match b with | ⟨0, _⟩ => rfl)

/-- `v37` is entry 1 of the two-entry softmax of argument 7, as a [1,1] array. -/
theorem host_v37 :
    (StableHlo.after (hostOps0 (F := Ideal)) W (Proc.devRef .tc main_v37) : S1x1.Idx → EReal) (ix2 0 0)
      = Cert.Spec.softmaxW (W (Proc.devRef .tc main_arg7)) (ix1 1) := by
  have e : (StableHlo.after (hostOps0 (F := Ideal)) W (Proc.devRef .tc main_v37) : S1x1.Idx → EReal)
      = shapeCast S1x1 (shapeCast S_ (extractStridedSlice S1 ![1] (Cert.Spec.softmaxW (W (Proc.devRef .tc main_arg7))) slices_S2_S1_1) shapeCasts_S1_S_) shapeCasts_S_S1x1 := by
    after_results_simp; try rfl
  refine (congrFun e _).trans ?_
  refine (shapeCast_apply _ _ (ix2 0 0) (fun a => a.elim0) (by
    have h1 : (Shape.rowMajor S_ (fun a => a.elim0)).val < 1 := (Shape.rowMajor S_ (fun a => a.elim0)).isLt
    have h2 : (Shape.rowMajor S1x1 (ix2 0 0)).val < 1 := (Shape.rowMajor S1x1 (ix2 0 0)).isLt
    exact (Nat.lt_one_iff.mp h1).trans (Nat.lt_one_iff.mp h2).symm)).trans ?_
  refine (shapeCast_apply _ _ (fun a => a.elim0) (ix1 0) (by
    have h1 : (Shape.rowMajor S_ (fun a => a.elim0)).val < 1 := (Shape.rowMajor S_ (fun a => a.elim0)).isLt
    have h2 : (Shape.rowMajor S1 (ix1 0)).val < 1 := (Shape.rowMajor S1 (ix1 0)).isLt
    exact (Nat.lt_one_iff.mp h2).trans (Nat.lt_one_iff.mp h1).symm)).trans ?_
  exact extractStridedSlice_apply _ _ _ (ix1 0) (ix1 1) (fun b => by match b with | ⟨0, _⟩ => rfl)

/-! ## No argument is written -/

/-- A reference none of the operations writes keeps its contents. -/
theorem host_keep (r : Ref sig .tc) (h : r ∉ hostOps0_W) :
    StableHlo.after (hostOps0 (F := Ideal)) W (Proc.devRef .tc r) = W (Proc.devRef .tc r) :=
  StableHlo.after_of_writes_sub hostOps0 _ hostOps0_writes h
theorem host_arg0 : StableHlo.after (hostOps0 (F := Ideal)) W (Proc.devRef .tc main_arg0) = W (Proc.devRef .tc main_arg0) := host_keep W main_arg0 (by decide)
theorem host_arg1 : StableHlo.after (hostOps0 (F := Ideal)) W (Proc.devRef .tc main_arg1) = W (Proc.devRef .tc main_arg1) := host_keep W main_arg1 (by decide)
theorem host_arg2 : StableHlo.after (hostOps0 (F := Ideal)) W (Proc.devRef .tc main_arg2) = W (Proc.devRef .tc main_arg2) := host_keep W main_arg2 (by decide)
theorem host_arg3 : StableHlo.after (hostOps0 (F := Ideal)) W (Proc.devRef .tc main_arg3) = W (Proc.devRef .tc main_arg3) := host_keep W main_arg3 (by decide)
theorem host_arg4 : StableHlo.after (hostOps0 (F := Ideal)) W (Proc.devRef .tc main_arg4) = W (Proc.devRef .tc main_arg4) := host_keep W main_arg4 (by decide)
theorem host_arg5 : StableHlo.after (hostOps0 (F := Ideal)) W (Proc.devRef .tc main_arg5) = W (Proc.devRef .tc main_arg5) := host_keep W main_arg5 (by decide)
theorem host_arg6 : StableHlo.after (hostOps0 (F := Ideal)) W (Proc.devRef .tc main_arg6) = W (Proc.devRef .tc main_arg6) := host_keep W main_arg6 (by decide)
theorem host_arg7 : StableHlo.after (hostOps0 (F := Ideal)) W (Proc.devRef .tc main_arg7) = W (Proc.devRef .tc main_arg7) := host_keep W main_arg7 (by decide)
theorem host_arg8 : StableHlo.after (hostOps0 (F := Ideal)) W (Proc.devRef .tc main_arg8) = W (Proc.devRef .tc main_arg8) := host_keep W main_arg8 (by decide)
theorem host_arg9 : StableHlo.after (hostOps0 (F := Ideal)) W (Proc.devRef .tc main_arg9) = W (Proc.devRef .tc main_arg9) := host_keep W main_arg9 (by decide)
theorem host_arg10 : StableHlo.after (hostOps0 (F := Ideal)) W (Proc.devRef .tc main_arg10) = W (Proc.devRef .tc main_arg10) := host_keep W main_arg10 (by decide)
theorem host_arg11 : StableHlo.after (hostOps0 (F := Ideal)) W (Proc.devRef .tc main_arg11) = W (Proc.devRef .tc main_arg11) := host_keep W main_arg11 (by decide)
theorem host_arg12 : StableHlo.after (hostOps0 (F := Ideal)) W (Proc.devRef .tc main_arg12) = W (Proc.devRef .tc main_arg12) := host_keep W main_arg12 (by decide)
theorem host_arg13 : StableHlo.after (hostOps0 (F := Ideal)) W (Proc.devRef .tc main_arg13) = W (Proc.devRef .tc main_arg13) := host_keep W main_arg13 (by decide)

end Cert.KernelIdeal.Hand

end
-- ==== Proof.KI.Value.lean ====
/- The result array of the kernel program at the ideal values, at an entry, as the specification's function of the launch
   contents of the arguments: the third call's array formula over the first two calls' array formulas over what the host
   operations leave in each operand. -/
import proofs.«179407_j89060441850130_2_alg».proof.Proof.KI.Run
import proofs.«179407_j89060441850130_2_alg».proof.Proof.KI.ProjArr
import proofs.«179407_j89060441850130_2_alg».proof.Proof.KI.FusedArr
import proofs.«179407_j89060441850130_2_alg».proof.Proof.KI.Glue
import proofs.«179407_j89060441850130_2_alg».proof.Proof.KI.HostStage

set_option maxRecDepth 16384
set_option maxHeartbeats 2000000

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What each operand of the second and third call holds when its call is entered

The first call changes only its two outputs, so the second call finds every other buffer as the host operations left it; the
third call's first four operands are the two calls' outputs and its last two are host results no call touches. -/

theorem E1_0 (c : Dev nD) : V2 (F := Ideal) m ρ c (Pipeline.arrRef spec1 0) = V1 m ρ c main_arg2 := W2_of_ne m ρ c main_arg2 (by decide)
theorem E1_1 (c : Dev nD) : V2 (F := Ideal) m ρ c (Pipeline.arrRef spec1 1) = V1 m ρ c main_v1 := W2_of_ne m ρ c main_v1 (by decide)
theorem E1_2 (c : Dev nD) : V2 (F := Ideal) m ρ c (Pipeline.arrRef spec1 2) = V1 m ρ c main_arg3 := W2_of_ne m ρ c main_arg3 (by decide)
theorem E1_3 (c : Dev nD) : V2 (F := Ideal) m ρ c (Pipeline.arrRef spec1 3) = V1 m ρ c main_v10 := (W2_arr m ρ c 3).trans (((dat0 (V1 m ρ) c).arrAt_in 3 rfl _).trans (A_eq0 (V1 m ρ) c 3))
theorem E1_4 (c : Dev nD) : V2 (F := Ideal) m ρ c (Pipeline.arrRef spec1 4) = V1 m ρ c main_v12 := W2_of_ne m ρ c main_v12 (by decide)
theorem E1_5 (c : Dev nD) : V2 (F := Ideal) m ρ c (Pipeline.arrRef spec1 5) = V1 m ρ c main_v14 := W2_of_ne m ρ c main_v14 (by decide)
theorem E1_6 (c : Dev nD) : V2 (F := Ideal) m ρ c (Pipeline.arrRef spec1 6) = V1 m ρ c main_v34 := (W2_arr m ρ c 6).trans (((dat0 (V1 m ρ) c).arrAt_in 6 rfl _).trans (A_eq0 (V1 m ρ) c 6))
theorem E1_7 (c : Dev nD) : V2 (F := Ideal) m ρ c (Pipeline.arrRef spec1 7) = V1 m ρ c main_v37 := (W2_arr m ρ c 7).trans (((dat0 (V1 m ρ) c).arrAt_in 7 rfl _).trans (A_eq0 (V1 m ρ) c 7))
theorem E1_8 (c : Dev nD) : V2 (F := Ideal) m ρ c (Pipeline.arrRef spec1 8) = V1 m ρ c main_v20 := W2_of_ne m ρ c main_v20 (by decide)
theorem E1_9 (c : Dev nD) : V2 (F := Ideal) m ρ c (Pipeline.arrRef spec1 9) = V1 m ρ c main_v21 := W2_of_ne m ρ c main_v21 (by decide)

theorem E2_0 (c : Dev nD) : V3 (F := Ideal) m ρ c (Pipeline.arrRef spec2 0) = (dat0 (V1 m ρ) c).arrAt 10 cfg0.N :=
  (W3_of_ne m ρ c main_v38_0 (by decide)).trans (W2_arr m ρ c 10)
theorem E2_2 (c : Dev nD) : V3 (F := Ideal) m ρ c (Pipeline.arrRef spec2 2) = (dat0 (V1 m ρ) c).arrAt 11 cfg0.N :=
  (W3_of_ne m ρ c main_v38_1 (by decide)).trans (W2_arr m ρ c 11)
theorem E2_1 (c : Dev nD) : V3 (F := Ideal) m ρ c (Pipeline.arrRef spec2 1) = (dat1 (V2 m ρ) c).arrAt 10 cfg1.N := W3_arr m ρ c 10
theorem E2_3 (c : Dev nD) : V3 (F := Ideal) m ρ c (Pipeline.arrRef spec2 3) = (dat1 (V2 m ρ) c).arrAt 11 cfg1.N := W3_arr m ρ c 11
theorem E2_4 (c : Dev nD) : V3 (F := Ideal) m ρ c (Pipeline.arrRef spec2 4) = V1 m ρ c main_v19 :=
  (W3_of_ne m ρ c main_v19 (by decide)).trans (W2_of_ne m ρ c main_v19 (by decide))
theorem E2_5 (c : Dev nD) : V3 (F := Ideal) m ρ c (Pipeline.arrRef spec2 5) = V1 m ρ c main_v16 :=
  (W3_of_ne m ρ c main_v16 (by decide)).trans (W2_of_ne m ρ c main_v16 (by decide))

/-! ## The four intermediate arrays, at an entry -/

theorem semA_arr (c : Dev nD) (n : Fin 384) (o : Fin 300) : (V3 (F := Ideal) m ρ c (Pipeline.arrRef spec2 0) : S384x300.Idx → EReal) (ix2 n o)
    = P10 (V1 (F := Ideal) m ρ c main_arg0) (V1 (F := Ideal) m ρ c main_v0) (V1 (F := Ideal) m ρ c main_v10) (V1 (F := Ideal) m ρ c main_v11) (V1 (F := Ideal) m ρ c main_v34) (V1 (F := Ideal) m ρ c main_v17) n o := by
  rw [E2_0]; exact arr0_10 (V1 m ρ) c n o
theorem spatA_arr (c : Dev nD) (n : Fin 384) (o : Fin 300) : (V3 (F := Ideal) m ρ c (Pipeline.arrRef spec2 2) : S384x300.Idx → EReal) (ix2 n o)
    = P11 (V1 (F := Ideal) m ρ c main_arg1) (V1 (F := Ideal) m ρ c main_v13) (V1 (F := Ideal) m ρ c main_v37) (V1 (F := Ideal) m ρ c main_v18) n o := by
  rw [E2_2]; exact arr0_11 (V1 m ρ) c n o
theorem semB_arr (c : Dev nD) (n : Fin 384) (o : Fin 300) : (V3 (F := Ideal) m ρ c (Pipeline.arrRef spec2 1) : S384x300.Idx → EReal) (ix2 n o)
    = P10 (V1 (F := Ideal) m ρ c main_arg2) (V1 (F := Ideal) m ρ c main_v1) (V1 (F := Ideal) m ρ c main_v10) (V1 (F := Ideal) m ρ c main_v12) (V1 (F := Ideal) m ρ c main_v34) (V1 (F := Ideal) m ρ c main_v20) n o := by
  rw [E2_1, arr1_10, E1_0, E1_1, E1_3, E1_4, E1_6, E1_8]
theorem spatB_arr (c : Dev nD) (n : Fin 384) (o : Fin 300) : (V3 (F := Ideal) m ρ c (Pipeline.arrRef spec2 3) : S384x300.Idx → EReal) (ix2 n o)
    = P11 (V1 (F := Ideal) m ρ c main_arg3) (V1 (F := Ideal) m ρ c main_v14) (V1 (F := Ideal) m ρ c main_v37) (V1 (F := Ideal) m ρ c main_v21) n o := by
  rw [E2_3, arr1_11, E1_2, E1_5, E1_7, E1_9]

/-! ## The result -/

/-- The result array at an entry is the specification's kernel-shaped function of the arguments as launched. -/
theorem kernel_value (c : Dev nD) (n k : Fin 384) (p : Fin 300) :
    (W4 (F := Ideal) m ρ c (Proc.devRef .tc main_v40) : S384x384x300.Idx → EReal) (ix3 n k p)
      = Cert.Spec.Gk
        (fun a b => (m ((c.tc : Thread nD τ).loc main_arg0)) (ix2 a b))
        (fun a b => (m ((c.tc : Thread nD τ).loc main_arg1)) (ix2 a b))
        (fun a b => (m ((c.tc : Thread nD τ).loc main_arg2)) (ix2 a b))
        (fun a b => (m ((c.tc : Thread nD τ).loc main_arg3)) (ix2 a b))
        (fun a b => (m ((c.tc : Thread nD τ).loc main_arg4)) (ix2 a b))
        (fun a => (m ((c.tc : Thread nD τ).loc main_arg5)) (ix1 a))
        (fun a => (m ((c.tc : Thread nD τ).loc main_arg6)) (ix1 a))
        (fun a b => (m ((c.tc : Thread nD τ).loc main_arg8)) (ix2 a b))
        (fun a => (m ((c.tc : Thread nD τ).loc main_arg9)) (ix1 a))
        (fun a b => (m ((c.tc : Thread nD τ).loc main_arg10)) (ix2 a b))
        (fun a => (m ((c.tc : Thread nD τ).loc main_arg11)) (ix1 a))
        (fun a b => (m ((c.tc : Thread nD τ).loc main_arg12)) (ix2 a b))
        (fun a => (m ((c.tc : Thread nD τ).loc main_arg13)) (ix1 a))
        (Cert.Spec.softmaxW (m ((c.tc : Thread nD τ).loc main_arg7)) (ix1 0))
        (Cert.Spec.softmaxW (m ((c.tc : Thread nD τ).loc main_arg7)) (ix1 1)) n k p := by
  have e4 : W4 (F := Ideal) m ρ c (Proc.devRef .tc main_v40) = (dat2 (V3 m ρ) c).arrAt 6 cfg2.N := W4_arr m ρ c 6
  rw [e4]
  refine (arr2_6 (V3 m ρ) c n k p).trans ?_
  rw [E2_4, E2_5]
  have key := glue (V1 (F := Ideal) m ρ c main_arg0) (V1 (F := Ideal) m ρ c main_arg2) (V1 (F := Ideal) m ρ c main_arg1) (V1 (F := Ideal) m ρ c main_arg3) (m ((c.tc : Thread nD τ).loc main_arg4)) (m ((c.tc : Thread nD τ).loc main_arg5)) (m ((c.tc : Thread nD τ).loc main_arg6))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (Cert.Spec.softmaxW (m ((c.tc : Thread nD τ).loc main_arg7)) (ix1 0)) (Cert.Spec.softmaxW (m ((c.tc : Thread nD τ).loc main_arg7)) (ix1 1))
    (V1 (F := Ideal) m ρ c main_v0) (V1 (F := Ideal) m ρ c main_v1) (V1 (F := Ideal) m ρ c main_v10) (V1 (F := Ideal) m ρ c main_v11) (V1 (F := Ideal) m ρ c main_v12) (V1 (F := Ideal) m ρ c main_v13) (V1 (F := Ideal) m ρ c main_v14) (V1 (F := Ideal) m ρ c main_v16)
    (V1 (F := Ideal) m ρ c main_v17) (V1 (F := Ideal) m ρ c main_v18) (V1 (F := Ideal) m ρ c main_v19) (V1 (F := Ideal) m ρ c main_v20) (V1 (F := Ideal) m ρ c main_v21) (V1 (F := Ideal) m ρ c main_v34) (V1 (F := Ideal) m ρ c main_v37)
    (fun k => host_v0 (W0 m ρ c) k) (fun k => host_v1 (W0 m ρ c) k) (fun k d => host_v10 (W0 m ρ c) k d)
    (fun d o => host_v11 (W0 m ρ c) d o) (fun d o => host_v12 (W0 m ρ c) d o)
    (fun j o => host_v13 (W0 m ρ c) j o) (fun j o => host_v14 (W0 m ρ c) j o)
    (fun o p => host_v16 (W0 m ρ c) o p) (fun o => host_v17 (W0 m ρ c) o) (fun o => host_v18 (W0 m ρ c) o) (fun p => host_v19 (W0 m ρ c) p)
    (fun o => host_v20 (W0 m ρ c) o) (fun o => host_v21 (W0 m ρ c) o) (host_v34 (W0 m ρ c)) (host_v37 (W0 m ρ c))
    (V3 (F := Ideal) m ρ c (Pipeline.arrRef spec2 0)) (V3 (F := Ideal) m ρ c (Pipeline.arrRef spec2 1))
    (V3 (F := Ideal) m ρ c (Pipeline.arrRef spec2 2)) (V3 (F := Ideal) m ρ c (Pipeline.arrRef spec2 3))
    (semA_arr m ρ c) (spatA_arr m ρ c) (semB_arr m ρ c) (spatB_arr m ρ c) n k p
  rw [show (V1 (F := Ideal) m ρ c main_arg0) = (m ((c.tc : Thread nD τ).loc main_arg0)) from host_arg0 (W0 m ρ c), show (V1 (F := Ideal) m ρ c main_arg1) = (m ((c.tc : Thread nD τ).loc main_arg1)) from host_arg1 (W0 m ρ c),
    show (V1 (F := Ideal) m ρ c main_arg2) = (m ((c.tc : Thread nD τ).loc main_arg2)) from host_arg2 (W0 m ρ c), show (V1 (F := Ideal) m ρ c main_arg3) = (m ((c.tc : Thread nD τ).loc main_arg3)) from host_arg3 (W0 m ρ c)] at key
  exact key

/-- The kernel program's run with its result named: every weakly fair execution terminates, the result array ends at the last
    boundary's contents and every argument array as launched. -/
theorem run_value : θ_run defs (onTc (τ := τ) (main (F := Ideal))) ⟨m, fun _ => 0, ρ⟩ (fun r => ∀ c : Dev nD,
      r.2.mem ((c.tc : Thread nD τ).loc main_v40) = W4 (F := Ideal) m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v40 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c)⟩) (run_all m ρ)

end Cert.KernelIdeal.Hand

end
-- ==== Proof.RefFeat.lean ====
/-
  The reference's first stages read at an index: the gate is the logistic of the gate entry (the reference spells it
  as one over one plus the exponential of the negation, which is the logistic's definition on the extended reals),
  and the embedded features are the specification's gated, embedded sum.
-/
import proofs.«179407_j89060441850130_2_alg».proof.Proof.Gen.ReferenceIdeal.Read
import proofs.«179407_j89060441850130_2_alg».proof.Proof.Spec
import Idealize.ShloMosaic.Lib.IdealHost

noncomputable section

open scoped BigOperators

namespace Cert.RefValue

open Cert.ReferenceIdeal Cert.ReferenceIdeal.Gen Cert.ReferenceIdeal.Read Idealize.ShloMosaic Idealize.ShloMosaic.ValueIdx

/-- The first gate, broadcast along the rows, is the logistic of the gate entry. -/
theorem gate1_eq (x5 : (⟨S1935, .f32⟩ : BufTy).Contents (Elt Ideal)) (n : Fin 384) (k : Fin 1935) :
    val_main_v7 (F := Ideal) x5 (ix2 n k) = Ideal.logistic (x5 (ix1 k)) := by
  rw [val_main_v7_apply, val_main_v6_apply, val_main_v5_apply, val_main_v4_apply, val_main_cst_0_apply,
    val_main_v3_apply, val_main_v2_apply, val_main_cst_apply, val_main_v1_apply, val_main_v0_apply]
  have e : idx_main_v6 (idx_main_v7 (ix2 n k)) = ix1 k := funext fun a => match a with | ⟨0, _⟩ => rfl
  rw [e]
  simp only [Ideal.hostDivf_def, Ideal.ofBits_def, Ideal.ofBits_one_f32, Ideal.addf_def, Ideal.hostUnary_exp_def,
    Ideal.hostNegf_def, Ideal.negf_def]
  rfl

/-- The second gate likewise. -/
theorem gate2_eq (x6 : (⟨S1935, .f32⟩ : BufTy).Contents (Elt Ideal)) (n : Fin 384) (k : Fin 1935) :
    val_main_v17 (F := Ideal) x6 (ix2 n k) = Ideal.logistic (x6 (ix1 k)) := by
  rw [val_main_v17_apply, val_main_v16_apply, val_main_v15_apply, val_main_v14_apply, val_main_cst_2_apply,
    val_main_v13_apply, val_main_v12_apply, val_main_cst_1_apply, val_main_v11_apply, val_main_v10_apply]
  have e : idx_main_v16 (idx_main_v17 (ix2 n k)) = ix1 k := funext fun a => match a with | ⟨0, _⟩ => rfl
  rw [e]
  simp only [Ideal.hostDivf_def, Ideal.ofBits_def, Ideal.ofBits_one_f32, Ideal.addf_def, Ideal.hostUnary_exp_def,
    Ideal.hostNegf_def, Ideal.negf_def]
  rfl

/-- The first rows' embedded features are the specification's. -/
theorem feat1_eq (x0 : (⟨S384x1935, .f32⟩ : BufTy).Contents (Elt Ideal)) (x4 : (⟨S1935x300, .f32⟩ : BufTy).Contents (Elt Ideal))
    (x5 : (⟨S1935, .f32⟩ : BufTy).Contents (Elt Ideal)) (n : Fin 384) (d : Fin 300) :
    val_main_v9 (F := Ideal) x0 x4 x5 (ix2 n d)
      = Cert.Spec.feat (fun n k => x0 (ix2 n k)) (fun k => x5 (ix1 k)) (fun k d => x4 (ix2 k d)) n d := by
  rw [val_main_v9_apply]
  unfold Cert.Spec.feat
  refine Finset.sum_congr rfl fun k _ => ?_
  have el : lidx_main_v9 (ix2 n d) k = ix2 n k := funext fun a => match a with | ⟨0, _⟩ => rfl | ⟨1, _⟩ => rfl
  have er : ridx_main_v9 (ix2 n d) k = ix2 k d := funext fun a => match a with | ⟨0, _⟩ => rfl | ⟨1, _⟩ => rfl
  rw [el, er, val_main_v8_apply, gate1_eq]
  rfl

/-- The second rows' embedded features are the specification's. -/
theorem feat2_eq (x2 : (⟨S384x1935, .f32⟩ : BufTy).Contents (Elt Ideal)) (x4 : (⟨S1935x300, .f32⟩ : BufTy).Contents (Elt Ideal))
    (x6 : (⟨S1935, .f32⟩ : BufTy).Contents (Elt Ideal)) (n : Fin 384) (d : Fin 300) :
    val_main_v19 (F := Ideal) x2 x4 x6 (ix2 n d)
      = Cert.Spec.feat (fun n k => x2 (ix2 n k)) (fun k => x6 (ix1 k)) (fun k d => x4 (ix2 k d)) n d := by
  rw [val_main_v19_apply]
  unfold Cert.Spec.feat
  refine Finset.sum_congr rfl fun k _ => ?_
  have el : lidx_main_v19 (ix2 n d) k = ix2 n k := funext fun a => match a with | ⟨0, _⟩ => rfl | ⟨1, _⟩ => rfl
  have er : ridx_main_v19 (ix2 n d) k = ix2 k d := funext fun a => match a with | ⟨0, _⟩ => rfl | ⟨1, _⟩ => rfl
  rw [el, er, val_main_v18_apply, gate2_eq]
  rfl

end Cert.RefValue

end
-- ==== Proof.RefProj.lean ====
/-
  The reference's four projections read at an index: each is the specification's sum over one half of a
  concatenated weight axis (a slice of the weight matrix read at a column is the matrix read at that column of
  the half).
-/
import proofs.«179407_j89060441850130_2_alg».proof.Proof.RefFeat

noncomputable section

open scoped BigOperators

namespace Cert.RefValue

open Cert.ReferenceIdeal Cert.ReferenceIdeal.Gen Cert.ReferenceIdeal.Read Idealize.ShloMosaic Idealize.ShloMosaic.ValueIdx

/-- The first rows' embedding against the first 300 weight columns. -/
theorem projA_eq (x0 : (⟨S384x1935, .f32⟩ : BufTy).Contents (Elt Ideal)) (x4 : (⟨S1935x300, .f32⟩ : BufTy).Contents (Elt Ideal)) (x5 : (⟨S1935, .f32⟩ : BufTy).Contents (Elt Ideal)) (x8 : (⟨S300x600, .f32⟩ : BufTy).Contents (Elt Ideal))
    (n : Fin 384) (o : Fin 300) :
    val_main_v22 (F := Ideal) x0 x4 x5 x8 (ix2 n o) = Cert.Spec.projLo (Cert.Spec.feat (fun a b => x0 (ix2 a b)) (fun a => x5 (ix1 a)) (fun a b => x4 (ix2 a b))) (fun a b => x8 (ix2 a b)) n o := by
  rw [val_main_v22_apply]
  unfold Cert.Spec.projLo
  refine Finset.sum_congr rfl fun k _ => ?_
  have el : lidx_main_v22 (ix2 n o) k = ix2 n k := funext fun a => match a with | ⟨0, _⟩ => rfl | ⟨1, _⟩ => rfl
  have er : ridx_main_v22 (ix2 n o) k = ix2 o k := funext fun a => match a with | ⟨0, _⟩ => rfl | ⟨1, _⟩ => rfl
  have es : idx_main_v20 (ix2 o k) = ix2 o (Cert.Spec.lo300 k) := funext fun a => match a with | ⟨0, _⟩ => rfl | ⟨1, _⟩ => rfl
  rw [el, er, feat1_eq, val_main_v20_apply, es]

/-- The second rows' embedding against the last 300 weight columns. -/
theorem projB_eq (x2 : (⟨S384x1935, .f32⟩ : BufTy).Contents (Elt Ideal)) (x4 : (⟨S1935x300, .f32⟩ : BufTy).Contents (Elt Ideal)) (x6 : (⟨S1935, .f32⟩ : BufTy).Contents (Elt Ideal)) (x8 : (⟨S300x600, .f32⟩ : BufTy).Contents (Elt Ideal))
    (m : Fin 384) (o : Fin 300) :
    val_main_v24 (F := Ideal) x2 x4 x6 x8 (ix2 m o) = Cert.Spec.projHi (Cert.Spec.feat (fun a b => x2 (ix2 a b)) (fun a => x6 (ix1 a)) (fun a b => x4 (ix2 a b))) (fun a b => x8 (ix2 a b)) m o := by
  rw [val_main_v24_apply]
  unfold Cert.Spec.projHi
  refine Finset.sum_congr rfl fun k _ => ?_
  have el : lidx_main_v24 (ix2 m o) k = ix2 m k := funext fun a => match a with | ⟨0, _⟩ => rfl | ⟨1, _⟩ => rfl
  have er : ridx_main_v24 (ix2 m o) k = ix2 o k := funext fun a => match a with | ⟨0, _⟩ => rfl | ⟨1, _⟩ => rfl
  have es : idx_main_v21 (ix2 o k) = ix2 o (Cert.Spec.hi300 k) := funext fun a => match a with | ⟨0, _⟩ => rfl | ⟨1, _⟩ => rfl
  rw [el, er, feat2_eq, val_main_v21_apply, es]

/-- The first boxes against the first 5 weight columns. -/
theorem boxC_eq (x1 : (⟨S384x5, .f32⟩ : BufTy).Contents (Elt Ideal)) (x10 : (⟨S300x10, .f32⟩ : BufTy).Contents (Elt Ideal)) (n : Fin 384) (o : Fin 300) :
    val_main_v35 (F := Ideal) x1 x10 (ix2 n o) = Cert.Spec.boxLo (fun a b => x1 (ix2 a b)) (fun a b => x10 (ix2 a b)) n o := by
  rw [val_main_v35_apply]
  unfold Cert.Spec.boxLo
  refine Finset.sum_congr rfl fun k _ => ?_
  have el : lidx_main_v35 (ix2 n o) k = ix2 n k := funext fun a => match a with | ⟨0, _⟩ => rfl | ⟨1, _⟩ => rfl
  have er : ridx_main_v35 (ix2 n o) k = ix2 o k := funext fun a => match a with | ⟨0, _⟩ => rfl | ⟨1, _⟩ => rfl
  have es : idx_main_v33 (ix2 o k) = ix2 o (Cert.Spec.lo5 k) := funext fun a => match a with | ⟨0, _⟩ => rfl | ⟨1, _⟩ => rfl
  rw [el, er, val_main_v33_apply, es]

/-- The second boxes against the last 5 weight columns. -/
theorem boxD_eq (x3 : (⟨S384x5, .f32⟩ : BufTy).Contents (Elt Ideal)) (x10 : (⟨S300x10, .f32⟩ : BufTy).Contents (Elt Ideal)) (m : Fin 384) (o : Fin 300) :
    val_main_v37 (F := Ideal) x3 x10 (ix2 m o) = Cert.Spec.boxHi (fun a b => x3 (ix2 a b)) (fun a b => x10 (ix2 a b)) m o := by
  rw [val_main_v37_apply]
  unfold Cert.Spec.boxHi
  refine Finset.sum_congr rfl fun k _ => ?_
  have el : lidx_main_v37 (ix2 m o) k = ix2 m k := funext fun a => match a with | ⟨0, _⟩ => rfl | ⟨1, _⟩ => rfl
  have er : ridx_main_v37 (ix2 m o) k = ix2 o k := funext fun a => match a with | ⟨0, _⟩ => rfl | ⟨1, _⟩ => rfl
  have es : idx_main_v34 (ix2 o k) = ix2 o (Cert.Spec.hi5 k) := funext fun a => match a with | ⟨0, _⟩ => rfl | ⟨1, _⟩ => rfl
  rw [el, er, val_main_v34_apply, es]

end Cert.RefValue

end
-- ==== Proof.RefLayers.lean ====
/-
  The reference's two rectified layers read at a pair of rows, and its two mixing weights: each layer is the
  maximum with zero of the two rows' projections added, then the bias; each weight is an entry of the softmax.
-/
import proofs.«179407_j89060441850130_2_alg».proof.Proof.RefProj
import proofs.«179407_j89060441850130_2_alg».proof.Proof.Softmax

noncomputable section

open scoped BigOperators

namespace Cert.RefValue

open Cert.ReferenceIdeal Cert.ReferenceIdeal.Gen Cert.ReferenceIdeal.Read Idealize.ShloMosaic Idealize.ShloMosaic.ValueIdx

/-- The first rectified layer at rows `n`, `m` and coordinate `o`. -/
theorem layer1_eq (x0 x2 : (⟨S384x1935, .f32⟩ : BufTy).Contents (Elt Ideal)) (x4 : (⟨S1935x300, .f32⟩ : BufTy).Contents (Elt Ideal)) (x5 x6 : (⟨S1935, .f32⟩ : BufTy).Contents (Elt Ideal)) (x8 : (⟨S300x600, .f32⟩ : BufTy).Contents (Elt Ideal))
    (x9 : (⟨S300, .f32⟩ : BufTy).Contents (Elt Ideal)) (n m : Fin 384) (o : Fin 300) :
    val_main_v32 (F := Ideal) x0 x2 x4 x5 x6 x8 x9 (ix3 n m o)
      = max ((Cert.Spec.projLo (Cert.Spec.feat (fun a b => x0 (ix2 a b)) (fun a => x5 (ix1 a)) (fun a b => x4 (ix2 a b))) (fun a b => x8 (ix2 a b)) n o + Cert.Spec.projHi (Cert.Spec.feat (fun a b => x2 (ix2 a b)) (fun a => x6 (ix1 a)) (fun a b => x4 (ix2 a b))) (fun a b => x8 (ix2 a b)) m o) + x9 (ix1 o)) 0 := by
  rw [val_main_v32_apply, val_main_v31_apply, val_main_v28_apply, val_main_v26_apply, val_main_v23_apply,
    val_main_v27_apply, val_main_v25_apply, val_main_v30_apply, val_main_v29_apply, val_main_call0_v0_apply,
    val_main_call0_cst_apply]
  have e1 : idx_main_v23 (idx_main_v26 (ix3 n m o)) = ix2 n o := funext fun a => match a with | ⟨0, _⟩ => rfl | ⟨1, _⟩ => rfl
  have e2 : idx_main_v25 (idx_main_v27 (ix3 n m o)) = ix2 m o := funext fun a => match a with | ⟨0, _⟩ => rfl | ⟨1, _⟩ => rfl
  have e3 : idx_main_v29 (idx_main_v30 (ix3 n m o)) = ix1 o := funext fun a => match a with | ⟨0, _⟩ => rfl
  rw [e1, e2, e3, projA_eq, projB_eq]
  simp only [Ideal.maximumf_def, Ideal.addf_def, Ideal.ofBits_def, Ideal.ofBits_zero_f32]

/-- The second rectified layer at rows `n`, `m` and coordinate `o`. -/
theorem layer2_eq (x1 x3 : (⟨S384x5, .f32⟩ : BufTy).Contents (Elt Ideal)) (x10 : (⟨S300x10, .f32⟩ : BufTy).Contents (Elt Ideal)) (x11 : (⟨S300, .f32⟩ : BufTy).Contents (Elt Ideal)) (n m : Fin 384) (o : Fin 300) :
    val_main_v45 (F := Ideal) x1 x3 x10 x11 (ix3 n m o)
      = max ((Cert.Spec.boxLo (fun a b => x1 (ix2 a b)) (fun a b => x10 (ix2 a b)) n o + Cert.Spec.boxHi (fun a b => x3 (ix2 a b)) (fun a b => x10 (ix2 a b)) m o) + x11 (ix1 o)) 0 := by
  rw [val_main_v45_apply, val_main_v44_apply, val_main_v41_apply, val_main_v39_apply, val_main_v36_apply,
    val_main_v40_apply, val_main_v38_apply, val_main_v43_apply, val_main_v42_apply, val_main_call1_v0_apply,
    val_main_call1_cst_apply]
  have e1 : idx_main_v36 (idx_main_v39 (ix3 n m o)) = ix2 n o := funext fun a => match a with | ⟨0, _⟩ => rfl | ⟨1, _⟩ => rfl
  have e2 : idx_main_v38 (idx_main_v40 (ix3 n m o)) = ix2 m o := funext fun a => match a with | ⟨0, _⟩ => rfl | ⟨1, _⟩ => rfl
  have e3 : idx_main_v42 (idx_main_v43 (ix3 n m o)) = ix1 o := funext fun a => match a with | ⟨0, _⟩ => rfl
  rw [e1, e2, e3, boxC_eq, boxD_eq]
  simp only [Ideal.maximumf_def, Ideal.addf_def, Ideal.ofBits_def, Ideal.ofBits_zero_f32]

/-- The reference's softmax stage is the specification's. -/
theorem softmax_eq (x7 : (⟨S2, .f32⟩ : BufTy).Contents (Elt Ideal)) : val_main_v55 (F := Ideal) x7 = Cert.Spec.softmaxW x7 := rfl

/-- The first mixing weight, broadcast to the result's shape, is the softmax's entry 0. -/
theorem weight0_eq (x7 : (⟨S2, .f32⟩ : BufTy).Contents (Elt Ideal)) (i : S384x384x300.Idx) :
    val_main_v58 (F := Ideal) x7 i = Cert.Spec.softmaxW x7 (ix1 0) := by
  rw [val_main_v58_apply]
  unfold val_main_v57
  rw [shapeCast_apply (val_main_v56 (F := Ideal) x7) shapeCasts_S1_S_ (idx_main_v58 i) (ix1 0) rfl, val_main_v56_apply]
  have e : idx_main_v56 (ix1 (0 : Fin 1)) = ix1 (0 : Fin 2) := funext fun a => match a with | ⟨0, _⟩ => rfl
  rw [e, softmax_eq]

/-- The second mixing weight is the softmax's entry 1. -/
theorem weight1_eq (x7 : (⟨S2, .f32⟩ : BufTy).Contents (Elt Ideal)) (i : S384x384x300.Idx) :
    val_main_v62 (F := Ideal) x7 i = Cert.Spec.softmaxW x7 (ix1 1) := by
  rw [val_main_v62_apply]
  unfold val_main_v61
  rw [shapeCast_apply (val_main_v60 (F := Ideal) x7) shapeCasts_S1_S_ (idx_main_v62 i) (ix1 0) rfl, val_main_v60_apply]
  have e : idx_main_v60 (ix1 (0 : Fin 1)) = ix1 (1 : Fin 2) := funext fun a => match a with | ⟨0, _⟩ => rfl
  rw [e, softmax_eq]

end Cert.RefValue

end
-- ==== Proof.RefValue.lean ====
/-
  The reference's value: its result array, read at rows `n`, `m` and coordinate `p`, is the specification's
  add-then-rectify-then-scale formula of the argument arrays read by coordinates, with the two softmax entries as
  mixing weights.
-/
import proofs.«179407_j89060441850130_2_alg».proof.Proof.RefLayers

noncomputable section

open scoped BigOperators

namespace Cert.RefValue

open Cert.ReferenceIdeal Cert.ReferenceIdeal.Gen Cert.ReferenceIdeal.Read Idealize.ShloMosaic Idealize.ShloMosaic.ValueIdx
open Idealize.ShloMosaic.TcCoe Idealize.SL.Sem

/-- The last stage of the reference, at an index, is `Gr`. -/
theorem ref_val_eq (x0 : (⟨S384x1935, .f32⟩ : BufTy).Contents (Elt Ideal)) (x1 : (⟨S384x5, .f32⟩ : BufTy).Contents (Elt Ideal)) (x2 : (⟨S384x1935, .f32⟩ : BufTy).Contents (Elt Ideal)) (x3 : (⟨S384x5, .f32⟩ : BufTy).Contents (Elt Ideal)) (x4 : (⟨S1935x300, .f32⟩ : BufTy).Contents (Elt Ideal)) (x5 : (⟨S1935, .f32⟩ : BufTy).Contents (Elt Ideal)) (x6 : (⟨S1935, .f32⟩ : BufTy).Contents (Elt Ideal)) (x7 : (⟨S2, .f32⟩ : BufTy).Contents (Elt Ideal)) (x8 : (⟨S300x600, .f32⟩ : BufTy).Contents (Elt Ideal)) (x9 : (⟨S300, .f32⟩ : BufTy).Contents (Elt Ideal)) (x10 : (⟨S300x10, .f32⟩ : BufTy).Contents (Elt Ideal)) (x11 : (⟨S300, .f32⟩ : BufTy).Contents (Elt Ideal)) (x12 : (⟨S300x300, .f32⟩ : BufTy).Contents (Elt Ideal)) (x13 : (⟨S300, .f32⟩ : BufTy).Contents (Elt Ideal))
    (n m : Fin 384) (p : Fin 300) :
    val_main_v68 (F := Ideal) x0 x1 x2 x3 x4 x5 x6 x7 x8 x9 x10 x11 x12 x13 (ix3 n m p)
      = Cert.Spec.Gr (fun a b => x0 (ix2 a b))
        (fun a b => x1 (ix2 a b))
        (fun a b => x2 (ix2 a b))
        (fun a b => x3 (ix2 a b))
        (fun a b => x4 (ix2 a b))
        (fun a => x5 (ix1 a))
        (fun a => x6 (ix1 a))
        (fun a b => x8 (ix2 a b))
        (fun a => x9 (ix1 a))
        (fun a b => x10 (ix2 a b))
        (fun a => x11 (ix1 a))
        (fun a b => x12 (ix2 a b))
        (fun a => x13 (ix1 a))
        (Cert.Spec.softmaxW x7 (ix1 0)) (Cert.Spec.softmaxW x7 (ix1 1)) n m p := by
  rw [val_main_v68_apply, val_main_v65_apply, val_main_v67_apply, val_main_v66_apply]
  unfold Cert.Spec.Gr
  have e3 : idx_main_v66 (idx_main_v67 (ix3 n m p)) = ix1 p := funext fun a => match a with | ⟨0, _⟩ => rfl
  rw [e3]
  simp only [Ideal.addf_def]
  congr 1
  refine Finset.sum_congr rfl fun o _ => ?_
  have el : lidx_main_v65 (ix3 n m p) o = ix3 n m o :=
    funext fun a => match a with | ⟨0, _⟩ => rfl | ⟨1, _⟩ => rfl | ⟨2, _⟩ => rfl
  have er : ridx_main_v65 (ix3 n m p) o = ix2 p o := funext fun a => match a with | ⟨0, _⟩ => rfl | ⟨1, _⟩ => rfl
  rw [el, er, val_main_v64_apply, val_main_v59_apply, val_main_v63_apply, weight0_eq, weight1_eq, layer1_eq, layer2_eq]
  rfl

/-- The reference run's result term, at an index, is `Gr` of the launch contents of the arguments. -/
theorem ref_eq (m : (ℓ : Loc nD τ sig) → Buf (Elt Ideal) ℓ) (c : Dev nD) (n k : Fin 384) (p : Fin 300) :
    (Cert.ReferenceIdeal.Value.res_main_v68 (F := Ideal) m c : (⟨S384x384x300, .f32⟩ : BufTy).Contents (Elt Ideal)) (ix3 n k p)
      = Cert.Spec.Gr (fun a b => (m ((c.tc : Thread nD τ).loc main_arg0)) (ix2 a b))
        (fun a b => (m ((c.tc : Thread nD τ).loc main_arg1)) (ix2 a b))
        (fun a b => (m ((c.tc : Thread nD τ).loc main_arg2)) (ix2 a b))
        (fun a b => (m ((c.tc : Thread nD τ).loc main_arg3)) (ix2 a b))
        (fun a b => (m ((c.tc : Thread nD τ).loc main_arg4)) (ix2 a b))
        (fun a => (m ((c.tc : Thread nD τ).loc main_arg5)) (ix1 a))
        (fun a => (m ((c.tc : Thread nD τ).loc main_arg6)) (ix1 a))
        (fun a b => (m ((c.tc : Thread nD τ).loc main_arg8)) (ix2 a b))
        (fun a => (m ((c.tc : Thread nD τ).loc main_arg9)) (ix1 a))
        (fun a b => (m ((c.tc : Thread nD τ).loc main_arg10)) (ix2 a b))
        (fun a => (m ((c.tc : Thread nD τ).loc main_arg11)) (ix1 a))
        (fun a b => (m ((c.tc : Thread nD τ).loc main_arg12)) (ix2 a b))
        (fun a => (m ((c.tc : Thread nD τ).loc main_arg13)) (ix1 a))
        (Cert.Spec.softmaxW (m ((c.tc : Thread nD τ).loc main_arg7)) (ix1 0)) (Cert.Spec.softmaxW (m ((c.tc : Thread nD τ).loc main_arg7)) (ix1 1)) n k p := by
  rw [val_main_v68_eq]
  exact ref_val_eq _ _ _ _ _ _ _ _ _ _ _ _ _ _ n k p

end Cert.RefValue

end
-- ==== Proof.Finite.lean ====
/-
  Finiteness from the precondition: the precondition says, array by array, that every entry's absolute value is
  below plus infinity (a conjunction, over the fourteen arrays, of an all-entries reduction of that comparison).
  On the extended reals an entry whose absolute value is below the top is neither infinity: it is a real number.
-/
import proofs.«179407_j89060441850130_2_alg».proof.Proof.Gen.Pre_finite_inputs
import Idealize.ShloMosaic.Lib.ReduceAll
import Idealize.ShloMosaic.Lib.IdealHost
import Idealize.ShloMosaic.PureOps.Ideal.Laws
import Idealize.ShloMosaic.Lib.ValueIdx

noncomputable section

open scoped BigOperators

namespace Cert.Finite

open Idealize.ShloMosaic Idealize.ShloMosaic.ValueIdx Cert.Pre_finite_inputs Cert.Pre_finite_inputs.Gen

instance : Subsingleton (⟨0, ![]⟩ : Shape).Idx := ⟨fun a b => funext fun d => d.elim0⟩

/-- The pattern of plus infinity is the top of the extended reals. -/
theorem ofBits_inf : Ideal.ofBits .f32 0x7F800000#32 = ⊤ := by simp [Ideal.ofBits, Ideal.ieee]

/-- A conjunction of two one-bit arrays at an index is the conjunction of the bits. -/
theorem andi_apply {s : Shape} {w : Nat} (x y : IVec s w) (i : s.Idx) : andi x y i = IntOp.andi (x i) (y i) := rfl

/-- An extended real whose absolute value is below the top is a real number. -/
theorem real_of_abs_lt_top (y : EReal) (h : Ideal.cmp .olt (max y (-y)) ⊤ = 1#1) : ∃ r : ℝ, y = (r : EReal) := by
  induction y using EReal.rec with
  | bot => simp [Ideal.cmp] at h
  | coe r => exact ⟨r, rfl⟩
  | top => simp [Ideal.cmp] at h

/-- One array's share of the precondition: if every entry compares below plus infinity in absolute value, every
    entry is a real number. -/
theorem entry_real {s : Shape} {axes : List (Fin s.rank)} (x : FVec Ideal s .f32)
    (hb : (⟨0, ![]⟩ : Shape).BroadcastsInDim s (![] : Fin 0 → Fin s.rank)) (hr : s.ReducesTo axes ⟨0, ![]⟩)
    (hS : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hS ix0 = 1#1) (i : s.Idx) : ∃ r : ℝ, x i = (r : EReal) := by
  have h1 := Host.reduce_andi_all _ _ hr hS ix0 e i
  rw [cmpf_apply, broadcastInDim_scalar_apply] at h1
  refine real_of_abs_lt_top (x i) ?_
  rw [← ofBits_inf]
  exact h1

/-- From the precondition (all ones) to: every entry of every argument array is a real number. -/
theorem finite_of_pre (a0 : FVec Ideal S384x1935 .f32) (a1 : FVec Ideal S384x5 .f32) (a2 : FVec Ideal S384x1935 .f32) (a3 : FVec Ideal S384x5 .f32) (a4 : FVec Ideal S1935x300 .f32) (a5 : FVec Ideal S1935 .f32) (a6 : FVec Ideal S1935 .f32) (a7 : FVec Ideal S2 .f32) (a8 : FVec Ideal S300x600 .f32) (a9 : FVec Ideal S300 .f32) (a10 : FVec Ideal S300x10 .f32) (a11 : FVec Ideal S300 .f32) (a12 : FVec Ideal S300x300 .f32) (a13 : FVec Ideal S300 .f32)
    (h : Cert.Pre_finite_inputs.fn (F := Ideal) a0 a1 a2 a3 a4 a5 a6 a7 a8 a9 a10 a11 a12 a13 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal)) := by
  have h0 := congrFun h ix0
  dsimp only [fn, fn_part1, fn_part2, fn_part3, fn_part4] at h0
  simp only [andi_apply, IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨entry_real _ _ _ _ e0, entry_real _ _ _ _ e1, entry_real _ _ _ _ e2, entry_real _ _ _ _ e3,
    entry_real _ _ _ _ e4, entry_real _ _ _ _ e5, entry_real _ _ _ _ e6, entry_real _ _ _ _ e7, entry_real _ _ _ _ e8,
    entry_real _ _ _ _ e9, entry_real _ _ _ _ e10, entry_real _ _ _ _ e11, entry_real _ _ _ _ e12, entry_real _ _ _ _ e13⟩

end Cert.Finite

end
-- ==== Proof.Law.lean ====
/-
  The algebraic law: scaling before the rectifier with the two rows' shares kept apart equals scaling after it with
  the shares added first — when every entry is a real number and the two mixing weights are nonnegative reals.

  On the extended reals multiplication does not distribute over addition at the infinities, and `w · max x 0 =
  max (w · x) 0` needs `0 ≤ w`; so the proof first shows every intermediate sum is a real number (a finite sum of
  products of reals), names those reals, and then the identity is one of real arithmetic:
  `max (w(a + e) + w(b + 0)) 0 = w · max ((a + b) + e) 0` for `0 ≤ w`.
-/
import proofs.«179407_j89060441850130_2_alg».proof.Proof.Spec
import proofs.«179407_j89060441850130_2_alg».proof.Proof.Softmax

noncomputable section

open scoped BigOperators

namespace Cert.Spec

open Idealize.ShloMosaic

/-! ## Real-valued extended reals are closed under the operations used -/

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_logistic {x : EReal} (hx : ∃ r : ℝ, x = (r : EReal)) : ∃ r : ℝ, Ideal.logistic x = (r : EReal) := by
  obtain ⟨a, rfl⟩ := hx; exact ⟨_, Ideal.logistic_coe a⟩

theorem real_sum {ι : Type*} [Fintype ι] (f : ι → EReal) (hf : ∀ i, ∃ r : ℝ, f i = (r : EReal)) :
    ∃ r : ℝ, ∑ i, f i = (r : EReal) := by
  choose g hg using hf
  exact ⟨∑ i, g i, by rw [← coe_sum]; exact Finset.sum_congr rfl fun i _ => hg i⟩

theorem real_feat {feature : Fin 384 → Fin 1935 → EReal} {gate : Fin 1935 → EReal} {emb : Fin 1935 → Fin 300 → EReal}
    (hf : ∀ n k, ∃ r : ℝ, feature n k = (r : EReal)) (hg : ∀ k, ∃ r : ℝ, gate k = (r : EReal))
    (he : ∀ k d, ∃ r : ℝ, emb k d = (r : EReal)) (n : Fin 384) (d : Fin 300) :
    ∃ r : ℝ, feat feature gate emb n d = (r : EReal) :=
  real_sum _ fun k => real_mul (real_mul (hf n k) (real_logistic (hg k))) (he k d)

theorem real_projLo {f : Fin 384 → Fin 300 → EReal} {w : Fin 300 → Fin 600 → EReal}
    (hf : ∀ n d, ∃ r : ℝ, f n d = (r : EReal)) (hw : ∀ o c, ∃ r : ℝ, w o c = (r : EReal)) (n : Fin 384) (o : Fin 300) :
    ∃ r : ℝ, projLo f w n o = (r : EReal) :=
  real_sum _ fun d => real_mul (hf n d) (hw o _)

theorem real_projHi {f : Fin 384 → Fin 300 → EReal} {w : Fin 300 → Fin 600 → EReal}
    (hf : ∀ n d, ∃ r : ℝ, f n d = (r : EReal)) (hw : ∀ o c, ∃ r : ℝ, w o c = (r : EReal)) (n : Fin 384) (o : Fin 300) :
    ∃ r : ℝ, projHi f w n o = (r : EReal) :=
  real_sum _ fun d => real_mul (hf n d) (hw o _)

theorem real_boxLo {b : Fin 384 → Fin 5 → EReal} {w : Fin 300 → Fin 10 → EReal}
    (hb : ∀ n j, ∃ r : ℝ, b n j = (r : EReal)) (hw : ∀ o c, ∃ r : ℝ, w o c = (r : EReal)) (n : Fin 384) (o : Fin 300) :
    ∃ r : ℝ, boxLo b w n o = (r : EReal) :=
  real_sum _ fun j => real_mul (hb n j) (hw o _)

theorem real_boxHi {b : Fin 384 → Fin 5 → EReal} {w : Fin 300 → Fin 10 → EReal}
    (hb : ∀ n j, ∃ r : ℝ, b n j = (r : EReal)) (hw : ∀ o c, ∃ r : ℝ, w o c = (r : EReal)) (n : Fin 384) (o : Fin 300) :
    ∃ r : ℝ, boxHi b w n o = (r : EReal) :=
  real_sum _ fun j => real_mul (hb n j) (hw o _)

/-! ## The identity at one output coordinate -/

/-- The maximum of a real and zero, taken in the extended reals, is the real maximum. -/
theorem max_coe_zero (x : ℝ) : max (x : EReal) 0 = ((max x 0 : ℝ) : EReal) := by
  rw [← EReal.coe_zero]; exact (EReal.coe_strictMono.monotone.map_max).symm

/-- For nonnegative real weights and real terms, scaling the two shares apart and rectifying after is rectifying the
    summed shares and scaling after. -/
theorem scalar_law (a b c d e1 e2 r0 r1 : ℝ) (h0 : 0 ≤ r0) (h1 : 0 ≤ r1) :
    max ((r0 : EReal) * ((a : EReal) + e1) + (r0 : EReal) * ((b : EReal) + 0)) 0
        + max ((r1 : EReal) * ((c : EReal) + e2) + (r1 : EReal) * ((d : EReal) + 0)) 0
      = (r0 : EReal) * max (((a : EReal) + b) + e1) 0 + (r1 : EReal) * max (((c : EReal) + d) + e2) 0 := by
  rw [add_zero, add_zero]
  simp only [← EReal.coe_add, ← EReal.coe_mul, max_coe_zero]
  congr 1
  rw [mul_max_of_nonneg _ _ h0, mul_max_of_nonneg _ _ h1, mul_zero, mul_zero]
  congr 2 <;> ring

/-! ## The law -/

theorem Gk_eq_Gr (feature1 : Fin 384 → Fin 1935 → EReal) (box1 : Fin 384 → Fin 5 → EReal)
    (feature2 : Fin 384 → Fin 1935 → EReal) (box2 : Fin 384 → Fin 5 → EReal)
    (emb : Fin 1935 → Fin 300 → EReal) (gate1 gate2 : Fin 1935 → EReal)
    (fc1_w : Fin 300 → Fin 600 → EReal) (fc1_b : Fin 300 → EReal)
    (fc2_w : Fin 300 → Fin 10 → EReal) (fc2_b : Fin 300 → EReal)
    (fc3_w : Fin 300 → Fin 300 → EReal) (fc3_b : Fin 300 → EReal) (w0 w1 : EReal)
    (hf1 : ∀ n k, ∃ r : ℝ, feature1 n k = (r : EReal)) (hb1 : ∀ n j, ∃ r : ℝ, box1 n j = (r : EReal))
    (hf2 : ∀ n k, ∃ r : ℝ, feature2 n k = (r : EReal)) (hb2 : ∀ n j, ∃ r : ℝ, box2 n j = (r : EReal))
    (hemb : ∀ k d, ∃ r : ℝ, emb k d = (r : EReal))
    (hg1 : ∀ k, ∃ r : ℝ, gate1 k = (r : EReal)) (hg2 : ∀ k, ∃ r : ℝ, gate2 k = (r : EReal))
    (hfc1w : ∀ o c, ∃ r : ℝ, fc1_w o c = (r : EReal)) (hfc1b : ∀ o, ∃ r : ℝ, fc1_b o = (r : EReal))
    (hfc2w : ∀ o c, ∃ r : ℝ, fc2_w o c = (r : EReal)) (hfc2b : ∀ o, ∃ r : ℝ, fc2_b o = (r : EReal))
    (hw0 : ∃ r : ℝ, 0 ≤ r ∧ w0 = (r : EReal)) (hw1 : ∃ r : ℝ, 0 ≤ r ∧ w1 = (r : EReal)) :
    Gk feature1 box1 feature2 box2 emb gate1 gate2 fc1_w fc1_b fc2_w fc2_b fc3_w fc3_b w0 w1 = Gr feature1 box1 feature2 box2 emb gate1 gate2 fc1_w fc1_b fc2_w fc2_b fc3_w fc3_b w0 w1 := by
  funext n m p
  unfold Gk Gr
  congr 1
  refine Finset.sum_congr rfl fun o _ => ?_
  congr 1
  obtain ⟨a, ha⟩ := real_projLo (real_feat hf1 hg1 hemb) hfc1w n o
  obtain ⟨b, hb⟩ := real_projHi (real_feat hf2 hg2 hemb) hfc1w m o
  obtain ⟨c, hc⟩ := real_boxLo hb1 hfc2w n o
  obtain ⟨d, hd⟩ := real_boxHi hb2 hfc2w m o
  obtain ⟨e1, he1⟩ := hfc1b o
  obtain ⟨e2, he2⟩ := hfc2b o
  obtain ⟨r0, h0, rfl⟩ := hw0
  obtain ⟨r1, h1, rfl⟩ := hw1
  unfold mixed semA semB spatA spatB
  rw [ha, hb, hc, hd, he1, he2]
  exact scalar_law a b c d e1 e2 r0 r1 h0 h1

end Cert.Spec

end
-- ==== Proof.Bridge.lean ====
/-
  The law at the arguments: under the precondition every argument entry is a real number and the two softmax entries
  are nonnegative reals, so the two shapes of the specification agree on the argument arrays read by coordinates.
-/
import proofs.«179407_j89060441850130_2_alg».proof.Proof.Finite
import proofs.«179407_j89060441850130_2_alg».proof.Proof.Law

noncomputable section

open scoped BigOperators

namespace Cert.Finite

open Idealize.ShloMosaic Idealize.ShloMosaic.ValueIdx Cert.Pre_finite_inputs Cert.Pre_finite_inputs.Gen

theorem law_of_pre (a0 : FVec Ideal S384x1935 .f32) (a1 : FVec Ideal S384x5 .f32) (a2 : FVec Ideal S384x1935 .f32) (a3 : FVec Ideal S384x5 .f32) (a4 : FVec Ideal S1935x300 .f32) (a5 : FVec Ideal S1935 .f32) (a6 : FVec Ideal S1935 .f32) (a7 : FVec Ideal S2 .f32) (a8 : FVec Ideal S300x600 .f32) (a9 : FVec Ideal S300 .f32) (a10 : FVec Ideal S300x10 .f32) (a11 : FVec Ideal S300 .f32) (a12 : FVec Ideal S300x300 .f32) (a13 : FVec Ideal S300 .f32)
    (h : Cert.Pre_finite_inputs.fn (F := Ideal) a0 a1 a2 a3 a4 a5 a6 a7 a8 a9 a10 a11 a12 a13 = fun _ => 1#1) :
    Cert.Spec.Gk (fun a b => a0 (ix2 a b))
      (fun a b => a1 (ix2 a b))
      (fun a b => a2 (ix2 a b))
      (fun a b => a3 (ix2 a b))
      (fun a b => a4 (ix2 a b))
      (fun a => a5 (ix1 a))
      (fun a => a6 (ix1 a))
      (fun a b => a8 (ix2 a b))
      (fun a => a9 (ix1 a))
      (fun a b => a10 (ix2 a b))
      (fun a => a11 (ix1 a))
      (fun a b => a12 (ix2 a b))
      (fun a => a13 (ix1 a))
      (Cert.Spec.softmaxW a7 (ix1 0)) (Cert.Spec.softmaxW a7 (ix1 1))
    = Cert.Spec.Gr (fun a b => a0 (ix2 a b))
      (fun a b => a1 (ix2 a b))
      (fun a b => a2 (ix2 a b))
      (fun a b => a3 (ix2 a b))
      (fun a b => a4 (ix2 a b))
      (fun a => a5 (ix1 a))
      (fun a => a6 (ix1 a))
      (fun a b => a8 (ix2 a b))
      (fun a => a9 (ix1 a))
      (fun a b => a10 (ix2 a b))
      (fun a => a11 (ix1 a))
      (fun a b => a12 (ix2 a b))
      (fun a => a13 (ix1 a))
      (Cert.Spec.softmaxW a7 (ix1 0)) (Cert.Spec.softmaxW a7 (ix1 1)) := by
  obtain ⟨h0, h1, h2, h3, h4, h5, h6, h7, h8, h9, h10, h11, _, _⟩ := finite_of_pre a0 a1 a2 a3 a4 a5 a6 a7 a8 a9 a10 a11 a12 a13 h
  exact Cert.Spec.Gk_eq_Gr _ _ _ _ _ _ _ _ _ _ _ _ _ _ _ (fun n k => h0 (ix2 n k)) (fun n j => h1 (ix2 n j))
    (fun n k => h2 (ix2 n k)) (fun n j => h3 (ix2 n j)) (fun k d => h4 (ix2 k d)) (fun k => h5 (ix1 k))
    (fun k => h6 (ix1 k)) (fun o c => h8 (ix2 o c)) (fun o => h9 (ix1 o)) (fun o c => h10 (ix2 o c))
    (fun o => h11 (ix1 o)) (Cert.Spec.softmaxW_nonneg_real a7 h7 (ix1 0)) (Cert.Spec.softmaxW_nonneg_real a7 h7 (ix1 1))

end Cert.Finite

end
-- ==== Proof.lean ====
/- The relation block: for two sets of 384 boxes, every pair (n, m) gets the 300-vector
       fc3 (w0 · relu(fc1[f1(n) ; f2(m)]) + w1 · relu(fc2[box1(n) ; box2(m)])),
   where f(n) = (feature(n) ⊙ sigmoid(gate)) · embeddings and (w0, w1) = softmax(weight_loc).
   The kernel program computes it in three tiled calls: two projections that already carry the mixing weight and (on one
   side only) the bias, then a pairwise kernel that adds the two sides, rectifies, sums the two branches and applies fc3.
   Read on the extended reals both programs compute the same array: the mixing weights are nonnegative reals, so they move
   inside the rectifier, and every intermediate value is a real number because every input is, so the weight distributes
   over the sum of the two sides and the bias. That is `Cert.Spec.Gk_eq_Gr`; the kernel side is `Gk` of the arguments by the
   three calls' runs read block by block, the reference side is `Gr` by its host operations read one at a time.
   The frames: each program runs to the end, faults nowhere and leaves its arguments as launched; for the kernel program that
   is the run of its host operations and its three calls in order, at the word-level and at the ideal values alike. -/
import proofs.«179407_j89060441850130_2_alg».proof.Defs
import proofs.«179407_j89060441850130_2_alg».proof.Proof.Gen.Kernel
import proofs.«179407_j89060441850130_2_alg».proof.Proof.Gen.KernelIdeal
import proofs.«179407_j89060441850130_2_alg».proof.Proof.Gen.ReferenceIdeal
import proofs.«179407_j89060441850130_2_alg».proof.Proof.Gen.ReferenceIdeal.Run
import proofs.«179407_j89060441850130_2_alg».proof.Proof.Gen.ReferenceIdeal.Read
import proofs.«179407_j89060441850130_2_alg».proof.Proof.Gen.Pre_finite_inputs
import proofs.«179407_j89060441850130_2_alg».proof.Proof.K.Run
import proofs.«179407_j89060441850130_2_alg».proof.Proof.KI.Value
import proofs.«179407_j89060441850130_2_alg».proof.Proof.RefValue
import proofs.«179407_j89060441850130_2_alg».proof.Proof.Bridge
import Idealize.ShloMosaic.Adequacy
import Idealize.ShloMosaic.Init

set_option maxRecDepth 16384
set_option maxHeartbeats 2000000

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the kernel program at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From finite inputs agreeing on both sides, the two programs end with the same result array: entry (n, m, p) of the
    kernel's is the kernel-shaped formula of the arguments, entry (n, m, p) of the reference's the reference-shaped one, and
    the two formulas agree on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W4 (F := Ideal) m ρ c (Proc.devRef .tc Cert.KernelIdeal.main_v40),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  show (Cert.ReferenceIdeal.Value.res_main_v68 (F := Ideal) m' c : Cert.KernelIdeal.S384x384x300.Idx → EReal)
    = (Cert.KernelIdeal.Hand.W4 (F := Ideal) m ρ c (Proc.devRef .tc Cert.KernelIdeal.main_v40) : Cert.KernelIdeal.S384x384x300.Idx → EReal)
  funext idx
  obtain ⟨n, k, p, rfl⟩ : ∃ (n k : Fin 384) (p : Fin 300), idx = ix3 n k p := ⟨idx 0, idx 1, idx 2, eq_ix3 idx⟩
  refine (Cert.RefValue.ref_eq m' c n k p).trans ?_
  rw [h0, h1, h2, h3, h4, h5, h6, h7, h8, h9, h10, h11, h12, h13]
  refine Eq.trans ?_ (Cert.KernelIdeal.Hand.kernel_value m ρ c n k p).symm
  exact (congrFun (congrFun (congrFun (Cert.Finite.law_of_pre _ _ _ _ _ _ _ _ _ _ _ _ _ _ (hpre c)) n) k) p).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
